-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x16 : Shape := ⟨2, ![16384, 16]⟩
abbrev S1000000 : Shape := ⟨1, ![1000000]⟩
abbrev S300000x128 : Shape := ⟨2, ![300000, 128]⟩
abbrev S16x128 : Shape := ⟨2, ![16, 128]⟩
abbrev S256x128 : Shape := ⟨2, ![256, 128]⟩
abbrev S256x2 : Shape := ⟨2, ![256, 2]⟩
abbrev S256 : Shape := ⟨1, ![256]⟩
abbrev S256x256 : Shape := ⟨2, ![256, 256]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S300000x128 : S_.BroadcastsInDim S300000x128 (![] : Fin 0 → Fin S300000x128.rank)
  reducesTo_S300000x128_S_d0_1 : S300000x128.ReducesTo [0, 1] S_
  bcast_S_S16x128 : S_.BroadcastsInDim S16x128 (![] : Fin 0 → Fin S16x128.rank)
  reducesTo_S16x128_S_d0_1 : S16x128.ReducesTo [0, 1] S_
  bcast_S_S256x128 : S_.BroadcastsInDim S256x128 (![] : Fin 0 → Fin S256x128.rank)
  reducesTo_S256x128_S_d0_1 : S256x128.ReducesTo [0, 1] S_
  bcast_S_S256x2 : S_.BroadcastsInDim S256x2 (![] : Fin 0 → Fin S256x2.rank)
  reducesTo_S256x2_S_d0_1 : S256x2.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg19 : FVec F S256x128 .f32) (main_arg20 : FVec F S256x256 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S256x128 .f32 := Host.absf main_arg19
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S256x256 .f32 := Host.absf main_arg20
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  main_v63

def fn_part2 {F : FTy → Type} [FloatOps F] (main_arg15 : FVec F S256x256 .f32) (main_arg16 : FVec F S256 .f32) (main_arg17 : FVec F S256x128 .f32) (main_arg18 : FVec F S256x128 .f32) (main_arg19 : FVec F S256x128 .f32) (main_arg20 : FVec F S256x256 .f32) (main_v33 : IVec S_ 1) : IVec S_ 1 :=
  let main_v34 : FVec F S256x256 .f32 := Host.absf main_arg15
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg16
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg17
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S256x128 .f32 := Host.absf main_arg18
  let main_cst_18 : FVec F S_ .f32 := constant S_ .f32 0x7F800000#32
  let main_v50 : FVec F S256x128 .f32 := broadcastInDim S256x128 ![] bcast_S_S256x128 main_cst_18
  fn_part3 (F := F) main_arg19 main_arg20 main_v48 main_v49 main_v50

def fn_part1 {F : FTy → Type} [FloatOps F] (main_arg12 : FVec F S256x128 .f32) (main_arg13 : FVec F S256x2 .f32) (main_arg14 : FVec F S256 .f32) (main_arg15 : FVec F S256x256 .f32) (main_arg16 : FVec F S256 .f32) (main_arg17 : FVec F S256x128 .f32) (main_arg18 : FVec F S256x128 .f32) (main_arg19 : FVec F S256x128 .f32) (main_arg20 : FVec F S256x256 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S256x128 .f32 := Host.absf main_arg12
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x2 .f32 := Host.absf main_arg13
  let main_cst_8 : FVec F S_ .f32 := constant S_ .f32 0x7F800000#32
  let main_v25 : FVec F S256x2 .f32 := broadcastInDim S256x2 ![] bcast_S_S256x2 main_cst_8
  let main_v26 : IVec S256x2 1 := cmpf .olt main_v24 main_v25
  let main_c_9 : IVec S_ 1 := constantI S_ 1 1#1
  let main_v27 : IVec S_ 1 := (fun x v => Host.reduce IntOp.andi x v reducesTo_S256x2_S_d0_1 h_S_) main_v26 main_c_9
  let main_v28 : IVec S_ 1 := andi main_v23 main_v27
  let main_v29 : FVec F S256 .f32 := Host.absf main_arg14
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg15 main_arg16 main_arg17 main_arg18 main_arg19 main_arg20 main_v33

def fn {F : FTy → Type} [FloatOps F] (main_arg0 : IVec S16384 32) (main_arg1 : IVec S16384x16 32) (main_arg2 : IVec S1000000 32) (main_arg3 : IVec S1000000 32) (main_arg4 : IVec S1000000 32) (main_arg5 : IVec S1000000 32) (main_arg6 : IVec S1000000 32) (main_arg7 : IVec S1000000 32) (main_arg8 : FVec F S1000000 .f32) (main_arg9 : FVec F S300000x128 .f32) (main_arg10 : FVec F S300000x128 .f32) (main_arg11 : FVec F S16x128 .f32) (main_arg12 : FVec F S256x128 .f32) (main_arg13 : FVec F S256x2 .f32) (main_arg14 : FVec F S256 .f32) (main_arg15 : FVec F S256x256 .f32) (main_arg16 : FVec F S256 .f32) (main_arg17 : FVec F S256x128 .f32) (main_arg18 : FVec F S256x128 .f32) (main_arg19 : FVec F S256x128 .f32) (main_arg20 : FVec F S256x256 .f32) : IVec S_ 1 :=
  let main_v0 : FVec F S1000000 .f32 := Host.absf main_arg8
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S300000x128 .f32 := Host.absf main_arg9
  let main_cst_0 : FVec F S_ .f32 := constant S_ .f32 0x7F800000#32
  let main_v5 : FVec F S300000x128 .f32 := broadcastInDim S300000x128 ![] bcast_S_S300000x128 main_cst_0
  let main_v6 : IVec S300000x128 1 := cmpf .olt main_v4 main_v5
  let main_c_1 : IVec S_ 1 := constantI S_ 1 1#1
  let main_v7 : IVec S_ 1 := (fun x v => Host.reduce IntOp.andi x v reducesTo_S300000x128_S_d0_1 h_S_) main_v6 main_c_1
  let main_v8 : IVec S_ 1 := andi main_v3 main_v7
  let main_v9 : FVec F S300000x128 .f32 := Host.absf main_arg10
  let main_cst_2 : FVec F S_ .f32 := constant S_ .f32 0x7F800000#32
  let main_v10 : FVec F S300000x128 .f32 := broadcastInDim S300000x128 ![] bcast_S_S300000x128 main_cst_2
  let main_v11 : IVec S300000x128 1 := cmpf .olt main_v9 main_v10
  let main_c_3 : IVec S_ 1 := constantI S_ 1 1#1
  let main_v12 : IVec S_ 1 := (fun x v => Host.reduce IntOp.andi x v reducesTo_S300000x128_S_d0_1 h_S_) main_v11 main_c_3
  let main_v13 : IVec S_ 1 := andi main_v8 main_v12
  let main_v14 : FVec F S16x128 .f32 := Host.absf main_arg11
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg12 main_arg13 main_arg14 main_arg15 main_arg16 main_arg17 main_arg18 main_arg19 main_arg20 main_v13 main_v16
-- ==== Kernel.lean ====
abbrev S16384 : Shape := ⟨1, ![16384]⟩
abbrev S16384x16 : Shape := ⟨2, ![16384, 16]⟩
abbrev S1000000 : Shape := ⟨1, ![1000000]⟩
abbrev S300000x128 : Shape := ⟨2, ![300000, 128]⟩
abbrev S16x128 : Shape := ⟨2, ![16, 128]⟩
abbrev S256x128 : Shape := ⟨2, ![256, 128]⟩
abbrev S256x2 : Shape := ⟨2, ![256, 2]⟩
abbrev S256 : Shape := ⟨1, ![256]⟩
abbrev S256x256 : Shape := ⟨2, ![256, 256]⟩
abbrev S262144 : Shape := ⟨1, ![262144]⟩
abbrev S_ : Shape := ⟨0, ![]⟩
abbrev S262144x1 : Shape := ⟨2, ![262144, 1]⟩
abbrev S262144x128 : Shape := ⟨2, ![262144, 128]⟩
abbrev S262144x3 : Shape := ⟨2, ![262144, 3]⟩
abbrev S16384x1 : Shape := ⟨2, ![16384, 1]⟩
abbrev S16384x128 : Shape := ⟨2, ![16384, 128]⟩
abbrev S16384x16x3 : Shape := ⟨3, ![16384, 16, 3]⟩
abbrev S16384x16x128 : Shape := ⟨3, ![16384, 16, 128]⟩
abbrev S1x256 : Shape := ⟨2, ![1, 256]⟩
abbrev S16384x256 : Shape := ⟨2, ![16384, 256]⟩
abbrev S128x16x3 : Shape := ⟨3, ![128, 16, 3]⟩
abbrev S128x16x128 : Shape := ⟨3, ![128, 16, 128]⟩
abbrev S128x128 : Shape := ⟨2, ![128, 128]⟩
abbrev S128x256 : Shape := ⟨2, ![128, 256]⟩
abbrev S2048x3 : Shape := ⟨2, ![2048, 3]⟩
abbrev S2048x2 : Shape := ⟨2, ![2048, 2]⟩
abbrev S2048x1 : Shape := ⟨2, ![2048, 1]⟩
abbrev S2048x128 : Shape := ⟨2, ![2048, 128]⟩
abbrev S2x256 : Shape := ⟨2, ![2, 256]⟩
abbrev S2048x256 : Shape := ⟨2, ![2048, 256]⟩
abbrev S128x16x256 : Shape := ⟨3, ![128, 16, 256]⟩

abbrev nBuf : Space → Nat
  | .hbm => 178
  | .vmem => 21
  | .smem => 0
  | _ => 0

abbrev hbmTy0_0 (i : Nat) : BufTy := match i % 128 with
  | 0 => ⟨S16384, .i32⟩
  | 1 => ⟨S16384x16, .i32⟩
  | 2 => ⟨S1000000, .i32⟩
  | 3 => ⟨S1000000, .i32⟩
  | 4 => ⟨S1000000, .i32⟩
  | 5 => ⟨S1000000, .i32⟩
  | 6 => ⟨S1000000, .i32⟩
  | 7 => ⟨S1000000, .i32⟩
  | 8 => ⟨S1000000, .f32⟩
  | 9 => ⟨S300000x128, .f32⟩
  | 10 => ⟨S300000x128, .f32⟩
  | 11 => ⟨S16x128, .f32⟩
  | 12 => ⟨S256x128, .f32⟩
  | 13 => ⟨S256x2, .f32⟩
  | 14 => ⟨S256, .f32⟩
  | 15 => ⟨S256x256, .f32⟩
  | 16 => ⟨S256, .f32⟩
  | 17 => ⟨S256x128, .f32⟩
  | 18 => ⟨S256x128, .f32⟩
  | 19 => ⟨S256x128, .f32⟩
  | 20 => ⟨S256x256, .f32⟩
  | 21 => ⟨S262144, .i32⟩
  | 22 => ⟨S_, .i32⟩
  | 23 => ⟨S262144, .i32⟩
  | 24 => ⟨S262144, .i1⟩
  | 25 => ⟨S_, .i32⟩
  | 26 => ⟨S_, .i32⟩
  | 27 => ⟨S262144, .i32⟩
  | 28 => ⟨S262144, .i32⟩
  | 29 => ⟨S_, .i32⟩
  | 30 => ⟨S262144, .i32⟩
  | 31 => ⟨S262144, .i1⟩
  | 32 => ⟨S_, .i32⟩
  | 33 => ⟨S262144, .i32⟩
  | 34 => ⟨S262144, .i32⟩
  | 35 => ⟨S262144, .i32⟩
  | 36 => ⟨S262144x1, .i32⟩
  | 37 => ⟨S262144, .i32⟩
  | 38 => ⟨S_, .i32⟩
  | 39 => ⟨S262144, .i32⟩
  | 40 => ⟨S262144, .i1⟩
  | 41 => ⟨S_, .i32⟩
  | 42 => ⟨S262144, .i32⟩
  | 43 => ⟨S262144, .i32⟩
  | 44 => ⟨S262144, .i32⟩
  | 45 => ⟨S262144x1, .i32⟩
  | 46 => ⟨S262144, .i32⟩
  | 47 => ⟨S_, .i32⟩
  | 48 => ⟨S262144, .i32⟩
  | 49 => ⟨S262144, .i1⟩
  | 50 => ⟨S_, .i32⟩
  | 51 => ⟨S262144, .i32⟩
  | 52 => ⟨S262144, .i32⟩
  | 53 => ⟨S262144, .i32⟩
  | 54 => ⟨S262144x1, .i32⟩
  | 55 => ⟨S262144, .i32⟩
  | 56 => ⟨S_, .i32⟩
  | 57 => ⟨S262144, .i32⟩
  | 58 => ⟨S262144, .i1⟩
  | 59 => ⟨S_, .i32⟩
  | 60 => ⟨S262144, .i32⟩
  | 61 => ⟨S262144, .i32⟩
  | 62 => ⟨S262144, .i32⟩
  | 63 => ⟨S262144x1, .i32⟩
  | 64 => ⟨S262144, .i32⟩
  | 65 => ⟨S_, .i32⟩
  | 66 => ⟨S262144, .i32⟩
  | 67 => ⟨S262144, .i1⟩
  | 68 => ⟨S_, .i32⟩
  | 69 => ⟨S262144, .i32⟩
  | 70 => ⟨S262144, .i32⟩
  | 71 => ⟨S262144, .i32⟩
  | 72 => ⟨S262144x1, .i32⟩
  | 73 => ⟨S262144, .i32⟩
  | 74 => ⟨S_, .i32⟩
  | 75 => ⟨S262144, .i32⟩
  | 76 => ⟨S262144, .i1⟩
  | 77 => ⟨S_, .i32⟩
  | 78 => ⟨S262144, .i32⟩
  | 79 => ⟨S262144, .i32⟩
  | 80 => ⟨S262144, .i32⟩
  | 81 => ⟨S262144x1, .i32⟩
  | 82 => ⟨S262144, .i32⟩
  | 83 => ⟨S262144, .f32⟩
  | 84 => ⟨S_, .i32⟩
  | 85 => ⟨S262144, .i32⟩
  | 86 => ⟨S262144, .i1⟩
  | 87 => ⟨S_, .i32⟩
  | 88 => ⟨S262144, .i32⟩
  | 89 => ⟨S262144, .i32⟩
  | 90 => ⟨S262144, .i32⟩
  | 91 => ⟨S262144x1, .i32⟩
  | 92 => ⟨S262144, .f32⟩
  | 93 => ⟨S_, .i32⟩
  | 94 => ⟨S262144, .i32⟩
  | 95 => ⟨S262144, .i1⟩
  | 96 => ⟨S262144x1, .i1⟩
  | 97 => ⟨S_, .i32⟩
  | 98 => ⟨S262144, .i32⟩
  | 99 => ⟨S262144, .i1⟩
  | 100 => ⟨S_, .i32⟩
  | 101 => ⟨S262144, .i32⟩
  | 102 => ⟨S262144, .i32⟩
  | 103 => ⟨S262144, .i32⟩
  | 104 => ⟨S262144x1, .i32⟩
  | 105 => ⟨S262144x128, .f32⟩
  | 106 => ⟨S_, .i32⟩
  | 107 => ⟨S262144, .i32⟩
  | 108 => ⟨S262144, .i1⟩
  | 109 => ⟨S_, .i32⟩
  | 110 => ⟨S262144, .i32⟩
  | 111 => ⟨S262144, .i32⟩
  | 112 => ⟨S262144, .i32⟩
  | 113 => ⟨S262144x1, .i32⟩
  | 114 => ⟨S262144x128, .f32⟩
  | 115 => ⟨S262144x128, .i1⟩
  | 116 => ⟨S262144x128, .f32⟩
  | 117 => ⟨S_, .i32⟩
  | 118 => ⟨S262144, .i32⟩
  | 119 => ⟨S262144, .i1⟩
  | 120 => ⟨S262144x1, .i1⟩
  | 121 => ⟨S_, .i32⟩
  | 122 => ⟨S262144, .i32⟩
  | 123 => ⟨S262144, .i1⟩
  | 124 => ⟨S_, .i32⟩
  | 125 => ⟨S262144, .i32⟩
  | 126 => ⟨S262144, .i32⟩
  | 127 => ⟨S262144, .i32⟩
  | _ => ⟨S16384, .i32⟩

abbrev hbmTy0_1 (i : Nat) : BufTy := match i % 128 with
  | 0 => ⟨S262144x1, .i32⟩
  | 1 => ⟨S262144x128, .f32⟩
  | 2 => ⟨S_, .i32⟩
  | 3 => ⟨S262144, .i32⟩
  | 4 => ⟨S262144, .i1⟩
  | 5 => ⟨S_, .i32⟩
  | 6 => ⟨S262144, .i32⟩
  | 7 => ⟨S262144, .i32⟩
  | 8 => ⟨S262144, .i32⟩
  | 9 => ⟨S262144x1, .i32⟩
  | 10 => ⟨S262144x128, .f32⟩
  | 11 => ⟨S262144x128, .i1⟩
  | 12 => ⟨S262144x128, .f32⟩
  | 13 => ⟨S_, .i32⟩
  | 14 => ⟨S262144, .i32⟩
  | 15 => ⟨S262144, .i1⟩
  | 16 => ⟨S_, .i32⟩
  | 17 => ⟨S262144, .i32⟩
  | 18 => ⟨S262144, .i32⟩
  | 19 => ⟨S262144, .i32⟩
  | 20 => ⟨S262144x1, .i32⟩
  | 21 => ⟨S262144x128, .f32⟩
  | 22 => ⟨S_, .f32⟩
  | 23 => ⟨S262144, .f32⟩
  | 24 => ⟨S262144, .f32⟩
  | 25 => ⟨S_, .f32⟩
  | 26 => ⟨S262144, .f32⟩
  | 27 => ⟨S262144, .f32⟩
  | 28 => ⟨S262144, .f32⟩
  | 29 => ⟨S262144, .f32⟩
  | 30 => ⟨S262144x1, .f32⟩
  | 31 => ⟨S262144x1, .f32⟩
  | 32 => ⟨S262144x1, .f32⟩
  | 33 => ⟨S262144x3, .f32⟩
  | 34 => ⟨S_, .i32⟩
  | 35 => ⟨S16384, .i32⟩
  | 36 => ⟨S16384, .i1⟩
  | 37 => ⟨S_, .i32⟩
  | 38 => ⟨S16384, .i32⟩
  | 39 => ⟨S16384, .i32⟩
  | 40 => ⟨S16384, .i32⟩
  | 41 => ⟨S16384x1, .i32⟩
  | 42 => ⟨S16384x128, .f32⟩
  | 43 => ⟨S16384x16x3, .f32⟩
  | 44 => ⟨S16384x16x128, .f32⟩
  | 45 => ⟨S16384x16x128, .f32⟩
  | 46 => ⟨S16384x16x128, .f32⟩
  | 47 => ⟨S1x256, .f32⟩
  | 48 => ⟨S1x256, .f32⟩
  | 49 => ⟨S16384x256, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | .local _ .vmem, ⟨0, _⟩ => ⟨S128x16x3, .f32⟩
  | .local _ .vmem, ⟨1, _⟩ => ⟨S128x16x3, .f32⟩
  | .local _ .vmem, ⟨2, _⟩ => ⟨S128x16x128, .f32⟩
  | .local _ .vmem, ⟨3, _⟩ => ⟨S128x16x128, .f32⟩
  | .local _ .vmem, ⟨4, _⟩ => ⟨S128x16x128, .f32⟩
  | .local _ .vmem, ⟨5, _⟩ => ⟨S128x16x128, .f32⟩
  | .local _ .vmem, ⟨6, _⟩ => ⟨S128x16x128, .f32⟩
  | .local _ .vmem, ⟨7, _⟩ => ⟨S128x16x128, .f32⟩
  | .local _ .vmem, ⟨8, _⟩ => ⟨S128x128, .f32⟩
  | .local _ .vmem, ⟨9, _⟩ => ⟨S128x128, .f32⟩
  | .local _ .vmem, ⟨10, _⟩ => ⟨S256x2, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x256, .f32⟩
  | .local _ .vmem, ⟨19, _⟩ => ⟨S128x256, .f32⟩
  | .local _ .vmem, ⟨20, _⟩ => ⟨S128x256, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_c : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call0_v0 : Ref sig .tc := ⟨.hbm, 26, rfl⟩
abbrev main_call0_v1 : Ref sig .tc := ⟨.hbm, 27, rfl⟩
abbrev main_v3 : Ref sig .tc := ⟨.hbm, 28, rfl⟩
abbrev main_c_1 : Ref sig .tc := ⟨.hbm, 29, rfl⟩
abbrev main_v4 : Ref sig .tc := ⟨.hbm, 30, rfl⟩
abbrev main_v5 : Ref sig .tc := ⟨.hbm, 31, rfl⟩
abbrev main_c_2 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c_3 : Ref sig .tc := ⟨.hbm, 38, rfl⟩
abbrev main_v11 : Ref sig .tc := ⟨.hbm, 39, rfl⟩
abbrev main_v12 : Ref sig .tc := ⟨.hbm, 40, rfl⟩
abbrev main_c_4 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_c_6 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_7 : Ref sig .tc := ⟨.hbm, 56, rfl⟩
abbrev main_v25 : Ref sig .tc := ⟨.hbm, 57, rfl⟩
abbrev main_v26 : Ref sig .tc := ⟨.hbm, 58, rfl⟩
abbrev main_c_8 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_9 : Ref sig .tc := ⟨.hbm, 65, rfl⟩
abbrev main_v32 : Ref sig .tc := ⟨.hbm, 66, rfl⟩
abbrev main_v33 : Ref sig .tc := ⟨.hbm, 67, rfl⟩
abbrev main_c_10 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c_11 : Ref sig .tc := ⟨.hbm, 74, rfl⟩
abbrev main_v39 : Ref sig .tc := ⟨.hbm, 75, rfl⟩
abbrev main_v40 : Ref sig .tc := ⟨.hbm, 76, rfl⟩
abbrev main_c_12 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_c_13 : Ref sig .tc := ⟨.hbm, 84, rfl⟩
abbrev main_v47 : Ref sig .tc := ⟨.hbm, 85, rfl⟩
abbrev main_v48 : Ref sig .tc := ⟨.hbm, 86, rfl⟩
abbrev main_c_14 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_c_15 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_c_16 : Ref sig .tc := ⟨.hbm, 97, rfl⟩
abbrev main_v57 : Ref sig .tc := ⟨.hbm, 98, rfl⟩
abbrev main_v58 : Ref sig .tc := ⟨.hbm, 99, rfl⟩
abbrev main_c_17 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_c_18 : Ref sig .tc := ⟨.hbm, 106, rfl⟩
abbrev main_v64 : Ref sig .tc := ⟨.hbm, 107, rfl⟩
abbrev main_v65 : Ref sig .tc := ⟨.hbm, 108, rfl⟩
abbrev main_c_19 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_call1_v0 : Ref sig .tc := ⟨.hbm, 115, rfl⟩
abbrev main_v71 : Ref sig .tc := ⟨.hbm, 116, rfl⟩
abbrev main_c_20 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_c_21 : Ref sig .tc := ⟨.hbm, 121, rfl⟩
abbrev main_v75 : Ref sig .tc := ⟨.hbm, 122, rfl⟩
abbrev main_v76 : Ref sig .tc := ⟨.hbm, 123, rfl⟩
abbrev main_c_22 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_c_23 : Ref sig .tc := ⟨.hbm, 130, rfl⟩
abbrev main_v82 : Ref sig .tc := ⟨.hbm, 131, rfl⟩
abbrev main_v83 : Ref sig .tc := ⟨.hbm, 132, rfl⟩
abbrev main_c_24 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_call2_v0 : Ref sig .tc := ⟨.hbm, 139, rfl⟩
abbrev main_v89 : Ref sig .tc := ⟨.hbm, 140, rfl⟩
abbrev main_c_25 : Ref sig .tc := ⟨.hbm, 141, rfl⟩
abbrev main_v90 : Ref sig .tc := ⟨.hbm, 142, rfl⟩
abbrev main_v91 : Ref sig .tc := ⟨.hbm, 143, rfl⟩
abbrev main_c_26 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_cst : Ref sig .tc := ⟨.hbm, 150, rfl⟩
abbrev main_v97 : Ref sig .tc := ⟨.hbm, 151, rfl⟩
abbrev main_v98 : Ref sig .tc := ⟨.hbm, 152, rfl⟩
abbrev main_cst_27 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_c_28 : Ref sig .tc := ⟨.hbm, 162, rfl⟩
abbrev main_v107 : Ref sig .tc := ⟨.hbm, 163, rfl⟩
abbrev main_v108 : Ref sig .tc := ⟨.hbm, 164, rfl⟩
abbrev main_c_29 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S16384x16_S262144 : S16384x16.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  concatenates_S262144x1_S262144x1_S262144x1_S262144x3_d1 : Shape.Concatenates [S262144x1, S262144x1, S262144x1] S262144x3 1
  bcast_S_S16384 : S_.BroadcastsInDim S16384 (![] : Fin 0 → Fin S16384.rank)
  bcast_S16384_S16384x1_0 : S16384.BroadcastsInDim S16384x1 (![0] : Fin 1 → Fin S16384x1.rank)
  shapeCasts_S262144x3_S16384x16x3 : S262144x3.ShapeCasts S16384x16x3
  shapeCasts_S262144x128_S16384x16x128 : S262144x128.ShapeCasts S16384x16x128
  shapeCasts_S256_S1x256 : S256.ShapeCasts S1x256
  inb_S128x16x3_S128x16x3_0_0_0 : ∀ a, (![0, 0, 0] : Fin 3 → Nat) a + S128x16x3.size a ≤ S128x16x3.size a
  h_S128x16x3 : 0 < S128x16x3.numel
  shapeCasts_S128x16x3_S128x16x3 : S128x16x3.ShapeCasts S128x16x3
  shapeCasts_S128x16x3_S2048x3 : S128x16x3.ShapeCasts S2048x3
  slices_S2048x3_o0_0_S2048x2 : S2048x3.Slices ![0, 0] S2048x2
  bitsLt_bf16_f32 : FTy.bits .bf16 < FTy.bits .f32
  slices_S2048x3_o0_2_S2048x1 : S2048x3.Slices ![0, 2] S2048x1
  inb_S128x16x128_S128x16x128_0_0_0 : ∀ a, (![0, 0, 0] : Fin 3 → Nat) a + S128x16x128.size a ≤ S128x16x128.size a
  h_S128x16x128 : 0 < S128x16x128.numel
  shapeCasts_S128x16x128_S128x16x128 : S128x16x128.ShapeCasts S128x16x128
  shapeCasts_S128x16x128_S2048x128 : S128x16x128.ShapeCasts S2048x128
  inb_S256x2_S256x2_0_0 : ∀ a, (![0, 0] : Fin 2 → Nat) a + S256x2.size a ≤ S256x2.size a
  h_S256x2 : 0 < S256x2.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  transposes_S256x2_p1_0_S2x256 : S256x2.Transposes [1, 0] S2x256
  broadcasts_S1x256_S2048x256 : S1x256.Broadcasts S2048x256
  transposes_S256x256_p1_0_S256x256 : S256x256.Transposes [1, 0] S256x256
  transposes_S256x128_p1_0_S128x256 : S256x128.Transposes [1, 0] S128x256
  broadcasts_S2048x1_S2048x256 : S2048x1.Broadcasts S2048x256
  shapeCasts_S2048x256_S128x16x256 : S2048x256.ShapeCasts S128x16x256
  reduces_S128x16x256_S128x256 : S128x16x256.Reduces [1] S128x256
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x256_S128x256_0_0 : ∀ a, (![0, 0] : Fin 2 → Nat) a + S128x256.size a ≤ S128x256.size a
  h_S128x256 : 0 < S128x256.numel
  gather_S1000000_S262144x1_S262144_n_0_n_n_0_1_1_wf : GatherDims.WF S1000000 S262144x1 S262144 [] [0] [] [0] [] 1 ![1]
  gather_S300000x128_S262144x1_S262144x128_1_0_n_n_0_1_1128_wf : GatherDims.WF S300000x128 S262144x1 S262144x128 [1] [0] [] [0] [] 1 ![1, 128]
  gather_S16x128_S262144x1_S262144x128_1_0_n_n_0_1_1128_wf : GatherDims.WF S16x128 S262144x1 S262144x128 [1] [0] [] [0] [] 1 ![1, 128]
  gather_S300000x128_S16384x1_S16384x128_1_0_n_n_0_1_1128_wf : GatherDims.WF S300000x128 S16384x1 S16384x128 [1] [0] [] [0] [] 1 ![1, 128]
  dot_S2048x2_S2x256_S2048x256_1_0_0_1_n_n_wf : DotDims.WF S2048x2 S2x256 S2048x256 [1] [0] [0] [1] [] []
  dot_S2048x256_S256x256_S2048x256_1_0_0_1_n_n_wf : DotDims.WF S2048x256 S256x256 S2048x256 [1] [0] [0] [1] [] []
  dot_S2048x128_S128x256_S2048x256_1_0_0_1_n_n_wf : DotDims.WF S2048x128 S128x256 S2048x256 [1] [0] [0] [1] [] []
  dot_S128x128_S128x256_S128x256_1_0_0_1_n_n_wf : DotDims.WF S128x128 S128x256 S128x256 [1] [0] [0] [1] [] []
  dot_S128x256_S256x256_S128x256_1_0_0_1_n_n_wf : DotDims.WF S128x256 S256x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16x3.size a ≤ S16384x16x3.size a
  hwx0_0 : ∀ i : grid0.Coords, EltTy.bits .f32 = 32 ∨ (Rect.block (s := S16384x16x3) S128x16x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16x128.size a ≤ S16384x16x128.size a
  hwx0_1 : ∀ i : grid0.Coords, EltTy.bits .f32 = 32 ∨ (Rect.block (s := S16384x16x128) S128x16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x16x128.size a ≤ S16384x16x128.size a
  hwx0_2 : ∀ i : grid0.Coords, EltTy.bits .f32 = 32 ∨ (Rect.block (s := S16384x16x128) S128x16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16x128.size a ≤ S16384x16x128.size a
  hwx0_3 : ∀ i : grid0.Coords, EltTy.bits .f32 = 32 ∨ (Rect.block (s := S16384x16x128) S128x16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S16384x128.size a
  hwx0_4 : ∀ i : grid0.Coords, EltTy.bits .f32 = 32 ∨ (Rect.block (s := S16384x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2.size a ≤ S256x2.size a
  hwx0_5 : ∀ i : grid0.Coords, EltTy.bits .f32 = 32 ∨ (Rect.block (s := S256x2) S256x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .f32 = 32 ∨ (Rect.block (s := S256x128) S256x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S256x128.size a
  hwx0_10 : ∀ i : grid0.Coords, EltTy.bits .f32 = 32 ∨ (Rect.block (s := S256x128) S256x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S256x128.size a
  hwx0_11 : ∀ i : grid0.Coords, EltTy.bits .f32 = 32 ∨ (Rect.block (s := S256x128) S256x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x128.size a ≤ S256x128.size a
  hwx0_12 : ∀ i : grid0.Coords, EltTy.bits .f32 = 32 ∨ (Rect.block (s := S256x128) S256x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .f32 = 32 ∨ (Rect.block (s := S256x256) S256x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x256.size a ≤ S16384x256.size a
  hwx0_14 : ∀ i : grid0.Coords, EltTy.bits .f32 = 32 ∨ (Rect.block (s := S16384x256) S128x256.size (cc0_transform_14 i) (hinb0_14 i)).WholeWords (EltTy.packing .f32)

variable [Facts₀]

def gather_S1000000_S262144x1_S262144_n_0_n_n_0_1_1 : GatherDims S1000000 S262144x1 S262144 where
  offsetDims := []
  collapsedSliceDims := [0]
  operandBatchingDims := []
  startIndicesBatchingDims := []
  startIndexMap := [0]
  indexVectorDim := 1
  sliceSizes := ![1]
  wf := gather_S1000000_S262144x1_S262144_n_0_n_n_0_1_1_wf
def gather_S300000x128_S262144x1_S262144x128_1_0_n_n_0_1_1128 : GatherDims S300000x128 S262144x1 S262144x128 where
  offsetDims := [1]
  collapsedSliceDims := [0]
  operandBatchingDims := []
  startIndicesBatchingDims := []
  startIndexMap := [0]
  indexVectorDim := 1
  sliceSizes := ![1, 128]
  wf := gather_S300000x128_S262144x1_S262144x128_1_0_n_n_0_1_1128_wf
def gather_S16x128_S262144x1_S262144x128_1_0_n_n_0_1_1128 : GatherDims S16x128 S262144x1 S262144x128 where
  offsetDims := [1]
  collapsedSliceDims := [0]
  operandBatchingDims := []
  startIndicesBatchingDims := []
  startIndexMap := [0]
  indexVectorDim := 1
  sliceSizes := ![1, 128]
  wf := gather_S16x128_S262144x1_S262144x128_1_0_n_n_0_1_1128_wf
def gather_S300000x128_S16384x1_S16384x128_1_0_n_n_0_1_1128 : GatherDims S300000x128 S16384x1 S16384x128 where
  offsetDims := [1]
  collapsedSliceDims := [0]
  operandBatchingDims := []
  startIndicesBatchingDims := []
  startIndexMap := [0]
  indexVectorDim := 1
  sliceSizes := ![1, 128]
  wf := gather_S300000x128_S16384x1_S16384x128_1_0_n_n_0_1_1128_wf
def dot_S2048x2_S2x256_S2048x256_1_0_0_1_n_n : DotDims S2048x2 S2x256 S2048x256 where
  lhsContracting := [1]
  rhsContracting := [0]
  lhsNonContracting := [0]
  rhsNonContracting := [1]
  lhsBatch := []
  rhsBatch := []
  wf := dot_S2048x2_S2x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf

abbrev win0_0 : Pipeline.Window sig grid0 :=
  Pipeline.Window.ofSpec (Memref.whole main_v114) S128x16x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v115) S128x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v116) S128x16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v117) S128x16x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v113) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg13) S256x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v118) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg15) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v119) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg17) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg18) S256x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S256x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg19) S256x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg20) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v120) S128x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S16384 : Shape := ⟨1, ![16384]⟩
abbrev S16384x16 : Shape := ⟨2, ![16384, 16]⟩
abbrev S1000000 : Shape := ⟨1, ![1000000]⟩
abbrev S300000x128 : Shape := ⟨2, ![300000, 128]⟩
abbrev S16x128 : Shape := ⟨2, ![16, 128]⟩
abbrev S256x128 : Shape := ⟨2, ![256, 128]⟩
abbrev S256x2 : Shape := ⟨2, ![256, 2]⟩
abbrev S256 : Shape := ⟨1, ![256]⟩
abbrev S256x256 : Shape := ⟨2, ![256, 256]⟩
abbrev S262144 : Shape := ⟨1, ![262144]⟩
abbrev S_ : Shape := ⟨0, ![]⟩
abbrev S262144x1 : Shape := ⟨2, ![262144, 1]⟩
abbrev S262144x128 : Shape := ⟨2, ![262144, 128]⟩
abbrev S262144x2 : Shape := ⟨2, ![262144, 2]⟩
abbrev S2x256 : Shape := ⟨2, ![2, 256]⟩
abbrev S262144x256 : Shape := ⟨2, ![262144, 256]⟩
abbrev S1x256 : Shape := ⟨2, ![1, 256]⟩
abbrev S128x256 : Shape := ⟨2, ![128, 256]⟩
abbrev S16384x16x256 : Shape := ⟨3, ![16384, 16, 256]⟩
abbrev S16384x256 : Shape := ⟨2, ![16384, 256]⟩
abbrev S16384x1 : Shape := ⟨2, ![16384, 1]⟩
abbrev S16384x128 : Shape := ⟨2, ![16384, 128]⟩

abbrev nBuf : Space → Nat
  | .hbm => 214
  | .vmem => 0
  | .smem => 0
  | _ => 0

abbrev hbmTy0_0 (i : Nat) : BufTy := match i % 128 with
  | 0 => ⟨S16384, .i32⟩
  | 1 => ⟨S16384x16, .i32⟩
  | 2 => ⟨S1000000, .i32⟩
  | 3 => ⟨S1000000, .i32⟩
  | 4 => ⟨S1000000, .i32⟩
  | 5 => ⟨S1000000, .i32⟩
  | 6 => ⟨S1000000, .i32⟩
  | 7 => ⟨S1000000, .i32⟩
  | 8 => ⟨S1000000, .f32⟩
  | 9 => ⟨S300000x128, .f32⟩
  | 10 => ⟨S300000x128, .f32⟩
  | 11 => ⟨S16x128, .f32⟩
  | 12 => ⟨S256x128, .f32⟩
  | 13 => ⟨S256x2, .f32⟩
  | 14 => ⟨S256, .f32⟩
  | 15 => ⟨S256x256, .f32⟩
  | 16 => ⟨S256, .f32⟩
  | 17 => ⟨S256x128, .f32⟩
  | 18 => ⟨S256x128, .f32⟩
  | 19 => ⟨S256x128, .f32⟩
  | 20 => ⟨S256x256, .f32⟩
  | 21 => ⟨S262144, .i32⟩
  | 22 => ⟨S_, .i32⟩
  | 23 => ⟨S262144, .i32⟩
  | 24 => ⟨S262144, .i1⟩
  | 25 => ⟨S_, .i32⟩
  | 26 => ⟨S_, .i32⟩
  | 27 => ⟨S262144, .i32⟩
  | 28 => ⟨S262144, .i32⟩
  | 29 => ⟨S_, .i32⟩
  | 30 => ⟨S262144, .i32⟩
  | 31 => ⟨S262144, .i1⟩
  | 32 => ⟨S_, .i32⟩
  | 33 => ⟨S262144, .i32⟩
  | 34 => ⟨S262144, .i32⟩
  | 35 => ⟨S262144, .i32⟩
  | 36 => ⟨S262144x1, .i32⟩
  | 37 => ⟨S262144, .i32⟩
  | 38 => ⟨S_, .i32⟩
  | 39 => ⟨S262144, .i32⟩
  | 40 => ⟨S262144, .i1⟩
  | 41 => ⟨S_, .i32⟩
  | 42 => ⟨S262144, .i32⟩
  | 43 => ⟨S262144, .i32⟩
  | 44 => ⟨S262144, .i32⟩
  | 45 => ⟨S262144x1, .i32⟩
  | 46 => ⟨S262144, .i32⟩
  | 47 => ⟨S_, .i32⟩
  | 48 => ⟨S262144, .i32⟩
  | 49 => ⟨S262144, .i1⟩
  | 50 => ⟨S_, .i32⟩
  | 51 => ⟨S262144, .i32⟩
  | 52 => ⟨S262144, .i32⟩
  | 53 => ⟨S262144, .i32⟩
  | 54 => ⟨S262144x1, .i32⟩
  | 55 => ⟨S262144, .i32⟩
  | 56 => ⟨S_, .i32⟩
  | 57 => ⟨S262144, .i32⟩
  | 58 => ⟨S262144, .i1⟩
  | 59 => ⟨S_, .i32⟩
  | 60 => ⟨S262144, .i32⟩
  | 61 => ⟨S262144, .i32⟩
  | 62 => ⟨S262144, .i32⟩
  | 63 => ⟨S262144x1, .i32⟩
  | 64 => ⟨S262144, .i32⟩
  | 65 => ⟨S_, .i32⟩
  | 66 => ⟨S262144, .i32⟩
  | 67 => ⟨S262144, .i1⟩
  | 68 => ⟨S_, .i32⟩
  | 69 => ⟨S262144, .i32⟩
  | 70 => ⟨S262144, .i32⟩
  | 71 => ⟨S262144, .i32⟩
  | 72 => ⟨S262144x1, .i32⟩
  | 73 => ⟨S262144, .i32⟩
  | 74 => ⟨S_, .i32⟩
  | 75 => ⟨S262144, .i32⟩
  | 76 => ⟨S262144, .i1⟩
  | 77 => ⟨S262144x1, .i1⟩
  | 78 => ⟨S_, .i32⟩
  | 79 => ⟨S262144, .i32⟩
  | 80 => ⟨S262144, .i1⟩
  | 81 => ⟨S_, .i32⟩
  | 82 => ⟨S262144, .i32⟩
  | 83 => ⟨S262144, .i32⟩
  | 84 => ⟨S262144, .i32⟩
  | 85 => ⟨S262144x1, .i32⟩
  | 86 => ⟨S262144x128, .f32⟩
  | 87 => ⟨S_, .i32⟩
  | 88 => ⟨S262144, .i32⟩
  | 89 => ⟨S262144, .i1⟩
  | 90 => ⟨S_, .i32⟩
  | 91 => ⟨S262144, .i32⟩
  | 92 => ⟨S262144, .i32⟩
  | 93 => ⟨S262144, .i32⟩
  | 94 => ⟨S262144x1, .i32⟩
  | 95 => ⟨S262144x128, .f32⟩
  | 96 => ⟨S262144x128, .i1⟩
  | 97 => ⟨S262144x128, .f32⟩
  | 98 => ⟨S_, .i32⟩
  | 99 => ⟨S262144, .i32⟩
  | 100 => ⟨S262144, .i1⟩
  | 101 => ⟨S262144x1, .i1⟩
  | 102 => ⟨S_, .i32⟩
  | 103 => ⟨S262144, .i32⟩
  | 104 => ⟨S262144, .i1⟩
  | 105 => ⟨S_, .i32⟩
  | 106 => ⟨S262144, .i32⟩
  | 107 => ⟨S262144, .i32⟩
  | 108 => ⟨S262144, .i32⟩
  | 109 => ⟨S262144x1, .i32⟩
  | 110 => ⟨S262144x128, .f32⟩
  | 111 => ⟨S_, .i32⟩
  | 112 => ⟨S262144, .i32⟩
  | 113 => ⟨S262144, .i1⟩
  | 114 => ⟨S_, .i32⟩
  | 115 => ⟨S262144, .i32⟩
  | 116 => ⟨S262144, .i32⟩
  | 117 => ⟨S262144, .i32⟩
  | 118 => ⟨S262144x1, .i32⟩
  | 119 => ⟨S262144x128, .f32⟩
  | 120 => ⟨S262144x128, .i1⟩
  | 121 => ⟨S262144x128, .f32⟩
  | 122 => ⟨S_, .i32⟩
  | 123 => ⟨S262144, .i32⟩
  | 124 => ⟨S262144, .i1⟩
  | 125 => ⟨S_, .i32⟩
  | 126 => ⟨S262144, .i32⟩
  | 127 => ⟨S262144, .i32⟩
  | _ => ⟨S16384, .i32⟩

abbrev hbmTy0_1 (i : Nat) : BufTy := match i % 128 with
  | 0 => ⟨S262144, .i32⟩
  | 1 => ⟨S262144x1, .i32⟩
  | 2 => ⟨S262144x128, .f32⟩
  | 3 => ⟨S_, .i32⟩
  | 4 => ⟨S262144, .i32⟩
  | 5 => ⟨S262144, .i1⟩
  | 6 => ⟨S_, .i32⟩
  | 7 => ⟨S262144, .i32⟩
  | 8 => ⟨S262144, .i32⟩
  | 9 => ⟨S262144, .i32⟩
  | 10 => ⟨S262144x1, .i32⟩
  | 11 => ⟨S262144, .i32⟩
  | 12 => ⟨S262144, .f32⟩
  | 13 => ⟨S_, .f32⟩
  | 14 => ⟨S262144, .f32⟩
  | 15 => ⟨S262144, .f32⟩
  | 16 => ⟨S_, .f32⟩
  | 17 => ⟨S262144, .f32⟩
  | 18 => ⟨S262144, .f32⟩
  | 19 => ⟨S_, .i32⟩
  | 20 => ⟨S262144, .i32⟩
  | 21 => ⟨S262144, .i1⟩
  | 22 => ⟨S_, .i32⟩
  | 23 => ⟨S262144, .i32⟩
  | 24 => ⟨S262144, .i32⟩
  | 25 => ⟨S262144, .i32⟩
  | 26 => ⟨S262144x1, .i32⟩
  | 27 => ⟨S262144, .f32⟩
  | 28 => ⟨S262144, .f32⟩
  | 29 => ⟨S262144x1, .f32⟩
  | 30 => ⟨S262144x1, .f32⟩
  | 31 => ⟨S262144x2, .f32⟩
  | 32 => ⟨S2x256, .f32⟩
  | 33 => ⟨S262144x256, .f32⟩
  | 34 => ⟨S1x256, .f32⟩
  | 35 => ⟨S262144x256, .f32⟩
  | 36 => ⟨S262144x256, .f32⟩
  | 37 => ⟨S_, .f32⟩
  | 38 => ⟨S262144x256, .f32⟩
  | 39 => ⟨S262144x256, .f32⟩
  | 40 => ⟨S256x256, .f32⟩
  | 41 => ⟨S262144x256, .f32⟩
  | 42 => ⟨S1x256, .f32⟩
  | 43 => ⟨S262144x256, .f32⟩
  | 44 => ⟨S262144x256, .f32⟩
  | 45 => ⟨S128x256, .f32⟩
  | 46 => ⟨S262144x256, .f32⟩
  | 47 => ⟨S262144x256, .f32⟩
  | 48 => ⟨S128x256, .f32⟩
  | 49 => ⟨S262144x256, .f32⟩
  | 50 => ⟨S262144x256, .f32⟩
  | 51 => ⟨S128x256, .f32⟩
  | 52 => ⟨S262144x256, .f32⟩
  | 53 => ⟨S262144x256, .f32⟩
  | 54 => ⟨S_, .f32⟩
  | 55 => ⟨S262144x256, .f32⟩
  | 56 => ⟨S262144x256, .f32⟩
  | 57 => ⟨S262144x1, .i1⟩
  | 58 => ⟨S_, .f32⟩
  | 59 => ⟨S_, .f32⟩
  | 60 => ⟨S262144x256, .i1⟩
  | 61 => ⟨S262144x256, .f32⟩
  | 62 => ⟨S262144x256, .f32⟩
  | 63 => ⟨S16384x16x256, .f32⟩
  | 64 => ⟨S_, .f32⟩
  | 65 => ⟨S16384x256, .f32⟩
  | 66 => ⟨S_, .f32⟩
  | 67 => ⟨S16384x256, .f32⟩
  | 68 => ⟨S16384x256, .f32⟩
  | 69 => ⟨S_, .i32⟩
  | 70 => ⟨S16384, .i32⟩
  | 71 => ⟨S16384, .i1⟩
  | 72 => ⟨S_, .i32⟩
  | 73 => ⟨S16384, .i32⟩
  | 74 => ⟨S16384, .i32⟩
  | 75 => ⟨S16384, .i32⟩
  | 76 => ⟨S16384x1, .i32⟩
  | 77 => ⟨S16384x128, .f32⟩
  | 78 => ⟨S128x256, .f32⟩
  | 79 => ⟨S16384x256, .f32⟩
  | 80 => ⟨S256x256, .f32⟩
  | 81 => ⟨S16384x256, .f32⟩
  | 82 => ⟨S16384x256, .f32⟩
  | 83 => ⟨S_, .f32⟩
  | 84 => ⟨S16384x256, .f32⟩
  | 85 => ⟨S16384x256, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_c : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call0_v0 : Ref sig .tc := ⟨.hbm, 26, rfl⟩
abbrev main_call0_v1 : Ref sig .tc := ⟨.hbm, 27, rfl⟩
abbrev main_v3 : Ref sig .tc := ⟨.hbm, 28, rfl⟩
abbrev main_c_1 : Ref sig .tc := ⟨.hbm, 29, rfl⟩
abbrev main_v4 : Ref sig .tc := ⟨.hbm, 30, rfl⟩
abbrev main_v5 : Ref sig .tc := ⟨.hbm, 31, rfl⟩
abbrev main_c_2 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c_3 : Ref sig .tc := ⟨.hbm, 38, rfl⟩
abbrev main_v11 : Ref sig .tc := ⟨.hbm, 39, rfl⟩
abbrev main_v12 : Ref sig .tc := ⟨.hbm, 40, rfl⟩
abbrev main_c_4 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_c_6 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_7 : Ref sig .tc := ⟨.hbm, 56, rfl⟩
abbrev main_v25 : Ref sig .tc := ⟨.hbm, 57, rfl⟩
abbrev main_v26 : Ref sig .tc := ⟨.hbm, 58, rfl⟩
abbrev main_c_8 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_9 : Ref sig .tc := ⟨.hbm, 65, rfl⟩
abbrev main_v32 : Ref sig .tc := ⟨.hbm, 66, rfl⟩
abbrev main_v33 : Ref sig .tc := ⟨.hbm, 67, rfl⟩
abbrev main_c_10 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c_11 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_c_12 : Ref sig .tc := ⟨.hbm, 78, rfl⟩
abbrev main_v42 : Ref sig .tc := ⟨.hbm, 79, rfl⟩
abbrev main_v43 : Ref sig .tc := ⟨.hbm, 80, rfl⟩
abbrev main_c_13 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_c_14 : Ref sig .tc := ⟨.hbm, 87, rfl⟩
abbrev main_v49 : Ref sig .tc := ⟨.hbm, 88, rfl⟩
abbrev main_v50 : Ref sig .tc := ⟨.hbm, 89, rfl⟩
abbrev main_c_15 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_call1_v0 : Ref sig .tc := ⟨.hbm, 96, rfl⟩
abbrev main_v56 : Ref sig .tc := ⟨.hbm, 97, rfl⟩
abbrev main_c_16 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_c_17 : Ref sig .tc := ⟨.hbm, 102, rfl⟩
abbrev main_v60 : Ref sig .tc := ⟨.hbm, 103, rfl⟩
abbrev main_v61 : Ref sig .tc := ⟨.hbm, 104, rfl⟩
abbrev main_c_18 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_c_19 : Ref sig .tc := ⟨.hbm, 111, rfl⟩
abbrev main_v67 : Ref sig .tc := ⟨.hbm, 112, rfl⟩
abbrev main_v68 : Ref sig .tc := ⟨.hbm, 113, rfl⟩
abbrev main_c_20 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_call2_v0 : Ref sig .tc := ⟨.hbm, 120, rfl⟩
abbrev main_v74 : Ref sig .tc := ⟨.hbm, 121, rfl⟩
abbrev main_c_21 : Ref sig .tc := ⟨.hbm, 122, rfl⟩
abbrev main_v75 : Ref sig .tc := ⟨.hbm, 123, rfl⟩
abbrev main_v76 : Ref sig .tc := ⟨.hbm, 124, rfl⟩
abbrev main_c_22 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_c_23 : Ref sig .tc := ⟨.hbm, 131, rfl⟩
abbrev main_v82 : Ref sig .tc := ⟨.hbm, 132, rfl⟩
abbrev main_v83 : Ref sig .tc := ⟨.hbm, 133, rfl⟩
abbrev main_c_24 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst : Ref sig .tc := ⟨.hbm, 141, rfl⟩
abbrev main_v90 : Ref sig .tc := ⟨.hbm, 142, rfl⟩
abbrev main_v91 : Ref sig .tc := ⟨.hbm, 143, rfl⟩
abbrev main_cst_25 : Ref sig .tc := ⟨.hbm, 144, rfl⟩
abbrev main_v92 : Ref sig .tc := ⟨.hbm, 145, rfl⟩
abbrev main_v93 : Ref sig .tc := ⟨.hbm, 146, rfl⟩
abbrev main_c_26 : Ref sig .tc := ⟨.hbm, 147, rfl⟩
abbrev main_v94 : Ref sig .tc := ⟨.hbm, 148, rfl⟩
abbrev main_v95 : Ref sig .tc := ⟨.hbm, 149, rfl⟩
abbrev main_c_27 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_call3_cst : Ref sig .tc := ⟨.hbm, 165, rfl⟩
abbrev main_call3_v0 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_call4_cst : Ref sig .tc := ⟨.hbm, 182, rfl⟩
abbrev main_call4_v0 : Ref sig .tc := ⟨.hbm, 183, rfl⟩
abbrev main_v125 : Ref sig .tc := ⟨.hbm, 184, rfl⟩
abbrev main_v126 : Ref sig .tc := ⟨.hbm, 185, rfl⟩
abbrev main_cst_28 : Ref sig .tc := ⟨.hbm, 186, rfl⟩
abbrev main_call5_v0 : Ref sig .tc := ⟨.hbm, 187, rfl⟩
abbrev main_call5_v1 : Ref sig .tc := ⟨.hbm, 188, rfl⟩
abbrev main_call5_v2 : Ref sig .tc := ⟨.hbm, 189, rfl⟩
abbrev main_v127 : Ref sig .tc := ⟨.hbm, 190, rfl⟩
abbrev main_v128 : Ref sig .tc := ⟨.hbm, 191, rfl⟩
abbrev main_cst_29 : Ref sig .tc := ⟨.hbm, 192, rfl⟩
abbrev main_v129 : Ref sig .tc := ⟨.hbm, 193, rfl⟩
abbrev main_cst_30 : Ref sig .tc := ⟨.hbm, 194, rfl⟩
abbrev main_v130 : Ref sig .tc := ⟨.hbm, 195, rfl⟩
abbrev main_v131 : Ref sig .tc := ⟨.hbm, 196, rfl⟩
abbrev main_c_31 : Ref sig .tc := ⟨.hbm, 197, rfl⟩
abbrev main_v132 : Ref sig .tc := ⟨.hbm, 198, rfl⟩
abbrev main_v133 : Ref sig .tc := ⟨.hbm, 199, rfl⟩
abbrev main_c_32 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_call6_cst : Ref sig .tc := ⟨.hbm, 211, rfl⟩
abbrev main_call6_v0 : Ref sig .tc := ⟨.hbm, 212, rfl⟩
abbrev main_v144 : Ref sig .tc := ⟨.hbm, 213, rfl⟩

abbrev nD : Nat := 1
abbrev τ : Topo := Topo.v7x

variable {F : FTy → Type} [FloatOps F]

class Facts₀ : Prop where
  shapeCasts_S16384x16_S262144 : S16384x16.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  concatenates_S262144x1_S262144x1_S262144x2_d1 : Shape.Concatenates [S262144x1, S262144x1] S262144x2 1
  transposes_S256x2_S2x256_1_0 : S256x2.Transposes [1, 0] S2x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  transposes_S256x256_S256x256_1_0 : S256x256.Transposes [1, 0] S256x256
  transposes_S256x128_S128x256_1_0 : S256x128.Transposes [1, 0] S128x256
  bcast_S262144x1_S262144x256_0_1 : S262144x1.BroadcastsInDim S262144x256 (![0, 1] : Fin 2 → Fin S262144x256.rank)
  shapeCasts_S262144x256_S16384x16x256 : S262144x256.ShapeCasts S16384x16x256
  reducesTo_S16384x16x256_S16384x256_d1 : S16384x16x256.ReducesTo [1] S16384x256
  h_S_ : 0 < S_.numel
  bcast_S_S16384x256 : S_.BroadcastsInDim S16384x256 (![] : Fin 0 → Fin S16384x256.rank)
  bcast_S_S16384 : S_.BroadcastsInDim S16384 (![] : Fin 0 → Fin S16384.rank)
  bcast_S16384_S16384x1_0 : S16384.BroadcastsInDim S16384x1 (![0] : Fin 1 → Fin S16384x1.rank)
  gather_S1000000_S262144x1_S262144_n_0_n_n_0_1_1_wf : GatherDims.WF S1000000 S262144x1 S262144 [] [0] [] [0] [] 1 ![1]
  gather_S300000x128_S262144x1_S262144x128_1_0_n_n_0_1_1128_wf : GatherDims.WF S300000x128 S262144x1 S262144x128 [1] [0] [] [0] [] 1 ![1, 128]
  gather_S16x128_S262144x1_S262144x128_1_0_n_n_0_1_1128_wf : GatherDims.WF S16x128 S262144x1 S262144x128 [1] [0] [] [0] [] 1 ![1, 128]
  dot_S262144x2_S2x256_S262144x256_1_0_0_1_n_n_wf : DotDims.WF S262144x2 S2x256 S262144x256 [1] [0] [0] [1] [] []
  dot_S262144x256_S256x256_S262144x256_1_0_0_1_n_n_wf : DotDims.WF S262144x256 S256x256 S262144x256 [1] [0] [0] [1] [] []
  dot_S262144x128_S128x256_S262144x256_1_0_0_1_n_n_wf : DotDims.WF S262144x128 S128x256 S262144x256 [1] [0] [0] [1] [] []
  gather_S300000x128_S16384x1_S16384x128_1_0_n_n_0_1_1128_wf : GatherDims.WF S300000x128 S16384x1 S16384x128 [1] [0] [] [0] [] 1 ![1, 128]
  dot_S16384x128_S128x256_S16384x256_1_0_0_1_n_n_wf : DotDims.WF S16384x128 S128x256 S16384x256 [1] [0] [0] [1] [] []
  dot_S16384x256_S256x256_S16384x256_1_0_0_1_n_n_wf : DotDims.WF S16384x256 S256x256 S16384x256 [1] [0] [0] [1] [] []

variable [Facts₀]

def gather_S1000000_S262144x1_S262144_n_0_n_n_0_1_1 : GatherDims S1000000 S262144x1 S262144 where
  offsetDims := []
  collapsedSliceDims := [0]
  operandBatchingDims := []
  startIndicesBatchingDims := []
  startIndexMap := [0]
  indexVectorDim := 1
  sliceSizes := ![1]
  wf := gather_S1000000_S262144x1_S262144_n_0_n_n_0_1_1_wf
def gather_S300000x128_S262144x1_S262144x128_1_0_n_n_0_1_1128 : GatherDims S300000x128 S262144x1 S262144x128 where
  offsetDims := [1]
  collapsedSliceDims := [0]
  operandBatchingDims := []
  startIndicesBatchingDims := []
  startIndexMap := [0]
  indexVectorDim := 1
  sliceSizes := ![1, 128]
  wf := gather_S300000x128_S262144x1_S262144x128_1_0_n_n_0_1_1128_wf
def gather_S16x128_S262144x1_S262144x128_1_0_n_n_0_1_1128 : GatherDims S16x128 S262144x1 S262144x128 where
  offsetDims := [1]
  collapsedSliceDims := [0]
  operandBatchingDims := []
  startIndicesBatchingDims := []
  startIndexMap := [0]
  indexVectorDim := 1
  sliceSizes := ![1, 128]
  wf := gather_S16x128_S262144x1_S262144x128_1_0_n_n_0_1_1128_wf
def dot_S262144x2_S2x256_S262144x256_1_0_0_1_n_n : DotDims S262144x2 S2x256 S262144x256 where
  lhsContracting := [1]
  rhsContracting := [0]
  lhsNonContracting := [0]
  rhsNonContracting := [1]
  lhsBatch := []
  rhsBatch := []
  wf := dot_S262144x2_S2x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf
def gather_S300000x128_S16384x1_S16384x128_1_0_n_n_0_1_1128 : GatherDims S300000x128 S16384x1 S16384x128 where
  offsetDims := [1]
  collapsedSliceDims := [0]
  operandBatchingDims := []
  startIndicesBatchingDims := []
  startIndexMap := [0]
  indexVectorDim := 1
  sliceSizes := ![1, 128]
  wf := gather_S300000x128_S16384x1_S16384x128_1_0_n_n_0_1_1128_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

class Facts : Prop extends Facts₀ where

variable [Facts]
-- ==== Proof.EntryBits.lean ====
/-
  What the TensorCore's buffers hold when the one pallas_call of @main is entered: the launch contents pushed
  through the host operations that come before the call (the event gathers, the type-dispatched embedding
  selects, the three feature columns set side by side, and the reshapes to [16384, 16, ·]), stretch by stretch.
-/
import proofs.«154417_j15590731284983_1_alg».proof.Proof.Gen.Kernel.Launch
import Idealize.ShloMosaic.Lib.StableHlo.Run

noncomputable section

namespace Cert.Kernel.Fr

open Cert.Kernel Cert.Kernel.Gen Idealize.ShloMosaic Idealize.ShloMosaic.TcCoe Idealize.SL.Sem

variable {F : FTy → Type} [FloatOps F]
variable (m : (ℓ : Loc nD τ sig) → Buf (Elt F) ℓ)

/-- Core `c`'s TensorCore buffers when the region is entered: the launch memory after the seven stretches of host
    operations that precede the call, in program order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

end Cert.Kernel.Fr

end
-- ==== Proof.FrameBits.lean ====
/-
  The frame of @main around its one pallas_call, at any reading `F` of the floating-point types.

  The call walks a grid of 128 points. At each point it stages one block of each of fourteen input arrays, runs the
  body, and writes one [128, 256] block of the result back. Five of the inputs are arrays the host operations before
  the call computed, cut into blocks [128, 16, 3], [128, 16, 128] (three of them) and [128, 128]; the other nine, of
  at most [256, 256], are taken whole and fetched once. The body loads whole staging blocks and stores one whole
  block. So what it leaves in the output block is a function of the fourteen input blocks, `out0_14`: the value of
  its single store, placed through the whole-block rectangle; and it leaves the input blocks as it found them. With
  that as proof data the library's frame run gives: every weakly fair execution of @main terminates, every staged
  array ends at what the data computes, and every other unscoped buffer ends as the call found it. The argument
  arrays are then unchanged: each of the 156 host operations before the call, the three-operand concatenation among
  them, writes only its own result buffer, which is no argument; the call writes only its result array; and an
  argument an input window stages is never written back.
-/
import proofs.«154417_j15590731284983_1_alg».proof.Proof.Gen.Kernel.Launch
import proofs.«154417_j15590731284983_1_alg».proof.Proof.Gen.Kernel.Skeleton
import proofs.«154417_j15590731284983_1_alg».proof.Proof.Gen.Kernel.Points
import proofs.«154417_j15590731284983_1_alg».proof.Proof.EntryBits
import Idealize.ShloMosaic.Lib.Pipeline.FrameBody
import Idealize.ShloMosaic.Lib.StableHlo.Run
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- No host operation allocates: each stretch's operations have no fresh buffers. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main up to the call is the seven stretches of host operations in order, then the call: the call is entered with
    the launch memory pushed through them (`V`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-! No host operation before the call writes an argument array — each writes its own result buffer, a different
    reference —, so the call finds every argument as launched. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it there
    or not (windows 5 … 13 are fetched at the first point only: their block index never moves, so the block kept
    from the point before is this point's), for any proof data over the arrays `V` whose body leaves the block
    in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- At a final state of a frame run of any proof data over the arrays `V`, on each core every argument array is as
    launched: an argument an input window stages is at the data's array (never written back), which is `V`'s; an
    argument no window stages is among the other unscoped buffers, which are at `V`; and `V` at an argument is the
    launch contents. -/
theorem kept_args (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).1 11).trans (((dats 0 c).arrAt_in 11 rfl _).trans ((hA c 11).trans (V_main_arg12 m c))),
    ((h c).1 5).trans (((dats 0 c).arrAt_in 5 rfl _).trans ((hA c 5).trans (V_main_arg13 m c))),
    ((h c).2 main_arg14 (Pipeline.mem_restRefs_of main_arg14 (by decide) (by decide))).trans (V_main_arg14 m c),
    ((h c).1 7).trans (((dats 0 c).arrAt_in 7 rfl _).trans ((hA c 7).trans (V_main_arg15 m c))),
    ((h c).2 main_arg16 (Pipeline.mem_restRefs_of main_arg16 (by decide) (by decide))).trans (V_main_arg16 m c),
    ((h c).1 9).trans (((dats 0 c).arrAt_in 9 rfl _).trans ((hA c 9).trans (V_main_arg17 m c))),
    ((h c).1 10).trans (((dats 0 c).arrAt_in 10 rfl _).trans ((hA c 10).trans (V_main_arg18 m c))),
    ((h c).1 12).trans (((dats 0 c).arrAt_in 12 rfl _).trans ((hA c 12).trans (V_main_arg19 m c))),
    ((h c).1 13).trans (((dats 0 c).arrAt_in 13 rfl _).trans ((hA c 13).trans (V_main_arg20 m c)))⟩

/-- So a frame run of any proof data over the arrays `V` is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => kept_args m dats hA r h c) h

/-! ## The body's accesses -/

/-! The whole-block rectangle of each window: what each of the body's loads, and its one store, goes through. -/

abbrev r0_0 : Rect S128x16x3 := Rect.unit (s := S128x16x3) ![0, 0, 0] S128x16x3.size inb_S128x16x3_S128x16x3_0_0_0
abbrev r0_1 : Rect S128x16x128 := Rect.unit (s := S128x16x128) ![0, 0, 0] S128x16x128.size inb_S128x16x128_S128x16x128_0_0_0
abbrev r0_2 : Rect S128x16x128 := Rect.unit (s := S128x16x128) ![0, 0, 0] S128x16x128.size inb_S128x16x128_S128x16x128_0_0_0
abbrev r0_3 : Rect S128x16x128 := Rect.unit (s := S128x16x128) ![0, 0, 0] S128x16x128.size inb_S128x16x128_S128x16x128_0_0_0
abbrev r0_4 : Rect S128x128 := Rect.unit (s := S128x128) ![0, 0] S128x128.size inb_S128x128_S128x128_0_0
abbrev r0_5 : Rect S256x2 := Rect.unit (s := S256x2) ![0, 0] S256x2.size inb_S256x2_S256x2_0_0
abbrev r0_6 : Rect S1x256 := Rect.unit (s := S1x256) ![0, 0] S1x256.size inb_S1x256_S1x256_0_0
abbrev r0_7 : Rect S256x256 := Rect.unit (s := S256x256) ![0, 0] S256x256.size inb_S256x256_S256x256_0_0
abbrev r0_8 : Rect S1x256 := Rect.unit (s := S1x256) ![0, 0] S1x256.size inb_S1x256_S1x256_0_0
abbrev r0_9 : Rect S256x128 := Rect.unit (s := S256x128) ![0, 0] S256x128.size inb_S256x128_S256x128_0_0
abbrev r0_10 : Rect S256x128 := Rect.unit (s := S256x128) ![0, 0] S256x128.size inb_S256x128_S256x128_0_0
abbrev r0_11 : Rect S256x128 := Rect.unit (s := S256x128) ![0, 0] S256x128.size inb_S256x128_S256x128_0_0
abbrev r0_12 : Rect S256x128 := Rect.unit (s := S256x128) ![0, 0] S256x128.size inb_S256x128_S256x128_0_0
abbrev r0_13 : Rect S256x256 := Rect.unit (s := S256x256) ![0, 0] S256x256.size inb_S256x256_S256x256_0_0
abbrev r0_14 : Rect S128x256 := Rect.unit (s := S128x256) ![0, 0] S128x256.size inb_S128x256_S128x256_0_0

/-! ## What the body leaves in the output block -/

/-- The output block after the body, from the fourteen input blocks: its one store through the whole-block
    rectangle, of the maximum with zero of a sum of two matrix products the body computes from the loaded blocks. -/
def out0_14 (x0 : Vec F S128x16x3 .f32) (x1 : Vec F S128x16x128 .f32) (x2 : Vec F S128x16x128 .f32) (x3 : Vec F S128x16x128 .f32) (x4 : Vec F S128x128 .f32) (x5 : Vec F S256x2 .f32) (x6 : Vec F S1x256 .f32) (x7 : Vec F S256x256 .f32) (x8 : Vec F S1x256 .f32) (x9 : Vec F S256x128 .f32) (x10 : Vec F S256x128 .f32) (x11 : Vec F S256x128 .f32) (x12 : Vec F S256x128 .f32) (x13 : Vec F S256x256 .f32) : Vec F S128x256 .f32 :=
  View.canon [⟨r0_14, k0_pay14 (k0_pay2 (View.ld x0 r0_0)) (k0_pay3 (View.ld x0 r0_0)) (k0_pay4 (View.ld x1 r0_1)) (k0_pay5 (View.ld x2 r0_2)) (k0_pay6 (View.ld x3 r0_3)) (k0_pay7 (View.ld x6 r0_6)) (k0_pay8 (View.ld x7 r0_7)) (k0_pay9 (View.ld x8 r0_8)) (k0_pay10 (View.ld x9 r0_9)) (k0_pay11 (View.ld x10 r0_10)) (k0_pay12 (View.ld x11 r0_11)) (k0_pay13 (View.ld x5 r0_5)) (View.ld x4 r0_4) (View.ld x12 r0_12) (View.ld x13 r0_13)⟩]

/-- That one store fills the block. -/
theorem cover0_14 (p0 : Vec F S128x256 .f32) (y : S128x256.Idx) :
    ∃ pc ∈ ([⟨r0_14, p0⟩] : List (View.Piece (Elt F) S128x256 .f32)), y ∈ pc.1.set :=
  View.cover_of_tiled [⟨r0_14, p0⟩] S128x256.size (by rfl) y

/-! ## The body's triple -/

set_option maxHeartbeats 1000000 in
/-- The body on whole staging buffers, the inputs' holding `xW` and the output's anything, runs to the continuation
    with the inputs' as they were and the output's at `out0_14` of them: fourteen loads of whole blocks, one load
    of the output block whose value is dropped, one store of the whole block. -/
theorem sound_kernel (c : Dev nD) (E : Set ℕ) (i : grid0.Coords) (a0 : Memref sig .tc .vmem S128x16x3 .f32) (ha0 : a0.IsWhole) (a1 : Memref sig .tc .vmem S128x16x128 .f32) (ha1 : a1.IsWhole) (a2 : Memref sig .tc .vmem S128x16x128 .f32) (ha2 : a2.IsWhole) (a3 : Memref sig .tc .vmem S128x16x128 .f32) (ha3 : a3.IsWhole) (a4 : Memref sig .tc .vmem S128x128 .f32) (ha4 : a4.IsWhole) (a5 : Memref sig .tc .vmem S256x2 .f32) (ha5 : a5.IsWhole) (a6 : Memref sig .tc .vmem S1x256 .f32) (ha6 : a6.IsWhole) (a7 : Memref sig .tc .vmem S256x256 .f32) (ha7 : a7.IsWhole) (a8 : Memref sig .tc .vmem S1x256 .f32) (ha8 : a8.IsWhole) (a9 : Memref sig .tc .vmem S256x128 .f32) (ha9 : a9.IsWhole) (a10 : Memref sig .tc .vmem S256x128 .f32) (ha10 : a10.IsWhole) (a11 : Memref sig .tc .vmem S256x128 .f32) (ha11 : a11.IsWhole) (a12 : Memref sig .tc .vmem S256x128 .f32) (ha12 : a12.IsWhole) (a13 : Memref sig .tc .vmem S256x256 .f32) (ha13 : a13.IsWhole) (a14 : Memref sig .tc .vmem S128x256 .f32) (ha14 : a14.IsWhole)
    (x0 : Vec F S128x16x3 .f32) (x1 : Vec F S128x16x128 .f32) (x2 : Vec F S128x16x128 .f32) (x3 : Vec F S128x16x128 .f32) (x4 : Vec F S128x128 .f32) (x5 : Vec F S256x2 .f32) (x6 : Vec F S1x256 .f32) (x7 : Vec F S256x256 .f32) (x8 : Vec F S1x256 .f32) (x9 : Vec F S256x128 .f32) (x10 : Vec F S256x128 .f32) (x11 : Vec F S256x128 .f32) (x12 : Vec F S256x128 .f32) (x13 : Vec F S256x256 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ (∃ d, owns (c : Thread nD τ) a14 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare (out0_14 x0 x1 x2 x3 x4 x5 x6 x7 x8 x9 x10 x11 x12 x13)) -∗ K ⟨⟩))
      ⊢ wp frame (wpE (defs₀ (F := F)) Variants.none c none) E (cc0__fused_kernel i a0 ha0 a1 ha1 a2 ha2 a3 ha3 a4 ha4 a5 ha5 a6 ha6 a7 ha7 a8 ha8 a9 ha9 a10 ha10 a11 ha11 a12 ha12 a13 ha13 a14 ha14) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover0_14 _)

/-! ## The pipeline's proof data -/

/-- The proof data on core `c`: the arrays as the call finds them; after the body at point `t` each input buffer at
    its block and the output buffer at `out0_14` of the input blocks; the invariant the untouched rest; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
  Φ _ := Pipeline.ΦA spec0 c
  q _ := fullShare
  owed _ := 0

/-- The data's arrays are the arrays the call finds. -/
theorem A_eq (c : Dev nD) (w : Fin cfg0.W) : (dats m 0 c).A w = V m c (Pipeline.arrRef spec0 w) := by
  dsimp only [dats]

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

/-! What the body finds, input by input. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t`: the invariant, what the core owes, and each window's current staging
    buffer at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- What the body returns at point `t`: the invariant and what the core owes, as they were, and each window's staging
    buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 1000000 in
/-- The body at any point: the input buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, for any values: every weakly fair execution of @main on the TensorCores
    terminates, and every final state has each staged array at what the library computes from the proof data — the
    result array at its launch contents overwritten, block by block, by `out0_14` of the input blocks — and every
    other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates and its twenty-one argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

end Cert.Kernel.Fr

end
-- ==== Proof.EntryIdeal.lean ====
/-
  What the TensorCore's buffers hold when the one pallas_call of @main is entered: the launch contents pushed
  through the host operations that come before the call (the event gathers, the type-dispatched embedding
  selects, the three feature columns set side by side, and the reshapes to [16384, 16, ·]), stretch by stretch.
-/
import proofs.«154417_j15590731284983_1_alg».proof.Proof.Gen.KernelIdeal.Launch
import Idealize.ShloMosaic.Lib.StableHlo.Run

noncomputable section

namespace Cert.KernelIdeal.Fr

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- Core `c`'s TensorCore buffers when the region is entered: the launch memory after the seven stretches of host
    operations that precede the call, in program order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

end Cert.KernelIdeal.Fr

end
-- ==== Proof.FrameIdeal.lean ====
/-
  The frame of @main around its one pallas_call, at any reading `F` of the floating-point types.

  The call walks a grid of 128 points. At each point it stages one block of each of fourteen input arrays, runs the
  body, and writes one [128, 256] block of the result back. Five of the inputs are arrays the host operations before
  the call computed, cut into blocks [128, 16, 3], [128, 16, 128] (three of them) and [128, 128]; the other nine, of
  at most [256, 256], are taken whole and fetched once. The body loads whole staging blocks and stores one whole
  block. So what it leaves in the output block is a function of the fourteen input blocks, `out0_14`: the value of
  its single store, placed through the whole-block rectangle; and it leaves the input blocks as it found them. With
  that as proof data the library's frame run gives: every weakly fair execution of @main terminates, every staged
  array ends at what the data computes, and every other unscoped buffer ends as the call found it. The argument
  arrays are then unchanged: each of the 156 host operations before the call, the three-operand concatenation among
  them, writes only its own result buffer, which is no argument; the call writes only its result array; and an
  argument an input window stages is never written back.
-/
import proofs.«154417_j15590731284983_1_alg».proof.Proof.Gen.KernelIdeal.Launch
import proofs.«154417_j15590731284983_1_alg».proof.Proof.Gen.KernelIdeal.Skeleton
import proofs.«154417_j15590731284983_1_alg».proof.Proof.Gen.KernelIdeal.Points
import proofs.«154417_j15590731284983_1_alg».proof.Proof.EntryIdeal
import Idealize.ShloMosaic.Lib.Pipeline.FrameBody
import Idealize.ShloMosaic.Lib.StableHlo.Run
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- No host operation allocates: each stretch's operations have no fresh buffers. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main up to the call is the seven stretches of host operations in order, then the call: the call is entered with
    the launch memory pushed through them (`V`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-! No host operation before the call writes an argument array — each writes its own result buffer, a different
    reference —, so the call finds every argument as launched. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it there
    or not (windows 5 … 13 are fetched at the first point only: their block index never moves, so the block kept
    from the point before is this point's), for any proof data over the arrays `V` whose body leaves the block
    in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- At a final state of a frame run of any proof data over the arrays `V`, on each core every argument array is as
    launched: an argument an input window stages is at the data's array (never written back), which is `V`'s; an
    argument no window stages is among the other unscoped buffers, which are at `V`; and `V` at an argument is the
    launch contents. -/
theorem kept_args (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).1 11).trans (((dats 0 c).arrAt_in 11 rfl _).trans ((hA c 11).trans (V_main_arg12 m c))),
    ((h c).1 5).trans (((dats 0 c).arrAt_in 5 rfl _).trans ((hA c 5).trans (V_main_arg13 m c))),
    ((h c).2 main_arg14 (Pipeline.mem_restRefs_of main_arg14 (by decide) (by decide))).trans (V_main_arg14 m c),
    ((h c).1 7).trans (((dats 0 c).arrAt_in 7 rfl _).trans ((hA c 7).trans (V_main_arg15 m c))),
    ((h c).2 main_arg16 (Pipeline.mem_restRefs_of main_arg16 (by decide) (by decide))).trans (V_main_arg16 m c),
    ((h c).1 9).trans (((dats 0 c).arrAt_in 9 rfl _).trans ((hA c 9).trans (V_main_arg17 m c))),
    ((h c).1 10).trans (((dats 0 c).arrAt_in 10 rfl _).trans ((hA c 10).trans (V_main_arg18 m c))),
    ((h c).1 12).trans (((dats 0 c).arrAt_in 12 rfl _).trans ((hA c 12).trans (V_main_arg19 m c))),
    ((h c).1 13).trans (((dats 0 c).arrAt_in 13 rfl _).trans ((hA c 13).trans (V_main_arg20 m c)))⟩

/-- So a frame run of any proof data over the arrays `V` is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => kept_args m dats hA r h c) h

/-! ## The body's accesses -/

/-! The whole-block rectangle of each window: what each of the body's loads, and its one store, goes through. -/

abbrev r0_0 : Rect S128x16x3 := Rect.unit (s := S128x16x3) ![0, 0, 0] S128x16x3.size inb_S128x16x3_S128x16x3_0_0_0
abbrev r0_1 : Rect S128x16x128 := Rect.unit (s := S128x16x128) ![0, 0, 0] S128x16x128.size inb_S128x16x128_S128x16x128_0_0_0
abbrev r0_2 : Rect S128x16x128 := Rect.unit (s := S128x16x128) ![0, 0, 0] S128x16x128.size inb_S128x16x128_S128x16x128_0_0_0
abbrev r0_3 : Rect S128x16x128 := Rect.unit (s := S128x16x128) ![0, 0, 0] S128x16x128.size inb_S128x16x128_S128x16x128_0_0_0
abbrev r0_4 : Rect S128x128 := Rect.unit (s := S128x128) ![0, 0] S128x128.size inb_S128x128_S128x128_0_0
abbrev r0_5 : Rect S256x2 := Rect.unit (s := S256x2) ![0, 0] S256x2.size inb_S256x2_S256x2_0_0
abbrev r0_6 : Rect S1x256 := Rect.unit (s := S1x256) ![0, 0] S1x256.size inb_S1x256_S1x256_0_0
abbrev r0_7 : Rect S256x256 := Rect.unit (s := S256x256) ![0, 0] S256x256.size inb_S256x256_S256x256_0_0
abbrev r0_8 : Rect S1x256 := Rect.unit (s := S1x256) ![0, 0] S1x256.size inb_S1x256_S1x256_0_0
abbrev r0_9 : Rect S256x128 := Rect.unit (s := S256x128) ![0, 0] S256x128.size inb_S256x128_S256x128_0_0
abbrev r0_10 : Rect S256x128 := Rect.unit (s := S256x128) ![0, 0] S256x128.size inb_S256x128_S256x128_0_0
abbrev r0_11 : Rect S256x128 := Rect.unit (s := S256x128) ![0, 0] S256x128.size inb_S256x128_S256x128_0_0
abbrev r0_12 : Rect S256x128 := Rect.unit (s := S256x128) ![0, 0] S256x128.size inb_S256x128_S256x128_0_0
abbrev r0_13 : Rect S256x256 := Rect.unit (s := S256x256) ![0, 0] S256x256.size inb_S256x256_S256x256_0_0
abbrev r0_14 : Rect S128x256 := Rect.unit (s := S128x256) ![0, 0] S128x256.size inb_S128x256_S128x256_0_0

/-! ## What the body leaves in the output block -/

/-- The output block after the body, from the fourteen input blocks: its one store through the whole-block
    rectangle, of the maximum with zero of a sum of two matrix products the body computes from the loaded blocks. -/
def out0_14 (x0 : Vec F S128x16x3 .f32) (x1 : Vec F S128x16x128 .f32) (x2 : Vec F S128x16x128 .f32) (x3 : Vec F S128x16x128 .f32) (x4 : Vec F S128x128 .f32) (x5 : Vec F S256x2 .f32) (x6 : Vec F S1x256 .f32) (x7 : Vec F S256x256 .f32) (x8 : Vec F S1x256 .f32) (x9 : Vec F S256x128 .f32) (x10 : Vec F S256x128 .f32) (x11 : Vec F S256x128 .f32) (x12 : Vec F S256x128 .f32) (x13 : Vec F S256x256 .f32) : Vec F S128x256 .f32 :=
  View.canon [⟨r0_14, k0_pay14 (k0_pay2 (View.ld x0 r0_0)) (k0_pay3 (View.ld x0 r0_0)) (k0_pay4 (View.ld x1 r0_1)) (k0_pay5 (View.ld x2 r0_2)) (k0_pay6 (View.ld x3 r0_3)) (k0_pay7 (View.ld x6 r0_6)) (k0_pay8 (View.ld x7 r0_7)) (k0_pay9 (View.ld x8 r0_8)) (k0_pay10 (View.ld x9 r0_9)) (k0_pay11 (View.ld x10 r0_10)) (k0_pay12 (View.ld x11 r0_11)) (k0_pay13 (View.ld x5 r0_5)) (View.ld x4 r0_4) (View.ld x12 r0_12) (View.ld x13 r0_13)⟩]

/-- That one store fills the block. -/
theorem cover0_14 (p0 : Vec F S128x256 .f32) (y : S128x256.Idx) :
    ∃ pc ∈ ([⟨r0_14, p0⟩] : List (View.Piece (Elt F) S128x256 .f32)), y ∈ pc.1.set :=
  View.cover_of_tiled [⟨r0_14, p0⟩] S128x256.size (by rfl) y

/-! ## The body's triple -/

set_option maxHeartbeats 1000000 in
/-- The body on whole staging buffers, the inputs' holding `xW` and the output's anything, runs to the continuation
    with the inputs' as they were and the output's at `out0_14` of them: fourteen loads of whole blocks, one load
    of the output block whose value is dropped, one store of the whole block. -/
theorem sound_kernel (c : Dev nD) (E : Set ℕ) (i : grid0.Coords) (a0 : Memref sig .tc .vmem S128x16x3 .f32) (ha0 : a0.IsWhole) (a1 : Memref sig .tc .vmem S128x16x128 .f32) (ha1 : a1.IsWhole) (a2 : Memref sig .tc .vmem S128x16x128 .f32) (ha2 : a2.IsWhole) (a3 : Memref sig .tc .vmem S128x16x128 .f32) (ha3 : a3.IsWhole) (a4 : Memref sig .tc .vmem S128x128 .f32) (ha4 : a4.IsWhole) (a5 : Memref sig .tc .vmem S256x2 .f32) (ha5 : a5.IsWhole) (a6 : Memref sig .tc .vmem S1x256 .f32) (ha6 : a6.IsWhole) (a7 : Memref sig .tc .vmem S256x256 .f32) (ha7 : a7.IsWhole) (a8 : Memref sig .tc .vmem S1x256 .f32) (ha8 : a8.IsWhole) (a9 : Memref sig .tc .vmem S256x128 .f32) (ha9 : a9.IsWhole) (a10 : Memref sig .tc .vmem S256x128 .f32) (ha10 : a10.IsWhole) (a11 : Memref sig .tc .vmem S256x128 .f32) (ha11 : a11.IsWhole) (a12 : Memref sig .tc .vmem S256x128 .f32) (ha12 : a12.IsWhole) (a13 : Memref sig .tc .vmem S256x256 .f32) (ha13 : a13.IsWhole) (a14 : Memref sig .tc .vmem S128x256 .f32) (ha14 : a14.IsWhole)
    (x0 : Vec F S128x16x3 .f32) (x1 : Vec F S128x16x128 .f32) (x2 : Vec F S128x16x128 .f32) (x3 : Vec F S128x16x128 .f32) (x4 : Vec F S128x128 .f32) (x5 : Vec F S256x2 .f32) (x6 : Vec F S1x256 .f32) (x7 : Vec F S256x256 .f32) (x8 : Vec F S1x256 .f32) (x9 : Vec F S256x128 .f32) (x10 : Vec F S256x128 .f32) (x11 : Vec F S256x128 .f32) (x12 : Vec F S256x128 .f32) (x13 : Vec F S256x256 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ (∃ d, owns (c : Thread nD τ) a14 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare (out0_14 x0 x1 x2 x3 x4 x5 x6 x7 x8 x9 x10 x11 x12 x13)) -∗ K ⟨⟩))
      ⊢ wp frame (wpE (defs₀ (F := F)) Variants.none c none) E (cc0__fused_kernel i a0 ha0 a1 ha1 a2 ha2 a3 ha3 a4 ha4 a5 ha5 a6 ha6 a7 ha7 a8 ha8 a9 ha9 a10 ha10 a11 ha11 a12 ha12 a13 ha13 a14 ha14) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover0_14 _)

/-! ## The pipeline's proof data -/

/-- The proof data on core `c`: the arrays as the call finds them; after the body at point `t` each input buffer at
    its block and the output buffer at `out0_14` of the input blocks; the invariant the untouched rest; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
  Φ _ := Pipeline.ΦA spec0 c
  q _ := fullShare
  owed _ := 0

/-- The data's arrays are the arrays the call finds. -/
theorem A_eq (c : Dev nD) (w : Fin cfg0.W) : (dats m 0 c).A w = V m c (Pipeline.arrRef spec0 w) := by
  dsimp only [dats]

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

/-! What the body finds, input by input. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t`: the invariant, what the core owes, and each window's current staging
    buffer at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- What the body returns at point `t`: the invariant and what the core owes, as they were, and each window's staging
    buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 1000000 in
/-- The body at any point: the input buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, for any values: every weakly fair execution of @main on the TensorCores
    terminates, and every final state has each staged array at what the library computes from the proof data — the
    result array at its launch contents overwritten, block by block, by `out0_14` of the input blocks — and every
    other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates and its twenty-one argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

end Cert.KernelIdeal.Fr

end
-- ==== Proof.RefFrame.lean ====
/-
  The reference runs and leaves its arguments as they were.

  The generated run of the reference states where every execution ends: the result buffer at the composed term of
  the arguments, and each of the 21 argument buffers at its contents at launch. The frame claim asks for the second
  part only, so it is that run with the first conjunct dropped.
-/
import proofs.«154417_j15590731284983_1_alg».proof.Defs
import proofs.«154417_j15590731284983_1_alg».proof.Proof.Gen.ReferenceIdeal.Run
import proofs.«154417_j15590731284983_1_alg».proof.Proof.Gen.Pre_finite_inputs

noncomputable section

namespace Cert.Proof.Ref

open Idealize.ShloMosaic Idealize.SL.Sem

/-- The reference terminates without fault and its argument arrays end unchanged. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

end Cert.Proof.Ref

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.Spec.lean ====
/-
  One layer of neighbourhood aggregation over sampled events, written row by row over the extended reals.

  A node has 16 sampled events. Each event carries a two-entry feature row (a normalised time stamp and a
  log-weight), three embedding rows (source, destination, relation) and a mask entry. An event's hidden row is
  a two-layer perceptron of the feature row plus three linear images of the embedding rows, rectified,
  `relu (W₂ · relu (W₁ · feat + b₁) + b₂ + s · Wₛ + d · W_d + r · W_r)`, and it counts multiplied by the
  event's mask entry. The node's row is the rectified sum of a linear image of its own embedding row and a
  linear image of the 16 hidden rows' sum scaled by a constant (their mean). `layer` states this for an array
  of any number `a` of nodes: the events as `[a, 16, ·]` arrays, the nodes as `[a, 128]`, the result `[a, 256]`;
  the weights enter already as `[inputs, outputs]` matrices. The result at a node depends only on that node's
  rows (`layer_congr_row`), which is what lets a block of rows be read inside the whole array.
-/
import proofs.«154417_j15590731284983_1_alg».proof.Proof.LibRowLayers

noncomputable section

namespace Cert.EventSage

open Idealize.ShloMosaic Idealize.ShloMosaic.ValueIdx Cert.RowLayers

/-- A two-dimensional array of extended reals. -/
abbrev Mat (a b : ℕ) : Type := (⟨2, ![a, b]⟩ : Shape).Idx → EReal
/-- A three-dimensional array of extended reals. -/
abbrev Cube (a b c : ℕ) : Type := (⟨3, ![a, b, c]⟩ : Shape).Idx → EReal

/-- A weight matrix stored `[outputs, inputs]` read as `[inputs, outputs]`: entry `(k, j)` is the stored entry `(j, k)`. -/
def tr {J K : ℕ} (x : Mat J K) : Mat K J := fun i => x (ix2 (i 1) (i 0))

theorem tr_ix2 {J K : ℕ} (x : Mat J K) (k : Fin K) (j : Fin J) : tr x (ix2 k j) = x (ix2 j k) := rfl

/-- The array operation that swaps the two axes of a matrix is `tr`. -/
theorem transpose_eq_tr {J K : ℕ} (x : Mat J K) (h : (⟨2, ![J, K]⟩ : Shape).Transposes [1, 0] ⟨2, ![K, J]⟩) :
    transpose ⟨2, ![K, J]⟩ [1, 0] x h = tr x := by
  funext i
  obtain ⟨k, j, rfl⟩ : ∃ (k : Fin K) (j : Fin J), i = ix2 k j := ⟨i 0, i 1, eq_ix2 i⟩
  rw [transpose_ix2_apply]
  rfl

/-- The number of event `f` of node `p` among all 16 · 16384 events, node after node. -/
def evRow (p : Fin 16384) (f : Fin 16) : Fin 262144 := ⟨p.val * 16 + f.val, by have := p.isLt; have := f.isLt; omega⟩

/-- The rectifier's threshold as both programs spell it: the f32 pattern of zero. -/
abbrev zf : EReal := Ideal.ofBits .f32 0x00000000#32
/-- The f32 pattern of one sixteenth, the factor that turns the sum of 16 hidden rows into their mean. -/
abbrev c16 : EReal := Ideal.ofBits .f32 0x3D800000#32

/-- The linear image of a row: entry `j` is `∑ k, h k · w[k, j]`. -/
def proj {K J : ℕ} (h : Fin K → EReal) (w : Mat K J) : Fin J → EReal := fun j => ∑ k : Fin K, h k * w (ix2 k j)

/-- The hidden row of one event from its feature row and its three embedding rows. -/
def eventRow (z : EReal) (w1 : Mat 2 256) (b1 : Fin 256 → EReal) (w2 : Mat 256 256) (b2 : Fin 256 → EReal)
    (ws wd wr : Mat 128 256) (feat : Fin 2 → EReal) (s d r : Fin 128 → EReal) : Fin 256 → EReal :=
  relu z (fun j => ((dense (relu z (dense feat w1 b1)) w2 b2 j + proj s ws j) + proj d wd j) + proj r wr j)

/-- A node's row from its own embedding row and the mean row of its events: the two linear images added and rectified. -/
def combineRow (z : EReal) (wself : Mat 128 256) (wn : Mat 256 256) (self : Fin 128 → EReal) (mean : Fin 256 → EReal) :
    Fin 256 → EReal :=
  relu z (fun q => proj self wself q + proj mean wn q)

/-- A node's row from its own embedding row and its 16 events' (masked) hidden rows: the hidden rows are summed,
    scaled by `c`, and the two linear images are added and rectified. -/
def nodeRow (z c : EReal) (wself : Mat 128 256) (wn : Mat 256 256) (self : Fin 128 → EReal)
    (ev : Fin 16 → Fin 256 → EReal) : Fin 256 → EReal :=
  combineRow z wself wn self (fun j => (∑ f : Fin 16, ev f j) * c)

/-- The first two of an event's three feature entries. -/
def featRow {a : ℕ} (x0 : Cube a 16 3) (p : Fin a) (f : Fin 16) : Fin 2 → EReal :=
  fun u => x0 (ix3 p f (Fin.castLE (by decide : 2 ≤ 3) u))

/-- An event's hidden row times its mask entry (the third feature entry). -/
def maskedEventRow {a : ℕ} (z : EReal) (w1 : Mat 2 256) (b1 : Fin 256 → EReal) (w2 : Mat 256 256) (b2 : Fin 256 → EReal)
    (ws wd wr : Mat 128 256) (x0 : Cube a 16 3) (x1 x2 x3 : Cube a 16 128) (p : Fin a) (f : Fin 16) : Fin 256 → EReal :=
  fun j => eventRow z w1 b1 w2 b2 ws wd wr (featRow x0 p f) (fun k => x1 (ix3 p f k)) (fun k => x2 (ix3 p f k))
    (fun k => x3 (ix3 p f k)) j * x0 (ix3 p f 2)

/-- The layer on `a` nodes. -/
def layer {a : ℕ} (z c : EReal) (w1 : Mat 2 256) (b1 : Fin 256 → EReal) (w2 : Mat 256 256) (b2 : Fin 256 → EReal)
    (ws wd wr wself : Mat 128 256) (wn : Mat 256 256)
    (x0 : Cube a 16 3) (x1 x2 x3 : Cube a 16 128) (x4 : Mat a 128) : Mat a 256 :=
  fun i => nodeRow z c wself wn (rowOf x4 (i 0)) (maskedEventRow z w1 b1 w2 b2 ws wd wr x0 x1 x2 x3 (i 0)) (i 1)

theorem layer_ix2 {a : ℕ} (z c : EReal) (w1 : Mat 2 256) (b1 : Fin 256 → EReal) (w2 : Mat 256 256) (b2 : Fin 256 → EReal)
    (ws wd wr wself : Mat 128 256) (wn : Mat 256 256)
    (x0 : Cube a 16 3) (x1 x2 x3 : Cube a 16 128) (x4 : Mat a 128) (p : Fin a) (q : Fin 256) :
    layer z c w1 b1 w2 b2 ws wd wr wself wn x0 x1 x2 x3 x4 (ix2 p q)
      = nodeRow z c wself wn (rowOf x4 p) (maskedEventRow z w1 b1 w2 b2 ws wd wr x0 x1 x2 x3 p) q := rfl

/-- The layer's result at node `p` reads only node `p`'s rows: two families of arrays (of possibly different
    numbers of nodes) whose rows at `p` and `p'` agree give the same result row. -/
theorem layer_congr_row {a a' : ℕ} (z c : EReal) (w1 : Mat 2 256) (b1 : Fin 256 → EReal) (w2 : Mat 256 256) (b2 : Fin 256 → EReal)
    (ws wd wr wself : Mat 128 256) (wn : Mat 256 256)
    (x0 : Cube a 16 3) (x1 x2 x3 : Cube a 16 128) (x4 : Mat a 128)
    (x0' : Cube a' 16 3) (x1' x2' x3' : Cube a' 16 128) (x4' : Mat a' 128) (p : Fin a) (p' : Fin a') (q : Fin 256)
    (h0 : ∀ f u, x0 (ix3 p f u) = x0' (ix3 p' f u)) (h1 : ∀ f k, x1 (ix3 p f k) = x1' (ix3 p' f k))
    (h2 : ∀ f k, x2 (ix3 p f k) = x2' (ix3 p' f k)) (h3 : ∀ f k, x3 (ix3 p f k) = x3' (ix3 p' f k))
    (h4 : ∀ k, x4 (ix2 p k) = x4' (ix2 p' k)) :
    layer z c w1 b1 w2 b2 ws wd wr wself wn x0 x1 x2 x3 x4 (ix2 p q)
      = layer z c w1 b1 w2 b2 ws wd wr wself wn x0' x1' x2' x3' x4' (ix2 p' q) := by
  rw [layer_ix2, layer_ix2]
  have e4 : rowOf x4 p = rowOf x4' p' := funext h4
  have e : maskedEventRow z w1 b1 w2 b2 ws wd wr x0 x1 x2 x3 p = maskedEventRow z w1 b1 w2 b2 ws wd wr x0' x1' x2' x3' p' := by
    funext f j
    unfold maskedEventRow
    rw [show featRow x0 p f = featRow x0' p' f from funext fun u => h0 f _,
      show (fun k => x1 (ix3 p f k)) = fun k => x1' (ix3 p' f k) from funext (h1 f),
      show (fun k => x2 (ix3 p f k)) = fun k => x2' (ix3 p' f k) from funext (h2 f),
      show (fun k => x3 (ix3 p f k)) = fun k => x3' (ix3 p' f k) from funext (h3 f), h0 f 2]
  rw [e4, e]

/-- A mask entry that is the number of a one-bit word (0 or 1) keeps a value or replaces it by zero. -/
theorem mul_bit (b : BitVec 1) (x : EReal) : x * ((b.toNat : ℝ) : EReal) = if b = 1 then x else 0 := by
  rcases BitVec.eq_zero_or_eq_one b with h | h <;> subst h <;> simp

end Cert.EventSage

end
-- ==== Proof.LibRelayout.lean ====
/-
  Re-layouts of an array read at an index given by its coordinates.

  A row-major reshape keeps the position of every entry in the flat order. So a reshape that MERGES leading axes
  ([a, b, c] to [a·b, c]) reads, at row `p·b + q`, the entry `(p, q, ·)`; one that SPLITS them back reads the same the other
  way; one that INSERTS a unit axis forgets the unit coordinate. A broadcast along an axis of extent one reads the one
  entry there is on that axis. Each statement below names both indices by coordinates, for any extents, so that a chain of
  such operations is walked by `rw`, outermost operation first.
-/
import Idealize.ShloMosaic.Lib.ValueIdx
import Idealize.ShloMosaic.Lib.ValueLayout
import Idealize.ShloMosaic.Lib.Pipeline.Value

namespace Cert.Relayout

open Idealize.ShloMosaic Idealize.ShloMosaic.ValueIdx

variable {α : Type}

/-! ## Merging and splitting leading axes -/

/-- `[a, b, c]` merged to `[M, c]`: row `p·b + q` is `(p, q, ·)`. -/
theorem merge_ab_apply {a b c M : ℕ} (x : (⟨3, ![a, b, c]⟩ : Shape).Idx → α) (h : (⟨3, ![a, b, c]⟩ : Shape).ShapeCasts ⟨2, ![M, c]⟩)
    (p : Fin a) (q : Fin b) (k : Fin c) (r : Fin M) (hr : r.val = p.val * b + q.val) :
    shapeCast ⟨2, ![M, c]⟩ x h (ix2 r k) = x (ix3 p q k) :=
  shapeCast_apply x h _ _ (by
    rw [Shape.rowMajor_val_three, Shape.rowMajor_val_two]
    show (p.val * b + q.val) * c + k.val = r.val * c + k.val
    rw [hr])

/-- `[M, c]` split to `[a, b, c]`: `(p, q, ·)` is row `p·b + q`. -/
theorem split_ab_apply {a b c M : ℕ} (x : (⟨2, ![M, c]⟩ : Shape).Idx → α) (h : (⟨2, ![M, c]⟩ : Shape).ShapeCasts ⟨3, ![a, b, c]⟩)
    (p : Fin a) (q : Fin b) (k : Fin c) (r : Fin M) (hr : r.val = p.val * b + q.val) :
    shapeCast ⟨3, ![a, b, c]⟩ x h (ix3 p q k) = x (ix2 r k) :=
  shapeCast_apply x h _ _ (by
    rw [Shape.rowMajor_val_three, Shape.rowMajor_val_two]
    show r.val * c + k.val = (p.val * b + q.val) * c + k.val
    rw [hr])

/-- `[a, b, c, d]` merged to `[M, d]`: row `(p·b + q)·c + s` is `(p, q, s, ·)`. -/
theorem merge_abc_apply {a b c d M : ℕ} (x : (⟨4, ![a, b, c, d]⟩ : Shape).Idx → α) (h : (⟨4, ![a, b, c, d]⟩ : Shape).ShapeCasts ⟨2, ![M, d]⟩)
    (p : Fin a) (q : Fin b) (s : Fin c) (k : Fin d) (r : Fin M) (hr : r.val = (p.val * b + q.val) * c + s.val) :
    shapeCast ⟨2, ![M, d]⟩ x h (ix2 r k) = x (ix4 p q s k) :=
  shapeCast_apply x h _ _ (by
    rw [Shape.rowMajor_val_four, Shape.rowMajor_val_two]
    show ((p.val * b + q.val) * c + s.val) * d + k.val = r.val * d + k.val
    rw [hr])

/-- `[M, d]` split to `[a, b, c, d]`: `(p, q, s, ·)` is row `(p·b + q)·c + s`. -/
theorem split_abc_apply {a b c d M : ℕ} (x : (⟨2, ![M, d]⟩ : Shape).Idx → α) (h : (⟨2, ![M, d]⟩ : Shape).ShapeCasts ⟨4, ![a, b, c, d]⟩)
    (p : Fin a) (q : Fin b) (s : Fin c) (k : Fin d) (r : Fin M) (hr : r.val = (p.val * b + q.val) * c + s.val) :
    shapeCast ⟨4, ![a, b, c, d]⟩ x h (ix4 p q s k) = x (ix2 r k) :=
  shapeCast_apply x h _ _ (by
    rw [Shape.rowMajor_val_four, Shape.rowMajor_val_two]
    show r.val * d + k.val = ((p.val * b + q.val) * c + s.val) * d + k.val
    rw [hr])

/-- `[a, b, c, d]` with its two leading axes merged, `[N, c, d]`: leading coordinate `p·b + q` is `(p, q, ·, ·)`. -/
theorem mergeLead_apply {a b c d N : ℕ} (x : (⟨4, ![a, b, c, d]⟩ : Shape).Idx → α) (h : (⟨4, ![a, b, c, d]⟩ : Shape).ShapeCasts ⟨3, ![N, c, d]⟩)
    (p : Fin a) (q : Fin b) (s : Fin c) (k : Fin d) (n : Fin N) (hn : n.val = p.val * b + q.val) :
    shapeCast ⟨3, ![N, c, d]⟩ x h (ix3 n s k) = x (ix4 p q s k) :=
  shapeCast_apply x h _ _ (by
    rw [Shape.rowMajor_val_four, Shape.rowMajor_val_three]
    show ((p.val * b + q.val) * c + s.val) * d + k.val = (n.val * c + s.val) * d + k.val
    rw [hn])

/-! ## A unit axis inserted in the middle -/

/-- `[a, b, c]` viewed `[a, 1, b, c]`. -/
theorem unitSecond_apply {a b c : ℕ} (x : (⟨3, ![a, b, c]⟩ : Shape).Idx → α) (h : (⟨3, ![a, b, c]⟩ : Shape).ShapeCasts ⟨4, ![a, 1, b, c]⟩)
    (p : Fin a) (u : Fin 1) (q : Fin b) (k : Fin c) :
    shapeCast ⟨4, ![a, 1, b, c]⟩ x h (ix4 p u q k) = x (ix3 p q k) :=
  shapeCast_apply x h _ _ (by
    have hu : u.val = 0 := by omega
    rw [Shape.rowMajor_val_four, Shape.rowMajor_val_three]
    show (p.val * b + q.val) * c + k.val = ((p.val * 1 + u.val) * b + q.val) * c + k.val
    rw [hu, Nat.mul_one, Nat.add_zero])

/-- `[a, b, c]` viewed `[a, b, 1, c]`. -/
theorem unitThird_apply {a b c : ℕ} (x : (⟨3, ![a, b, c]⟩ : Shape).Idx → α) (h : (⟨3, ![a, b, c]⟩ : Shape).ShapeCasts ⟨4, ![a, b, 1, c]⟩)
    (p : Fin a) (q : Fin b) (u : Fin 1) (k : Fin c) :
    shapeCast ⟨4, ![a, b, 1, c]⟩ x h (ix4 p q u k) = x (ix3 p q k) :=
  shapeCast_apply x h _ _ (by
    have hu : u.val = 0 := by omega
    rw [Shape.rowMajor_val_four, Shape.rowMajor_val_three]
    show (p.val * b + q.val) * c + k.val = ((p.val * b + q.val) * 1 + u.val) * c + k.val
    rw [hu, Nat.mul_one, Nat.add_zero])

/-- A row `[1, c]` viewed `[1, 1, 1, c]`. -/
theorem rowToUnits_apply {c : ℕ} (x : (⟨2, ![1, c]⟩ : Shape).Idx → α) (h : (⟨2, ![1, c]⟩ : Shape).ShapeCasts ⟨4, ![1, 1, 1, c]⟩)
    (u1 u2 u3 : Fin 1) (k : Fin c) :
    shapeCast ⟨4, ![1, 1, 1, c]⟩ x h (ix4 u1 u2 u3 k) = x (ix2 (0 : Fin 1) k) :=
  shapeCast_apply x h _ _ (by
    have h1 : u1.val = 0 := by omega
    have h2 : u2.val = 0 := by omega
    have h3 : u3.val = 0 := by omega
    rw [Shape.rowMajor_val_four, Shape.rowMajor_val_two]
    show 0 * c + k.val = ((u1.val * 1 + u2.val) * 1 + u3.val) * c + k.val
    rw [h1, h2, h3])

/-! ## Broadcasts along one axis of a rank-4 array -/

/-- `[a, 1, c, d]` broadcast to `[a, b, c, d]`. -/
theorem bcastSecond_apply {a b c d : ℕ} (x : (⟨4, ![a, 1, c, d]⟩ : Shape).Idx → α) (h : (⟨4, ![a, 1, c, d]⟩ : Shape).Broadcasts ⟨4, ![a, b, c, d]⟩)
    (p : Fin a) (q : Fin b) (s : Fin c) (k : Fin d) :
    broadcastTo ⟨4, ![a, b, c, d]⟩ x h (ix4 p q s k) = x (ix4 p (0 : Fin 1) s k) :=
  broadcastTo_apply x h _ _ fun ax => by
    match ax with
    | ⟨0, _⟩ => show p.val = if a = 1 then 0 else p.val; split <;> [(have := p.isLt; omega); rfl]
    | ⟨1, _⟩ => show (0 : ℕ) = if (1 : ℕ) = 1 then 0 else q.val; rw [if_pos rfl]
    | ⟨2, _⟩ => show s.val = if c = 1 then 0 else s.val; split <;> [(have := s.isLt; omega); rfl]
    | ⟨3, _⟩ => show k.val = if d = 1 then 0 else k.val; split <;> [(have := k.isLt; omega); rfl]

/-- `[a, b, 1, d]` broadcast to `[a, b, c, d]`. -/
theorem bcastThird_apply {a b c d : ℕ} (x : (⟨4, ![a, b, 1, d]⟩ : Shape).Idx → α) (h : (⟨4, ![a, b, 1, d]⟩ : Shape).Broadcasts ⟨4, ![a, b, c, d]⟩)
    (p : Fin a) (q : Fin b) (s : Fin c) (k : Fin d) :
    broadcastTo ⟨4, ![a, b, c, d]⟩ x h (ix4 p q s k) = x (ix4 p q (0 : Fin 1) k) :=
  broadcastTo_apply x h _ _ fun ax => by
    match ax with
    | ⟨0, _⟩ => show p.val = if a = 1 then 0 else p.val; split <;> [(have := p.isLt; omega); rfl]
    | ⟨1, _⟩ => show q.val = if b = 1 then 0 else q.val; split <;> [(have := q.isLt; omega); rfl]
    | ⟨2, _⟩ => show (0 : ℕ) = if (1 : ℕ) = 1 then 0 else s.val; rw [if_pos rfl]
    | ⟨3, _⟩ => show k.val = if d = 1 then 0 else k.val; split <;> [(have := k.isLt; omega); rfl]

/-- `[1, 1, 1, d]` broadcast to `[a, b, c, d]`: one row for every `(p, q, s)`. -/
theorem bcastRow_apply {a b c d : ℕ} (x : (⟨4, ![1, 1, 1, d]⟩ : Shape).Idx → α) (h : (⟨4, ![1, 1, 1, d]⟩ : Shape).Broadcasts ⟨4, ![a, b, c, d]⟩)
    (p : Fin a) (q : Fin b) (s : Fin c) (k : Fin d) :
    broadcastTo ⟨4, ![a, b, c, d]⟩ x h (ix4 p q s k) = x (ix4 (0 : Fin 1) (0 : Fin 1) (0 : Fin 1) k) :=
  broadcastTo_apply x h _ _ fun ax => by
    match ax with
    | ⟨0, _⟩ => show (0 : ℕ) = if (1 : ℕ) = 1 then 0 else p.val; rw [if_pos rfl]
    | ⟨1, _⟩ => show (0 : ℕ) = if (1 : ℕ) = 1 then 0 else q.val; rw [if_pos rfl]
    | ⟨2, _⟩ => show (0 : ℕ) = if (1 : ℕ) = 1 then 0 else s.val; rw [if_pos rfl]
    | ⟨3, _⟩ => show k.val = if d = 1 then 0 else k.val; split <;> [(have := k.isLt; omega); rfl]

end Cert.Relayout
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.KernelBlock.lean ====
/-
  The body of the call on one block of 128 nodes, read at the extended reals.

  The block's 2048 = 128 · 16 events are laid out as rows `16 · p + f` (event `f` of node `p`). The body computes, for
  every event row, the two-layer perceptron of its two feature entries plus the three linear images of its
  embedding rows, rectifies, multiplies by the event's mask entry, sums each node's 16 rows, scales the sum by one
  sixteenth, and finishes with the two linear images of the node's own row and of that mean, rectified. Every
  matrix product is "rows times columns" against a transposed weight block, into a zero accumulator; a change of
  float format is the identity at the extended reals. So the stored block is `layer` of the loaded blocks, entry by
  entry (`block_eq`). The three stages of the body (`hiddenArr`, `meanArr`, `outArr`) are named so that each is
  read on its own.
-/
import proofs.«154417_j15590731284983_1_alg».proof.Proof.Gen.KernelIdeal.Skeleton
import proofs.«154417_j15590731284983_1_alg».proof.Proof.Spec
import proofs.«154417_j15590731284983_1_alg».proof.Proof.LibRelayout
import proofs.«154417_j15590731284983_1_alg».proof.Proof.LibColumnBroadcast
import Idealize.ShloMosaic.PureOps.Ideal.Laws

noncomputable section

namespace Cert.KernelIdeal.Block

open Cert.KernelIdeal Cert.KernelIdeal.Gen Cert.EventSage Cert.RowLayers Idealize.ShloMosaic Idealize.ShloMosaic.ValueIdx

/-! ## The five products are rows times columns -/

theorem rtc_feat : RowsTimesCols dot_S2048x2_S2x256_S2048x256_1_0_0_1_n_n where
  rank := rfl
  size := rfl
  lhs0 := fun j q => by
    unfold DotDims.lhsIdx
    rw [dif_neg (show ¬(0 : Fin S2048x2.rank) ∈ dot_S2048x2_S2x256_S2048x256_1_0_0_1_n_n.lhsBatch by decide), dif_pos (show (0 : Fin S2048x2.rank) ∈ dot_S2048x2_S2x256_S2048x256_1_0_0_1_n_n.lhsNonContracting by decide)]
    rfl
  lhs1 := fun j q => dot_S2048x2_S2x256_S2048x256_1_0_0_1_n_n.lhsIdx_val_of_single rfl j q
  rhs0 := fun j q => dot_S2048x2_S2x256_S2048x256_1_0_0_1_n_n.rhsIdx_val_of_single rfl j q
  rhs1 := fun j q => by
    unfold DotDims.rhsIdx
    rw [dif_neg (show ¬(1 : Fin S2x256.rank) ∈ dot_S2048x2_S2x256_S2048x256_1_0_0_1_n_n.rhsBatch by decide), dif_pos (show (1 : Fin S2x256.rank) ∈ dot_S2048x2_S2x256_S2048x256_1_0_0_1_n_n.rhsNonContracting by decide)]
    rfl

theorem rtc_hid : RowsTimesCols dot_S2048x256_S256x256_S2048x256_1_0_0_1_n_n where
  rank := rfl
  size := rfl
  lhs0 := fun j q => by
    unfold DotDims.lhsIdx
    rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
    rfl
  lhs1 := fun j q => dot_S2048x256_S256x256_S2048x256_1_0_0_1_n_n.lhsIdx_val_of_single rfl j q
  rhs0 := fun j q => dot_S2048x256_S256x256_S2048x256_1_0_0_1_n_n.rhsIdx_val_of_single rfl j q
  rhs1 := fun j q => by
    unfold DotDims.rhsIdx
    rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
    rfl

theorem rtc_emb : RowsTimesCols dot_S2048x128_S128x256_S2048x256_1_0_0_1_n_n where
  rank := rfl
  size := rfl
  lhs0 := fun j q => by
    unfold DotDims.lhsIdx
    rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
    rfl
  lhs1 := fun j q => dot_S2048x128_S128x256_S2048x256_1_0_0_1_n_n.lhsIdx_val_of_single rfl j q
  rhs0 := fun j q => dot_S2048x128_S128x256_S2048x256_1_0_0_1_n_n.rhsIdx_val_of_single rfl j q
  rhs1 := fun j q => by
    unfold DotDims.rhsIdx
    rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
    rfl

theorem rtc_self : RowsTimesCols dot_S128x128_S128x256_S128x256_1_0_0_1_n_n where
  rank := rfl
  size := rfl
  lhs0 := fun j q => by
    unfold DotDims.lhsIdx
    rw [dif_neg (show ¬(0 : Fin S128x128.rank) ∈ dot_S128x128_S128x256_S128x256_1_0_0_1_n_n.lhsBatch by decide), dif_pos (show (0 : Fin S128x128.rank) ∈ dot_S128x128_S128x256_S128x256_1_0_0_1_n_n.lhsNonContracting by decide)]
    rfl
  lhs1 := fun j q => dot_S128x128_S128x256_S128x256_1_0_0_1_n_n.lhsIdx_val_of_single rfl j q
  rhs0 := fun j q => dot_S128x128_S128x256_S128x256_1_0_0_1_n_n.rhsIdx_val_of_single rfl j q
  rhs1 := fun j q => by
    unfold DotDims.rhsIdx
    rw [dif_neg (show ¬(1 : Fin S128x256.rank) ∈ dot_S128x128_S128x256_S128x256_1_0_0_1_n_n.rhsBatch by decide), dif_pos (show (1 : Fin S128x256.rank) ∈ dot_S128x128_S128x256_S128x256_1_0_0_1_n_n.rhsNonContracting by decide)]
    rfl

theorem rtc_neigh : RowsTimesCols dot_S128x256_S256x256_S128x256_1_0_0_1_n_n where
  rank := rfl
  size := rfl
  lhs0 := fun j q => by
    unfold DotDims.lhsIdx
    rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
    rfl
  lhs1 := fun j q => dot_S128x256_S256x256_S128x256_1_0_0_1_n_n.lhsIdx_val_of_single rfl j q
  rhs0 := fun j q => dot_S128x256_S256x256_S128x256_1_0_0_1_n_n.rhsIdx_val_of_single rfl j q
  rhs1 := fun j q => by
    unfold DotDims.rhsIdx
    rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
    rfl

/-! ## The body's three stages -/

/-- The 2048 events' hidden rows before masking: the perceptron of the feature rows plus the three embedding
    images, rectified. -/
def hiddenArr (v4 : FVec Ideal S2048x2 .bf16) (v9 v13 v17 : FVec Ideal S2048x128 .bf16) (v21 : FVec Ideal S1x256 .f32)
    (v23 : FVec Ideal S256x256 .bf16) (v25 : FVec Ideal S1x256 .f32) (v27 v29 v31 : FVec Ideal S256x128 .bf16)
    (v32 : FVec Ideal S2x256 .bf16) : FVec Ideal S2048x256 .f32 :=
  maximumf
    (addf (addf (addf
      (addf (matmul dot_S2048x256_S256x256_S2048x256_1_0_0_1_n_n none
          (truncf .bf16 (maximumf (addf (matmul dot_S2048x2_S2x256_S2048x256_1_0_0_1_n_n none v4 v32 (constant S2048x256 .f32 0x00000000#32))
            (broadcastTo S2048x256 v21 broadcasts_S1x256_S2048x256)) (broadcast S2048x256 (Scalar.ofBits .f32 0x00000000#32))) bitsLt_bf16_f32)
          (transpose S256x256 [1, 0] v23 transposes_S256x256_p1_0_S256x256) (constant S2048x256 .f32 0x00000000#32))
        (broadcastTo S2048x256 v25 broadcasts_S1x256_S2048x256))
      (matmul dot_S2048x128_S128x256_S2048x256_1_0_0_1_n_n none v9 (transpose S128x256 [1, 0] v27 transposes_S256x128_p1_0_S128x256) (constant S2048x256 .f32 0x00000000#32)))
      (matmul dot_S2048x128_S128x256_S2048x256_1_0_0_1_n_n none v13 (transpose S128x256 [1, 0] v29 transposes_S256x128_p1_0_S128x256) (constant S2048x256 .f32 0x00000000#32)))
      (matmul dot_S2048x128_S128x256_S2048x256_1_0_0_1_n_n none v17 (transpose S128x256 [1, 0] v31 transposes_S256x128_p1_0_S128x256) (constant S2048x256 .f32 0x00000000#32)))
    (broadcast S2048x256 (Scalar.ofBits .f32 0x00000000#32))

/-- The nodes' masked means: each hidden row times its event's mask entry, the 16 rows of a node summed, the sum
    scaled by one sixteenth. -/
def meanArr (h : FVec Ideal S2048x256 .f32) (v5 : FVec Ideal S2048x1 .f32) : FVec Ideal S128x256 .f32 :=
  mulf (multiReduction .add [1] S128x256
      (shapeCast S128x16x256 (mulf h (broadcastTo S2048x256 v5 broadcasts_S2048x1_S2048x256)) shapeCasts_S2048x256_S128x16x256)
      0x00000000#32 reduces_S128x16x256_S128x256 (.inl rfl) rfl)
    (broadcast S128x256 (Scalar.ofBits .f32 0x3D800000#32))

/-- The nodes' result rows: the image of the own rows plus the image of the means, rectified. -/
def outArr (v59 : FVec Ideal S128x256 .f32) (v60 : Vec Ideal S128x128 .f32) (v63 : Vec Ideal S256x128 .f32) (v65 : Vec Ideal S256x256 .f32) :
    FVec Ideal S128x256 .f32 :=
  maximumf
    (addf
      (matmul dot_S128x128_S128x256_S128x256_1_0_0_1_n_n none
        (truncf .bf16 (shapeCast S128x128 v60 shapeCasts_S128x128_S128x128) bitsLt_bf16_f32)
        (transpose S128x256 [1, 0] (truncf .bf16 v63 bitsLt_bf16_f32) transposes_S256x128_p1_0_S128x256) (constant S128x256 .f32 0x00000000#32))
      (matmul dot_S128x256_S256x256_S128x256_1_0_0_1_n_n none (truncf .bf16 v59 bitsLt_bf16_f32)
        (transpose S256x256 [1, 0] (truncf .bf16 v65 bitsLt_bf16_f32) transposes_S256x256_p1_0_S256x256) (constant S128x256 .f32 0x00000000#32)))
    (broadcast S128x256 (Scalar.ofBits .f32 0x00000000#32))

/-- The body's stored value is the three stages composed. -/
theorem pay14_eq (v4 : FVec Ideal S2048x2 .bf16) (v5 : FVec Ideal S2048x1 .f32) (v9 v13 v17 : FVec Ideal S2048x128 .bf16)
    (v21 : FVec Ideal S1x256 .f32) (v23 : FVec Ideal S256x256 .bf16) (v25 : FVec Ideal S1x256 .f32) (v27 v29 v31 : FVec Ideal S256x128 .bf16)
    (v32 : FVec Ideal S2x256 .bf16) (v60 : Vec Ideal S128x128 .f32) (v63 : Vec Ideal S256x128 .f32) (v65 : Vec Ideal S256x256 .f32) :
    k0_pay14 (F := Ideal) v4 v5 v9 v13 v17 v21 v23 v25 v27 v29 v31 v32 v60 v63 v65
      = outArr (meanArr (hiddenArr v4 v9 v13 v17 v21 v23 v25 v27 v29 v31 v32) v5) v60 v63 v65 := rfl

/-! ## Each stage on a row -/

/-- An event's hidden row is `eventRow` of its rows in the operands. -/
theorem hidden_row (v4 : FVec Ideal S2048x2 .bf16) (v9 v13 v17 : FVec Ideal S2048x128 .bf16) (v21 : FVec Ideal S1x256 .f32)
    (v23 : FVec Ideal S256x256 .bf16) (v25 : FVec Ideal S1x256 .f32) (v27 v29 v31 : FVec Ideal S256x128 .bf16)
    (v32 : FVec Ideal S2x256 .bf16) (r : Fin 2048) :
    rowOf (hiddenArr v4 v9 v13 v17 v21 v23 v25 v27 v29 v31 v32) r
      = eventRow zf v32 (rowOf v21 0) (transpose S256x256 [1, 0] v23 transposes_S256x256_p1_0_S256x256) (rowOf v25 0)
          (transpose S128x256 [1, 0] v27 transposes_S256x128_p1_0_S128x256) (transpose S128x256 [1, 0] v29 transposes_S256x128_p1_0_S128x256)
          (transpose S128x256 [1, 0] v31 transposes_S256x128_p1_0_S128x256) (rowOf v4 r) (rowOf v9 r) (rowOf v13 r) (rowOf v17 r) := by
  unfold hiddenArr
  rw [rowOf_maximumf_splat, rowOf_addf, rowOf_addf, rowOf_addf, rowOf_dense_device rtc_hid, rowOf_truncf, rowOf_maximumf_splat,
    rowOf_dense_device rtc_feat, rowOf_matmul_zero rtc_emb, rowOf_matmul_zero rtc_emb, rowOf_matmul_zero rtc_emb]
  rfl

/-- Event `f` of node `p` is row `16 · p + f` of the block. -/
def brow (p : Fin 128) (f : Fin 16) : Fin 2048 := ⟨p.val * 16 + f.val, by have := p.isLt; have := f.isLt; omega⟩

/-- A node's masked mean, entry by entry. -/
theorem mean_at (h : FVec Ideal S2048x256 .f32) (v5 : FVec Ideal S2048x1 .f32) (p : Fin 128) (j : Fin 256) :
    meanArr h v5 (ix2 p j) = (∑ f : Fin 16, h (ix2 (brow p f) j) * v5 (ix2 (brow p f) (0 : Fin 1))) * c16 := by
  unfold meanArr
  show (multiReduction .add [1] S128x256
      (shapeCast S128x16x256 (mulf h (broadcastTo S2048x256 v5 broadcasts_S2048x1_S2048x256)) shapeCasts_S2048x256_S128x16x256)
      0x00000000#32 reduces_S128x16x256_S128x256 (.inl rfl) rfl) (ix2 p j) * c16 = _
  refine congrArg (· * c16) ?_
  refine (Ideal.multiReduction_add_single _ 0x00000000#32 reduces_S128x16x256_S128x256 (.inl rfl) rfl (ix2 p j)).trans ?_
  show (∑ f : Fin 16, shapeCast S128x16x256 (mulf h (broadcastTo S2048x256 v5 broadcasts_S2048x1_S2048x256)) shapeCasts_S2048x256_S128x16x256
      (reduces_S128x16x256_S128x256.lift (ix2 p j) f)) = _
  refine Finset.sum_congr rfl fun f _ => ?_
  have e : reduces_S128x16x256_S128x256.lift (ix2 p j) f = ix3 p f j := funext fun ax => Fin.ext (by
    match ax with
    | ⟨0, _⟩ => rfl
    | ⟨1, _⟩ => rfl
    | ⟨2, _⟩ => rfl)
  rw [e, Cert.Relayout.split_ab_apply _ shapeCasts_S2048x256_S128x16x256 p f j (brow p f) rfl]
  show h (ix2 (brow p f) j) * broadcastTo S2048x256 v5 broadcasts_S2048x1_S2048x256 (ix2 (brow p f) j) = _
  rw [Cert.ColumnBroadcast.broadcastTo_a1_ab_apply]

/-- A node's result row. -/
theorem out_row (v59 : FVec Ideal S128x256 .f32) (v60 : Vec Ideal S128x128 .f32) (v63 : Vec Ideal S256x128 .f32) (v65 : Vec Ideal S256x256 .f32)
    (p : Fin 128) :
    rowOf (outArr v59 v60 v63 v65) p = combineRow zf (tr v63) (tr v65) (rowOf v60 p) (rowOf v59 p) := by
  unfold outArr
  rw [rowOf_maximumf_splat, rowOf_addf, rowOf_matmul_zero rtc_self, rowOf_matmul_zero rtc_neigh, rowOf_truncf, rowOf_truncf,
    shapeCast_self, transpose_eq_tr, transpose_eq_tr]
  rfl

/-! ## The loaded blocks as rows -/

theorem pay2_row (x0 : Vec Ideal S128x16x3 .f32) (p : Fin 128) (f : Fin 16) :
    rowOf (k0_pay2 (F := Ideal) x0) (brow p f) = featRow x0 p f := by
  funext u
  show extractStridedSlice S2048x2 ![0, 0] (shapeCast S2048x3 (shapeCast S128x16x3 x0 shapeCasts_S128x16x3_S128x16x3) shapeCasts_S128x16x3_S2048x3)
      slices_S2048x3_o0_0_S2048x2 (ix2 (brow p f) u) = x0 (ix3 p f (Fin.castLE (by decide : 2 ≤ 3) u))
  rw [slice2_axis1_eq 0, shapeCast_self, Cert.Relayout.merge_ab_apply x0 shapeCasts_S128x16x3_S2048x3 p f _ (brow p f) rfl]
  exact congrArg (fun t => x0 (ix3 p f t)) (Fin.ext (Nat.zero_add u.val))

theorem pay3_at (x0 : Vec Ideal S128x16x3 .f32) (p : Fin 128) (f : Fin 16) :
    k0_pay3 (F := Ideal) x0 (ix2 (brow p f) (0 : Fin 1)) = x0 (ix3 p f 2) := by
  show extractStridedSlice S2048x1 ![0, 2] (shapeCast S2048x3 (shapeCast S128x16x3 x0 shapeCasts_S128x16x3_S128x16x3) shapeCasts_S128x16x3_S2048x3)
      slices_S2048x3_o0_2_S2048x1 (ix2 (brow p f) (0 : Fin 1)) = _
  rw [slice2_axis1_eq 2, shapeCast_self, Cert.Relayout.merge_ab_apply x0 shapeCasts_S128x16x3_S2048x3 p f _ (brow p f) rfl]
  rfl

theorem emb_row (x : Vec Ideal S128x16x128 .f32) (p : Fin 128) (f : Fin 16) :
    rowOf (truncf .bf16 (shapeCast S2048x128 (shapeCast S128x16x128 x shapeCasts_S128x16x128_S128x16x128) shapeCasts_S128x16x128_S2048x128) bitsLt_bf16_f32 : FVec Ideal S2048x128 .bf16) (brow p f)
      = fun k => x (ix3 p f k) := by
  funext k
  show shapeCast S2048x128 (shapeCast S128x16x128 x shapeCasts_S128x16x128_S128x16x128) shapeCasts_S128x16x128_S2048x128 (ix2 (brow p f) k) = x (ix3 p f k)
  rw [shapeCast_self]
  exact Cert.Relayout.merge_ab_apply x shapeCasts_S128x16x128_S2048x128 p f k (brow p f) rfl

theorem pay4_row (x : Vec Ideal S128x16x128 .f32) (p : Fin 128) (f : Fin 16) :
    rowOf (k0_pay4 (F := Ideal) x) (brow p f) = fun k => x (ix3 p f k) := emb_row x p f
theorem pay5_row (x : Vec Ideal S128x16x128 .f32) (p : Fin 128) (f : Fin 16) :
    rowOf (k0_pay5 (F := Ideal) x) (brow p f) = fun k => x (ix3 p f k) := emb_row x p f
theorem pay6_row (x : Vec Ideal S128x16x128 .f32) (p : Fin 128) (f : Fin 16) :
    rowOf (k0_pay6 (F := Ideal) x) (brow p f) = fun k => x (ix3 p f k) := emb_row x p f

/-! ## The weight blocks as the body uses them -/

/-- The first weight block, transposed by the body. -/
theorem pay13_eq (x5 : Vec Ideal S256x2 .f32) : k0_pay13 (F := Ideal) x5 = tr x5 :=
  transpose_eq_tr (J := 256) (K := 2) x5 transposes_S256x2_p1_0_S2x256

/-- A bias row loaded as a `[1, 256]` block is used as it is. -/
theorem pay7_row (x6 : Vec Ideal S1x256 .f32) : rowOf (k0_pay7 (F := Ideal) x6) 0 = rowOf x6 0 := by
  show rowOf (shapeCast S1x256 x6 shapeCasts_S1x256_S1x256) 0 = _
  rw [shapeCast_self]
theorem pay9_row (x8 : Vec Ideal S1x256 .f32) : rowOf (k0_pay9 (F := Ideal) x8) 0 = rowOf x8 0 := by
  show rowOf (shapeCast S1x256 x8 shapeCasts_S1x256_S1x256) 0 = _
  rw [shapeCast_self]

theorem pay8_tr (x7 : Vec Ideal S256x256 .f32) :
    transpose S256x256 [1, 0] (k0_pay8 (F := Ideal) x7) transposes_S256x256_p1_0_S256x256 = tr x7 :=
  transpose_eq_tr (J := 256) (K := 256) x7 transposes_S256x256_p1_0_S256x256
theorem pay10_tr (x : Vec Ideal S256x128 .f32) :
    transpose S128x256 [1, 0] (k0_pay10 (F := Ideal) x) transposes_S256x128_p1_0_S128x256 = tr x :=
  transpose_eq_tr (J := 256) (K := 128) x transposes_S256x128_p1_0_S128x256
theorem pay11_tr (x : Vec Ideal S256x128 .f32) :
    transpose S128x256 [1, 0] (k0_pay11 (F := Ideal) x) transposes_S256x128_p1_0_S128x256 = tr x :=
  transpose_eq_tr (J := 256) (K := 128) x transposes_S256x128_p1_0_S128x256
theorem pay12_tr (x : Vec Ideal S256x128 .f32) :
    transpose S128x256 [1, 0] (k0_pay12 (F := Ideal) x) transposes_S256x128_p1_0_S128x256 = tr x :=
  transpose_eq_tr (J := 256) (K := 128) x transposes_S256x128_p1_0_S128x256

/-! ## The stored block is the layer of the loaded blocks -/

/-- A node's masked mean row in the block, from the loaded blocks. -/
theorem mean_row (x0 : Vec Ideal S128x16x3 .f32) (x1 x2 x3 : Vec Ideal S128x16x128 .f32)
    (x5 : Vec Ideal S256x2 .f32) (x6 : Vec Ideal S1x256 .f32) (x7 : Vec Ideal S256x256 .f32) (x8 : Vec Ideal S1x256 .f32)
    (x9 x10 x11 : Vec Ideal S256x128 .f32) (p : Fin 128) :
    rowOf (meanArr (hiddenArr (k0_pay2 x0) (k0_pay4 x1) (k0_pay5 x2) (k0_pay6 x3) (k0_pay7 x6) (k0_pay8 x7) (k0_pay9 x8)
        (k0_pay10 x9) (k0_pay11 x10) (k0_pay12 x11) (k0_pay13 x5)) (k0_pay3 x0)) p
      = fun j => (∑ f : Fin 16, maskedEventRow zf (tr x5) (rowOf x6 0) (tr x7) (rowOf x8 0) (tr x9) (tr x10) (tr x11) x0 x1 x2 x3 p f j) * c16 := by
  funext j
  show meanArr _ _ (ix2 p j) = _
  rw [mean_at]
  refine congrArg (· * c16) (Finset.sum_congr rfl fun f _ => ?_)
  rw [pay3_at]
  refine congrArg (· * x0 (ix3 p f 2)) ?_
  show rowOf (hiddenArr _ _ _ _ _ _ _ _ _ _ _) (brow p f) j = _
  rw [hidden_row, pay2_row, pay4_row, pay5_row, pay6_row, pay13_eq, pay7_row, pay9_row, pay8_tr, pay10_tr, pay11_tr, pay12_tr]

theorem block_eq (x0 : Vec Ideal S128x16x3 .f32) (x1 x2 x3 : Vec Ideal S128x16x128 .f32) (x4 : Vec Ideal S128x128 .f32)
    (x5 : Vec Ideal S256x2 .f32) (x6 : Vec Ideal S1x256 .f32) (x7 : Vec Ideal S256x256 .f32) (x8 : Vec Ideal S1x256 .f32)
    (x9 x10 x11 x12 : Vec Ideal S256x128 .f32) (x13 : Vec Ideal S256x256 .f32) (p : Fin 128) (q : Fin 256) :
    k0_pay14 (F := Ideal) (k0_pay2 x0) (k0_pay3 x0) (k0_pay4 x1) (k0_pay5 x2) (k0_pay6 x3) (k0_pay7 x6) (k0_pay8 x7) (k0_pay9 x8)
        (k0_pay10 x9) (k0_pay11 x10) (k0_pay12 x11) (k0_pay13 x5) x4 x12 x13 (ix2 p q)
      = layer (a := 128) zf c16 (tr x5) (rowOf x6 0) (tr x7) (rowOf x8 0) (tr x9) (tr x10) (tr x11) (tr x12) (tr x13) x0 x1 x2 x3 x4 (ix2 p q) := by
  rw [layer_ix2, pay14_eq]
  show rowOf (outArr _ x4 x12 x13) p q = _
  rw [out_row, mean_row]
  rfl

end Cert.KernelIdeal.Block

end
-- ==== Proof.KernelCover.lean ====
/-
  Where the windows of the one grid sit, and the cover of the result.

  The grid is one axis of 128 points. The event arrays and the node array move with the point: at point `t` their
  block is the `t`-th block of 128 nodes. The weights and biases are single blocks, the same at every point. The
  result `[16384, 256]` is written back at every point in blocks `[128, 256]`, block `(t, 0)` at point `t`; so
  the row `r` of the result lies in the block of point `r / 128`, and every index of the result is covered.
-/
import proofs.«154417_j15590731284983_1_alg».proof.Proof.Gen.KernelIdeal.Launch
import proofs.«154417_j15590731284983_1_alg».proof.Proof.Gen.KernelIdeal.Points
import Idealize.ShloMosaic.Lib.Pipeline.Value

noncomputable section

namespace Cert.KernelIdeal.Val

open Cert.KernelIdeal Cert.KernelIdeal.Gen Idealize.ShloMosaic Idealize.ShloMosaic.TcCoe Idealize.SL.Sem

/-! ## The block indices, decided over the 128 points -/

/-- Window 0's block index at point `t` is `(t, 0, 0)`. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)

/-- Window 1's block index at point `t` is `(t, 0, 0)`. -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)

/-- Window 2's block index at point `t` is `(t, 0, 0)`. -/
theorem idx2 : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)

/-- Window 3's block index at point `t` is `(t, 0, 0)`. -/
theorem idx3 : ∀ t : Fin cfg0.N, win0_3.index t (0 : Fin 3) = t.val ∧ win0_3.index t (1 : Fin 3) = 0 ∧ win0_3.index t (2 : Fin 3) = 0 :=
  (by decide +kernel : ∀ t : Fin grid0.N, win0_3.index t (0 : Fin 3) = t.val ∧ win0_3.index t (1 : Fin 3) = 0 ∧ win0_3.index t (2 : Fin 3) = 0)

/-- Window 4's block index at point `t` is `(t, 0)`. -/
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- Window 5 is one block: its block index is `(0, 0)` at every point. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 6 is one block: its block index is `(0, 0)` at every point. -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 7 is one block: its block index is `(0, 0)` at every point. -/
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 8 is one block: its block index is `(0, 0)` at every point. -/
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 9 is one block: its block index is `(0, 0)` at every point. -/
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Window 10 is one block: its block index is `(0, 0)` at every point. -/
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- Window 11 is one block: its block index is `(0, 0)` at every point. -/
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- Window 12 is one block: its block index is `(0, 0)` at every point. -/
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)

/-- Window 13 is one block: its block index is `(0, 0)` at every point. -/
theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

/-- The result window's block index at point `t` is `(t, 0)`. -/
theorem idx14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)

/-! ## The cover of the result -/

/-- An index of the result is in point `t`'s block iff each coordinate is in the block's range on its axis. -/
theorem mem_blk14 (t : Fin cfg0.N) (i : S16384x256.Idx) :
    i ∈ ((cfg0.win 14).blk t).view.set ↔ ∀ a : Fin 2, win0_14.index t a * S128x256.size a ≤ (i a).val ∧ (i a).val < win0_14.index t a * S128x256.size a + S128x256.size a := by
  show i ∈ ((View.whole main_v120).slice (win0_14.rect t)).set ↔ _
  rw [View.set_slice_whole, Rect.mem_set_unit]
  exact Iff.rfl

/-- Every index of the result is in the block of the point `row / 128`, which writes its block back. -/
theorem cover14 : ∀ i : S16384x256.Idx, ∃ t : Fin cfg0.N, (cfg0.win 14).flush t = true ∧ i ∈ ((cfg0.win 14).blk t).view.set := by
  intro i
  have hi0 : (i 0).val < 16384 := (i 0).isLt
  have hi1 : (i 1).val < 256 := (i 1).isLt
  have ht : (i 0).val / 128 < cfg0.N := by
    show (i 0).val / 128 < grid0.N
    rw [N_0]; omega
  obtain ⟨e0, e1⟩ := idx14 ⟨(i 0).val / 128, ht⟩
  have e0' : win0_14.index ⟨(i 0).val / 128, ht⟩ (0 : Fin 2) = (i 0).val / 128 := e0
  refine ⟨⟨(i 0).val / 128, ht⟩, flush0_14 _, ?_⟩
  rw [mem_blk14]
  intro a
  match a with
  | ⟨0, _⟩ =>
    show win0_14.index ⟨(i 0).val / 128, ht⟩ (0 : Fin 2) * 128 ≤ (i 0).val ∧ (i 0).val < win0_14.index ⟨(i 0).val / 128, ht⟩ (0 : Fin 2) * 128 + 128
    rw [e0']; omega
  | ⟨1, _⟩ =>
    show win0_14.index ⟨(i 0).val / 128, ht⟩ (1 : Fin 2) * 256 ≤ (i 1).val ∧ (i 1).val < win0_14.index ⟨(i 0).val / 128, ht⟩ (1 : Fin 2) * 256 + 256
    rw [e1]; omega

end Cert.KernelIdeal.Val

end
-- ==== Proof.KernelValue.lean ====
/-
  The result array of the kernel program as one function of the arrays the call finds.

  The call runs over 128 grid points; point `t` works on nodes `128 · t … 128 · t + 127`: its event and node
  windows hold those nodes' rows, its nine weight and bias windows hold their whole arrays, and it writes back rows
  `128 · t …` of the result. What the body stores is the layer of the loaded blocks (the block module), and the
  layer's value at a node reads only that node's rows, so the block written at `t` is block `t` of ONE array, the
  layer of the whole arrays (`G`). The 128 blocks tile the result array, so after the run it is `G`.
-/
import proofs.«154417_j15590731284983_1_alg».proof.Proof.FrameIdeal
import proofs.«154417_j15590731284983_1_alg».proof.Proof.KernelBlock
import proofs.«154417_j15590731284983_1_alg».proof.Proof.KernelCover
import Idealize.ShloMosaic.Lib.Pipeline.Value

noncomputable section

namespace Cert.KernelIdeal.Val

open Cert.KernelIdeal Cert.KernelIdeal.Gen Cert.KernelIdeal.Fr Cert.KernelIdeal.Block Cert.EventSage Cert.RowLayers
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the result block, entry by entry: the layer of the loaded blocks. -/
theorem out_layer (x0 : Vec Ideal S128x16x3 .f32) (x1 x2 x3 : Vec Ideal S128x16x128 .f32) (x4 : Vec Ideal S128x128 .f32)
    (x5 : Vec Ideal S256x2 .f32) (x6 : Vec Ideal S1x256 .f32) (x7 : Vec Ideal S256x256 .f32) (x8 : Vec Ideal S1x256 .f32)
    (x9 x10 x11 x12 : Vec Ideal S256x128 .f32) (x13 : Vec Ideal S256x256 .f32) (p : Fin 128) (q : Fin 256) :
    out0_14 (F := Ideal) x0 x1 x2 x3 x4 x5 x6 x7 x8 x9 x10 x11 x12 x13 (ix2 p q)
      = layer (a := 128) zf c16 (tr x5) (rowOf x6 0) (tr x7) (rowOf x8 0) (tr x9) (tr x10) (tr x11) (tr x12) (tr x13) x0 x1 x2 x3 x4 (ix2 p q) := by
  unfold out0_14
  rw [View.canon_unit_zero hz2]
  simp only [View.ld_unit_zero (S := S128x16x3) hz3, View.ld_unit_zero (S := S128x16x128) hz3, View.ld_unit_zero (S := S128x128) hz2,
    View.ld_unit_zero (S := S256x2) hz2, View.ld_unit_zero (S := S1x256) hz2, View.ld_unit_zero (S := S256x256) hz2,
    View.ld_unit_zero (S := S256x128) hz2]
  exact block_eq x0 x1 x2 x3 x4 x5 x6 x7 x8 x9 x10 x11 x12 x13 p q

/-- Node `p` of grid point `t` among all 16384 nodes. -/
def grow (t : Fin cfg0.N) (p : Fin 128) : Fin 16384 :=
  ⟨t.val * 128 + p.val, by have ht : t.val < grid0.N := t.isLt; rw [N_0] at ht; have := p.isLt; omega⟩

/-- Window 0's block at point `t` holds rows `128 · t … 128 · t + 127` of its array. -/
theorem iblk0_at (c : Dev nD) (t : Fin cfg0.N) (p : Fin 128) (f : Fin 16) (u : Fin 3) :
    iblk m c 0 t (ix3 p f u) = V m c main_v114 (ix3 (grow t p) f u) := by
  obtain ⟨e0, e1, e2⟩ := idx0 t
  have he : ((cfg0.win 0).blk t).view.emb (ix3 p f u) = ix3 (grow t p) f u := by
    funext a; apply Fin.ext
    match a with
    | ⟨0, _⟩ => show win0_0.index t (0 : Fin 3) * 128 + 1 * p.val = t.val * 128 + p.val; rw [e0]; omega
    | ⟨1, _⟩ => show win0_0.index t (1 : Fin 3) * 16 + 1 * f.val = f.val; rw [e1]; omega
    | ⟨2, _⟩ => show win0_0.index t (2 : Fin 3) * 3 + 1 * u.val = u.val; rw [e2]; omega
  show V m c main_v114 (((cfg0.win 0).blk t).view.emb (ix3 p f u)) = _
  rw [he]

/-- Window 1's block at point `t` holds rows `128 · t … 128 · t + 127` of its array. -/
theorem iblk1_at (c : Dev nD) (t : Fin cfg0.N) (p : Fin 128) (f : Fin 16) (u : Fin 128) :
    iblk m c 1 t (ix3 p f u) = V m c main_v115 (ix3 (grow t p) f u) := by
  obtain ⟨e0, e1, e2⟩ := idx1 t
  have he : ((cfg0.win 1).blk t).view.emb (ix3 p f u) = ix3 (grow t p) f u := by
    funext a; apply Fin.ext
    match a with
    | ⟨0, _⟩ => show win0_1.index t (0 : Fin 3) * 128 + 1 * p.val = t.val * 128 + p.val; rw [e0]; omega
    | ⟨1, _⟩ => show win0_1.index t (1 : Fin 3) * 16 + 1 * f.val = f.val; rw [e1]; omega
    | ⟨2, _⟩ => show win0_1.index t (2 : Fin 3) * 128 + 1 * u.val = u.val; rw [e2]; omega
  show V m c main_v115 (((cfg0.win 1).blk t).view.emb (ix3 p f u)) = _
  rw [he]

/-- Window 2's block at point `t` holds rows `128 · t … 128 · t + 127` of its array. -/
theorem iblk2_at (c : Dev nD) (t : Fin cfg0.N) (p : Fin 128) (f : Fin 16) (u : Fin 128) :
    iblk m c 2 t (ix3 p f u) = V m c main_v116 (ix3 (grow t p) f u) := by
  obtain ⟨e0, e1, e2⟩ := idx2 t
  have he : ((cfg0.win 2).blk t).view.emb (ix3 p f u) = ix3 (grow t p) f u := by
    funext a; apply Fin.ext
    match a with
    | ⟨0, _⟩ => show win0_2.index t (0 : Fin 3) * 128 + 1 * p.val = t.val * 128 + p.val; rw [e0]; omega
    | ⟨1, _⟩ => show win0_2.index t (1 : Fin 3) * 16 + 1 * f.val = f.val; rw [e1]; omega
    | ⟨2, _⟩ => show win0_2.index t (2 : Fin 3) * 128 + 1 * u.val = u.val; rw [e2]; omega
  show V m c main_v116 (((cfg0.win 2).blk t).view.emb (ix3 p f u)) = _
  rw [he]

/-- Window 3's block at point `t` holds rows `128 · t … 128 · t + 127` of its array. -/
theorem iblk3_at (c : Dev nD) (t : Fin cfg0.N) (p : Fin 128) (f : Fin 16) (u : Fin 128) :
    iblk m c 3 t (ix3 p f u) = V m c main_v117 (ix3 (grow t p) f u) := by
  obtain ⟨e0, e1, e2⟩ := idx3 t
  have he : ((cfg0.win 3).blk t).view.emb (ix3 p f u) = ix3 (grow t p) f u := by
    funext a; apply Fin.ext
    match a with
    | ⟨0, _⟩ => show win0_3.index t (0 : Fin 3) * 128 + 1 * p.val = t.val * 128 + p.val; rw [e0]; omega
    | ⟨1, _⟩ => show win0_3.index t (1 : Fin 3) * 16 + 1 * f.val = f.val; rw [e1]; omega
    | ⟨2, _⟩ => show win0_3.index t (2 : Fin 3) * 128 + 1 * u.val = u.val; rw [e2]; omega
  show V m c main_v117 (((cfg0.win 3).blk t).view.emb (ix3 p f u)) = _
  rw [he]

/-- Window 4's block at point `t` holds rows `128 · t …` of the nodes' own embedding rows. -/
theorem iblk4_at (c : Dev nD) (t : Fin cfg0.N) (p : Fin 128) (k : Fin 128) :
    iblk m c 4 t (ix2 p k) = V m c main_v113 (ix2 (grow t p) k) := by
  obtain ⟨e0, e1⟩ := idx4 t
  have he : ((cfg0.win 4).blk t).view.emb (ix2 p k) = ix2 (grow t p) k := by
    funext a; apply Fin.ext
    match a with
    | ⟨0, _⟩ => show win0_4.index t (0 : Fin 2) * 128 + 1 * p.val = t.val * 128 + p.val; rw [e0]; omega
    | ⟨1, _⟩ => show win0_4.index t (1 : Fin 2) * 128 + 1 * k.val = k.val; rw [e1]; omega
  show V m c main_v113 (((cfg0.win 4).blk t).view.emb (ix2 p k)) = _
  rw [he]

/-- Window 5's block is its whole array at every point. -/
theorem iblk5_eq (c : Dev nD) (t : Fin cfg0.N) : iblk m c 5 t = V m c main_arg13 := by
  obtain ⟨e0, e1⟩ := idx5 t
  funext y
  have he : ((cfg0.win 5).blk t).view.emb y = y := by
    funext a; apply Fin.ext
    match a with
    | ⟨0, _⟩ => show win0_5.index t (0 : Fin 2) * 256 + 1 * (y 0).val = (y 0).val; rw [e0]; omega
    | ⟨1, _⟩ => show win0_5.index t (1 : Fin 2) * 2 + 1 * (y 1).val = (y 1).val; rw [e1]; omega
  show V m c main_arg13 (((cfg0.win 5).blk t).view.emb y) = _
  rw [he]

/-- Window 6's block is its whole array at every point. -/
theorem iblk6_eq (c : Dev nD) (t : Fin cfg0.N) : iblk m c 6 t = V m c main_v118 := by
  obtain ⟨e0, e1⟩ := idx6 t
  funext y
  have he : ((cfg0.win 6).blk t).view.emb y = y := by
    funext a; apply Fin.ext
    match a with
    | ⟨0, _⟩ => show win0_6.index t (0 : Fin 2) * 1 + 1 * (y 0).val = (y 0).val; rw [e0]; omega
    | ⟨1, _⟩ => show win0_6.index t (1 : Fin 2) * 256 + 1 * (y 1).val = (y 1).val; rw [e1]; omega
  show V m c main_v118 (((cfg0.win 6).blk t).view.emb y) = _
  rw [he]

/-- Window 7's block is its whole array at every point. -/
theorem iblk7_eq (c : Dev nD) (t : Fin cfg0.N) : iblk m c 7 t = V m c main_arg15 := by
  obtain ⟨e0, e1⟩ := idx7 t
  funext y
  have he : ((cfg0.win 7).blk t).view.emb y = y := by
    funext a; apply Fin.ext
    match a with
    | ⟨0, _⟩ => show win0_7.index t (0 : Fin 2) * 256 + 1 * (y 0).val = (y 0).val; rw [e0]; omega
    | ⟨1, _⟩ => show win0_7.index t (1 : Fin 2) * 256 + 1 * (y 1).val = (y 1).val; rw [e1]; omega
  show V m c main_arg15 (((cfg0.win 7).blk t).view.emb y) = _
  rw [he]

/-- Window 8's block is its whole array at every point. -/
theorem iblk8_eq (c : Dev nD) (t : Fin cfg0.N) : iblk m c 8 t = V m c main_v119 := by
  obtain ⟨e0, e1⟩ := idx8 t
  funext y
  have he : ((cfg0.win 8).blk t).view.emb y = y := by
    funext a; apply Fin.ext
    match a with
    | ⟨0, _⟩ => show win0_8.index t (0 : Fin 2) * 1 + 1 * (y 0).val = (y 0).val; rw [e0]; omega
    | ⟨1, _⟩ => show win0_8.index t (1 : Fin 2) * 256 + 1 * (y 1).val = (y 1).val; rw [e1]; omega
  show V m c main_v119 (((cfg0.win 8).blk t).view.emb y) = _
  rw [he]

/-- Window 9's block is its whole array at every point. -/
theorem iblk9_eq (c : Dev nD) (t : Fin cfg0.N) : iblk m c 9 t = V m c main_arg17 := by
  obtain ⟨e0, e1⟩ := idx9 t
  funext y
  have he : ((cfg0.win 9).blk t).view.emb y = y := by
    funext a; apply Fin.ext
    match a with
    | ⟨0, _⟩ => show win0_9.index t (0 : Fin 2) * 256 + 1 * (y 0).val = (y 0).val; rw [e0]; omega
    | ⟨1, _⟩ => show win0_9.index t (1 : Fin 2) * 128 + 1 * (y 1).val = (y 1).val; rw [e1]; omega
  show V m c main_arg17 (((cfg0.win 9).blk t).view.emb y) = _
  rw [he]

/-- Window 10's block is its whole array at every point. -/
theorem iblk10_eq (c : Dev nD) (t : Fin cfg0.N) : iblk m c 10 t = V m c main_arg18 := by
  obtain ⟨e0, e1⟩ := idx10 t
  funext y
  have he : ((cfg0.win 10).blk t).view.emb y = y := by
    funext a; apply Fin.ext
    match a with
    | ⟨0, _⟩ => show win0_10.index t (0 : Fin 2) * 256 + 1 * (y 0).val = (y 0).val; rw [e0]; omega
    | ⟨1, _⟩ => show win0_10.index t (1 : Fin 2) * 128 + 1 * (y 1).val = (y 1).val; rw [e1]; omega
  show V m c main_arg18 (((cfg0.win 10).blk t).view.emb y) = _
  rw [he]

/-- Window 11's block is its whole array at every point. -/
theorem iblk11_eq (c : Dev nD) (t : Fin cfg0.N) : iblk m c 11 t = V m c main_arg12 := by
  obtain ⟨e0, e1⟩ := idx11 t
  funext y
  have he : ((cfg0.win 11).blk t).view.emb y = y := by
    funext a; apply Fin.ext
    match a with
    | ⟨0, _⟩ => show win0_11.index t (0 : Fin 2) * 256 + 1 * (y 0).val = (y 0).val; rw [e0]; omega
    | ⟨1, _⟩ => show win0_11.index t (1 : Fin 2) * 128 + 1 * (y 1).val = (y 1).val; rw [e1]; omega
  show V m c main_arg12 (((cfg0.win 11).blk t).view.emb y) = _
  rw [he]

/-- Window 12's block is its whole array at every point. -/
theorem iblk12_eq (c : Dev nD) (t : Fin cfg0.N) : iblk m c 12 t = V m c main_arg19 := by
  obtain ⟨e0, e1⟩ := idx12 t
  funext y
  have he : ((cfg0.win 12).blk t).view.emb y = y := by
    funext a; apply Fin.ext
    match a with
    | ⟨0, _⟩ => show win0_12.index t (0 : Fin 2) * 256 + 1 * (y 0).val = (y 0).val; rw [e0]; omega
    | ⟨1, _⟩ => show win0_12.index t (1 : Fin 2) * 128 + 1 * (y 1).val = (y 1).val; rw [e1]; omega
  show V m c main_arg19 (((cfg0.win 12).blk t).view.emb y) = _
  rw [he]

/-- Window 13's block is its whole array at every point. -/
theorem iblk13_eq (c : Dev nD) (t : Fin cfg0.N) : iblk m c 13 t = V m c main_arg20 := by
  obtain ⟨e0, e1⟩ := idx13 t
  funext y
  have he : ((cfg0.win 13).blk t).view.emb y = y := by
    funext a; apply Fin.ext
    match a with
    | ⟨0, _⟩ => show win0_13.index t (0 : Fin 2) * 256 + 1 * (y 0).val = (y 0).val; rw [e0]; omega
    | ⟨1, _⟩ => show win0_13.index t (1 : Fin 2) * 256 + 1 * (y 1).val = (y 1).val; rw [e1]; omega
  show V m c main_arg20 (((cfg0.win 13).blk t).view.emb y) = _
  rw [he]

/-- The result array: the layer of the arrays the call finds. -/
def G (c : Dev nD) : S16384x256.Idx → EReal :=
  layer (a := 16384) zf c16 (tr (V m c main_arg13)) (rowOf (V m c main_v118) 0) (tr (V m c main_arg15)) (rowOf (V m c main_v119) 0)
    (tr (V m c main_arg17)) (tr (V m c main_arg18)) (tr (V m c main_arg12)) (tr (V m c main_arg19)) (tr (V m c main_arg20))
    (V m c main_v114) (V m c main_v115) (V m c main_v116) (V m c main_v117) (V m c main_v113)

/-- What point `t` writes back is block `t` of `G`. -/
theorem flushed_eq (c : Dev nD) (t : Fin cfg0.N) :
    (dats m 0 c).flushed 14 t = ((cfg0.win 14).blk t).view.read (Elt Ideal) (G m c) := by
  show (cfg0.win 14).cut (grid0.coords t) ((dats m 0 c).after 14 t) = _
  rw [after0_14]
  funext j
  obtain ⟨p, q, rfl⟩ : ∃ (p : Fin 128) (q : Fin 256), j = ix2 p q := ⟨j 0, j 1, eq_ix2 j⟩
  obtain ⟨e0, e1⟩ := idx14 t
  have he : ((cfg0.win 14).blk t).view.emb (ix2 p q) = ix2 (grow t p) q := by
    funext a; apply Fin.ext
    match a with
    | ⟨0, _⟩ => show win0_14.index t (0 : Fin 2) * 128 + 1 * p.val = t.val * 128 + p.val; rw [e0]; omega
    | ⟨1, _⟩ => show win0_14.index t (1 : Fin 2) * 256 + 1 * q.val = q.val; rw [e1]; omega
  show out0_14 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (ix2 p q)
    = G m c (((cfg0.win 14).blk t).view.emb (ix2 p q))
  rw [he]
  refine (out_layer (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) p q).trans ?_
  rw [iblk5_eq, iblk6_eq, iblk7_eq, iblk8_eq, iblk9_eq, iblk10_eq, iblk11_eq, iblk12_eq, iblk13_eq]
  unfold G
  exact layer_congr_row zf c16 _ _ _ _ _ _ _ _ _ (iblk m c 0 t) (iblk m c 1 t) (iblk m c 2 t) (iblk m c 3 t) (iblk m c 4 t)
    (V m c main_v114) (V m c main_v115) (V m c main_v116) (V m c main_v117) (V m c main_v113) p (grow t p) q
    (fun f u => iblk0_at m c t p f u) (fun f k => iblk1_at m c t p f k) (fun f k => iblk2_at m c t p f k)
    (fun f k => iblk3_at m c t p f k) (fun k => iblk4_at m c t p k)

/-- The 128 blocks tile the result array, so after the run it is `G`. -/
theorem final (c : Dev nD) : (dats m 0 c).arrAt 14 cfg0.N = G m c :=
  (dats m 0 c).arrAt_eq_of_cover 14 (G m c) (fun t _ => flushed_eq m c t) cover14

/-- The kernel program's run: it terminates, its result array ends at `G`, its arguments as launched. -/
theorem run : θ_run defs (onTc (τ := τ) (main (F := Ideal))) ⟨m, fun _ => 0, ρ⟩ fun r => ∀ c : Dev nD,
      r.2.mem ((c.tc : Thread nD τ).loc main_v120) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun r h c => ⟨((h c).1 14).trans (final m c), kept_args m (dats m) (A_eq m) r h c⟩) (run_main m ρ)

end Cert.KernelIdeal.Val

end
-- ==== Proof.LibHostFold.lean ====
/-
  The fold of a line of host operations over a concatenated line, and typed references' transports.

  `StableHlo.after ops V` is what a core's buffers hold once the operations `ops` have run in order from contents `V`.
  Running two lines one after the other is running the second from what the first leaves: the fold over `l₁ ++ l₂` is
  the fold over `l₂` of the fold over `l₁`. This lets a long straight-line program be read one stretch at a time, each
  stretch from a valuation that is only a variable, so that no stretch's term is ever nested inside another's.
  An operation of an inlined call reads and writes its buffers through a typed reference, transporting contents along
  the equation "the buffer's type is the value's"; writing a value and reading it back through the same typed reference
  is the identity, whatever the equation's proof.
-/
import Idealize.ShloMosaic.Lib.StableHlo.Run

namespace Cert.HostFold

open Idealize.ShloMosaic Idealize.ShloMosaic.StableHlo

variable {τ : Topo} {sig : RefSig} {Val : EltTy → Type}

/-- The fold over a concatenation is the folds composed. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's buffer and back are the contents. -/
theorem ofBuf_toBuf {T : BufTy} (x : TRef sig T) (v : T.Contents Val) : x.ofBuf (x.toBuf v) = v := by
  obtain ⟨r, h, h2, h3⟩ := x
  subst h
  rfl

end Cert.HostFold
-- ==== Proof.HostPrefixA.lean ====
/-
  The host operations that run before the call, cut into their seven stretches.

  What a core's buffers hold when the call is entered is the fold of 156 operations over the launch contents. The fold
  over a concatenation is the folds composed, so the entry contents are reached in seven steps, each the fold of one
  stretch from whatever the stretches before it left. Every operation writes exactly one buffer. The buffers a stretch
  writes are listed below, and a buffer outside a stretch's list comes out of that stretch as it went in: a value
  computed in one stretch is carried unchanged to the stretch that reads it, and the program's arguments, which no
  operation writes, are the launch contents throughout.
-/
import proofs.«154417_j15590731284983_1_alg».proof.Proof.EntryIdeal
import proofs.«154417_j15590731284983_1_alg».proof.Proof.LibHostFold

noncomputable section

namespace Cert.KernelIdeal.Fr

open Cert.KernelIdeal Cert.KernelIdeal.Gen Idealize.ShloMosaic Idealize.ShloMosaic.TcCoe Idealize.SL.Sem Idealize.ShloMosaic.StableHlo

variable {F : FTy → Type} [FloatOps F]

/-! ## What each stretch writes -/

/-- The buffers the operations of `hostOps0` write. -/
abbrev hostOps0_W : List (Ref sig .tc) :=
  [main_v0, main_c, main_v1, main_v2, main_c_0]
theorem hostOps0_writes : (hostOps0 : List (HloOp τ sig (Elt F))).Forall fun op => op.writes ⊆ (hostOps0_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- The buffers the operations of `hostOps0_1` write. -/
abbrev hostOps0_1_W : List (Ref sig .tc) :=
  [main_call0_v0, main_call0_v1, main_v3]
theorem hostOps0_1_writes : (hostOps0_1 : List (HloOp τ sig (Elt F))).Forall fun op => op.writes ⊆ (hostOps0_1_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

set_option maxRecDepth 4000 in
/-- The buffers the operations of `hostOps0_2` write. -/
abbrev hostOps0_2_W : List (Ref sig .tc) :=
  [main_c_1, main_v4, main_v5, main_c_2, main_v6, main_v7, main_v8, main_v9, main_v10, main_c_3, main_v11, main_v12, main_c_4, main_v13, main_v14, main_v15, main_v16, main_v17, main_c_5, main_v18, main_v19, main_c_6, main_v20, main_v21, main_v22, main_v23, main_v24, main_c_7, main_v25, main_v26, main_c_8, main_v27, main_v28, main_v29, main_v30, main_v31, main_c_9, main_v32, main_v33, main_c_10, main_v34, main_v35, main_v36, main_v37, main_v38, main_c_11, main_v39, main_v40, main_c_12, main_v41, main_v42, main_v43, main_v44, main_v45, main_v46, main_c_13, main_v47, main_v48, main_c_14, main_v49, main_v50, main_v51, main_v52, main_v53, main_c_15, main_v54, main_v55, main_v56, main_c_16, main_v57, main_v58, main_c_17, main_v59, main_v60, main_v61, main_v62, main_v63, main_c_18, main_v64, main_v65, main_c_19, main_v66, main_v67, main_v68, main_v69, main_v70]
theorem hostOps0_2_writes : (hostOps0_2 : List (HloOp τ sig (Elt F))).Forall fun op => op.writes ⊆ (hostOps0_2_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- The buffers the operations of `hostOps0_3` write. -/
abbrev hostOps0_3_W : List (Ref sig .tc) :=
  [main_call1_v0, main_v71]
theorem hostOps0_3_writes : (hostOps0_3 : List (HloOp τ sig (Elt F))).Forall fun op => op.writes ⊆ (hostOps0_3_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- The buffers the operations of `hostOps0_4` write. -/
abbrev hostOps0_4_W : List (Ref sig .tc) :=
  [main_c_20, main_v72, main_v73, main_v74, main_c_21, main_v75, main_v76, main_c_22, main_v77, main_v78, main_v79, main_v80, main_v81, main_c_23, main_v82, main_v83, main_c_24, main_v84, main_v85, main_v86, main_v87, main_v88]
theorem hostOps0_4_writes : (hostOps0_4 : List (HloOp τ sig (Elt F))).Forall fun op => op.writes ⊆ (hostOps0_4_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- The buffers the operations of `hostOps0_5` write. -/
abbrev hostOps0_5_W : List (Ref sig .tc) :=
  [main_call2_v0, main_v89]
theorem hostOps0_5_writes : (hostOps0_5 : List (HloOp τ sig (Elt F))).Forall fun op => op.writes ⊆ (hostOps0_5_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- The buffers the operations of `hostOps0_6` write. -/
abbrev hostOps0_6_W : List (Ref sig .tc) :=
  [main_c_25, main_v90, main_v91, main_c_26, main_v92, main_v93, main_v94, main_v95, main_v96, main_cst, main_v97, main_v98, main_cst_27, main_v99, main_v100, main_v101, main_v102, main_v103, main_v104, main_v105, main_v106, main_c_28, main_v107, main_v108, main_c_29, main_v109, main_v110, main_v111, main_v112, main_v113, main_v114, main_v115, main_v116, main_v117, main_v118, main_v119]
theorem hostOps0_6_writes : (hostOps0_6 : List (HloOp τ sig (Elt F))).Forall fun op => op.writes ⊆ (hostOps0_6_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-! ## A buffer a stretch does not write keeps its contents -/

theorem keep0 (W : Valuation τ sig (Elt F)) {r : Ref sig .tc} (h : r ∉ (hostOps0_W : List (Ref sig .tc))) :
    after (hostOps0 (F := F)) W (Proc.devRef .tc r) = W (Proc.devRef .tc r) :=
  after_of_writes_sub hostOps0 W hostOps0_writes h
theorem keep1 (W : Valuation τ sig (Elt F)) {r : Ref sig .tc} (h : r ∉ (hostOps0_1_W : List (Ref sig .tc))) :
    after (hostOps0_1 (F := F)) W (Proc.devRef .tc r) = W (Proc.devRef .tc r) :=
  after_of_writes_sub hostOps0_1 W hostOps0_1_writes h
theorem keep2 (W : Valuation τ sig (Elt F)) {r : Ref sig .tc} (h : r ∉ (hostOps0_2_W : List (Ref sig .tc))) :
    after (hostOps0_2 (F := F)) W (Proc.devRef .tc r) = W (Proc.devRef .tc r) :=
  after_of_writes_sub hostOps0_2 W hostOps0_2_writes h
theorem keep3 (W : Valuation τ sig (Elt F)) {r : Ref sig .tc} (h : r ∉ (hostOps0_3_W : List (Ref sig .tc))) :
    after (hostOps0_3 (F := F)) W (Proc.devRef .tc r) = W (Proc.devRef .tc r) :=
  after_of_writes_sub hostOps0_3 W hostOps0_3_writes h
theorem keep4 (W : Valuation τ sig (Elt F)) {r : Ref sig .tc} (h : r ∉ (hostOps0_4_W : List (Ref sig .tc))) :
    after (hostOps0_4 (F := F)) W (Proc.devRef .tc r) = W (Proc.devRef .tc r) :=
  after_of_writes_sub hostOps0_4 W hostOps0_4_writes h
theorem keep5 (W : Valuation τ sig (Elt F)) {r : Ref sig .tc} (h : r ∉ (hostOps0_5_W : List (Ref sig .tc))) :
    after (hostOps0_5 (F := F)) W (Proc.devRef .tc r) = W (Proc.devRef .tc r) :=
  after_of_writes_sub hostOps0_5 W hostOps0_5_writes h
theorem keep6 (W : Valuation τ sig (Elt F)) {r : Ref sig .tc} (h : r ∉ (hostOps0_6_W : List (Ref sig .tc))) :
    after (hostOps0_6 (F := F)) W (Proc.devRef .tc r) = W (Proc.devRef .tc r) :=
  after_of_writes_sub hostOps0_6 W hostOps0_6_writes h

/-! ## The contents after the first stretches -/

/-- After the first two stretches (the event slots, their validity bits and the slots with the invalid ones set to zero). -/
abbrev E1 (W : Valuation τ sig (Elt F)) : Valuation τ sig (Elt F) := after hostOps0_1 (after hostOps0 W)
/-- After the third stretch (the gathers of the event fields and of the source rows). -/
abbrev E2 (W : Valuation τ sig (Elt F)) : Valuation τ sig (Elt F) := after hostOps0_2 (E1 W)
/-- After the fourth stretch (the source rows selected by type). -/
abbrev E3 (W : Valuation τ sig (Elt F)) : Valuation τ sig (Elt F) := after hostOps0_3 (E2 W)
/-- After the fifth stretch (the gathers of the destination rows). -/
abbrev E4 (W : Valuation τ sig (Elt F)) : Valuation τ sig (Elt F) := after hostOps0_4 (E3 W)
/-- After the sixth stretch (the destination rows selected by type). -/
abbrev E5 (W : Valuation τ sig (Elt F)) : Valuation τ sig (Elt F) := after hostOps0_5 (E4 W)

/-- A buffer none of the first two stretches writes. -/
theorem keepE1 (W : Valuation τ sig (Elt F)) (r : Ref sig .tc)
    (h0 : r ∉ (hostOps0_W : List (Ref sig .tc)) := by decide) (h1 : r ∉ (hostOps0_1_W : List (Ref sig .tc)) := by decide) :
    E1 W (Proc.devRef .tc r) = W (Proc.devRef .tc r) := (keep1 _ h1).trans (keep0 W h0)
/-- A buffer none of the first three stretches writes. -/
theorem keepE2 (W : Valuation τ sig (Elt F)) (r : Ref sig .tc)
    (h0 : r ∉ (hostOps0_W : List (Ref sig .tc)) := by decide) (h1 : r ∉ (hostOps0_1_W : List (Ref sig .tc)) := by decide)
    (h2 : r ∉ (hostOps0_2_W : List (Ref sig .tc)) := by decide) :
    E2 W (Proc.devRef .tc r) = W (Proc.devRef .tc r) := (keep2 _ h2).trans (keepE1 W r h0 h1)
/-- A buffer none of the first four stretches writes. -/
theorem keepE3 (W : Valuation τ sig (Elt F)) (r : Ref sig .tc)
    (h0 : r ∉ (hostOps0_W : List (Ref sig .tc)) := by decide) (h1 : r ∉ (hostOps0_1_W : List (Ref sig .tc)) := by decide)
    (h2 : r ∉ (hostOps0_2_W : List (Ref sig .tc)) := by decide) (h3 : r ∉ (hostOps0_3_W : List (Ref sig .tc)) := by decide) :
    E3 W (Proc.devRef .tc r) = W (Proc.devRef .tc r) := (keep3 _ h3).trans (keepE2 W r h0 h1 h2)
/-- A buffer none of the first six stretches writes. -/
theorem keepE5 (W : Valuation τ sig (Elt F)) (r : Ref sig .tc)
    (h0 : r ∉ (hostOps0_W : List (Ref sig .tc)) := by decide) (h1 : r ∉ (hostOps0_1_W : List (Ref sig .tc)) := by decide)
    (h2 : r ∉ (hostOps0_2_W : List (Ref sig .tc)) := by decide) (h3 : r ∉ (hostOps0_3_W : List (Ref sig .tc)) := by decide)
    (h4 : r ∉ (hostOps0_4_W : List (Ref sig .tc)) := by decide) (h5 : r ∉ (hostOps0_5_W : List (Ref sig .tc)) := by decide) :
    E5 W (Proc.devRef .tc r) = W (Proc.devRef .tc r) := (keep5 _ h5).trans ((keep4 _ h4).trans (keepE3 W r h0 h1 h2 h3))

/-! ## The entry contents, stretch by stretch -/

/-- The entry contents are the seventh stretch's fold over what the first six leave of the launch contents. -/
theorem V_cut (m : (ℓ : Loc nD τ sig) → Buf (Elt F) ℓ) (c : Dev nD) (b : Ref sig .tc) :
    V m c b = after hostOps0_6 (E5 (fun b => m (c, b))) (Proc.devRef .tc b) := by
  show after (List.flatten [hostOps0, hostOps0_1, hostOps0_2, hostOps0_3, hostOps0_4, hostOps0_5, hostOps0_6]) (fun b => m (c, b))
    (Proc.devRef .tc b) = _
  simp only [List.flatten_cons, List.flatten_nil, List.append_nil, Cert.HostFold.after_append]

end Cert.KernelIdeal.Fr

end
-- ==== Proof.LibNaryThree.lean ====
/-
  The result of a host operation with a LITERAL family of three operand buffers.

  The library states the result of an `nary` operation over any family `xs : Fin n → Ref` as the operation's function
  applied to `fun k => F ↑(xs k)`: under that binder the reference `xs k` is no literal buffer, so a pass that rewrites
  each buffer's contents by the operation that wrote it stops there. For a family written out as `![x, a, b]` the same
  result is stated here with each operand's contents at its own reference:

  * `nary3_result`, `nary3_result'`: the function applied to `Fin.cons (F ↑x) (Fin.cons (F ↑a) (Fin.cons (F ↑b) …))`, in
    the two forms the library gives for four operands (the plain one, and the one with the result reference un-indexed
    for `simp`);
  * `nary3_result_of`: for a function that reads its family only at the three positions, `f u = g (u 0) (u 1) (u 2)`,
    the result is `g` of any three values the operands' contents are proved equal to. The type of `u k` is the contents
    type of `![x, a, b] k`, which is that of the `k`-th buffer only after the literal family is evaluated; in this form
    each operand's contents is the left side of an equation of its own, at its own buffer's type, so that it can be
    rewritten as any other buffer's.

  Nothing here depends on a particular program.
-/
import Idealize.ShloMosaic.Lib.StableHlo.Run

namespace Idealize.ShloMosaic.StableHlo

open Idealize.SL.Sem

variable {τ : Topo} {sig : RefSig} {Val : EltTy → Type}

section NaryThree

variable {x a b y : Ref sig .tc}

/-- `nary` over a literal family of three references: the result with each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a `simp` pass over the operations' results uses. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- `nary` over a literal family of three references whose function reads the family at its three positions only:
    the result is that function of any three values the operands' contents equal. -/
theorem nary3_result_of
    (g : x.ty.Contents Val → a.ty.Contents Val → b.ty.Contents Val → y.ty.Contents Val)
    {f : ((k : Fin 3) → ((![x, a, b] : Fin 3 → Ref sig .tc) k).ty.Contents Val) → y.ty.Contents Val}
    (hf : ∀ u, f u = g (u 0) (u 1) (u 2)) (hxs hy) (F : Valuation τ sig Val)
    {vx : x.ty.Contents Val} {va : a.ty.Contents Val} {vb : b.ty.Contents Val}
    (hx : F (Proc.devRef .tc x) = vx) (ha : F (Proc.devRef .tc a) = va) (hb : F (Proc.devRef .tc b) = vb) :
    (nary (τ := τ) ![x, a, b] y f hxs hy).result F (Proc.devRef .tc y) = g vx va vb := by
  subst hx ha hb
  rw [nary3_result f hxs hy F, hf]
  rfl

end NaryThree

end Idealize.ShloMosaic.StableHlo
-- ==== Proof.HostPrefix.lean ====
/-
  What the call finds in its windows' arrays, in terms of the reference program's values.

  Before the call the program gathers, for each of the 16 · 16384 event slots, the event's fields and embedding rows, by
  the same operations, applied to the same arguments, as the reference program; only the order of the lines differs,
  and the reference goes on from the gathered values where this program reshapes them to [16384, 16, ·] and hands them
  to the call. Each stretch of operations is read once, from contents that are a variable: if the buffers it reads hold
  the reference's values at some stage, the buffers it writes hold the reference's values at a later stage (both sides
  are then the same operations applied to the same terms). Chaining the stretches from the launch contents gives each
  staged array as a reshape of a reference value; the reshape [16 · 16384, c] to [16384, 16, c] reads, at (p, f, k), row
  16 p + f; the three feature columns are three vectors viewed as columns and set side by side, so column 0, 1, 2 of row
  r is the first, second, third vector's entry r; the bias vectors are viewed as one-row matrices.
-/
import proofs.«154417_j15590731284983_1_alg».proof.Proof.HostPrefixA
import proofs.«154417_j15590731284983_1_alg».proof.Proof.Gen.ReferenceIdeal.Read
import proofs.«154417_j15590731284983_1_alg».proof.Proof.Spec
import proofs.«154417_j15590731284983_1_alg».proof.Proof.LibNaryThree
import proofs.«154417_j15590731284983_1_alg».proof.Proof.LibRelayout

noncomputable section

namespace Cert.KernelIdeal.Fr

open Cert.KernelIdeal Cert.KernelIdeal.Gen Idealize.ShloMosaic Idealize.ShloMosaic.TcCoe Idealize.SL.Sem Idealize.ShloMosaic.StableHlo
open Idealize.ShloMosaic.ValueIdx Cert.EventSage
open Cert.ReferenceIdeal.Read (val_main_v2 val_main_v3 val_main_v17 val_main_v31 val_main_v38 val_main_v41 val_main_v48 val_main_v55
  val_main_v56 val_main_v59 val_main_v66 val_main_v73 val_main_v74 val_main_v81 val_main_v89 val_main_v93 val_main_v100 val_main_v101
  val_main_v102 val_main_v103 val_main_v138)

/-! ## Columns side by side, a vector as a column, a vector as a one-row matrix -/

section Layout

variable {α : Type}

/-- A vector viewed as a column holds, at `(r, 0)`, the vector's entry `r`. -/
theorem column_apply {n : ℕ} (y : (⟨1, ![n]⟩ : Shape).Idx → α) (hb : (⟨1, ![n]⟩ : Shape).BroadcastsInDim ⟨2, ![n, 1]⟩ ![0])
    (r : Fin n) (u : Fin 1) : broadcastInDim ⟨2, ![n, 1]⟩ ![0] hb y (ix2 r u) = y (ix1 r) :=
  broadcastInDim_apply _ hb y (ix2 r u) (ix1 r) fun ax => by
    match ax with
    | ⟨0, _⟩ =>
      show r.val = if n = 1 then 0 else r.val
      split
      · have := r.isLt; omega
      · rfl

/-- Three columns set side by side: column 0 is the first. -/
theorem columns3_apply0 {n : ℕ} (x y z : (⟨2, ![n, 1]⟩ : Shape).Idx → α)
    (h : Shape.Concatenates [(⟨2, ![n, 1]⟩ : Shape), ⟨2, ![n, 1]⟩, ⟨2, ![n, 1]⟩] ⟨2, ![n, 3]⟩ 1) (r : Fin n) :
    concatenate ⟨2, ![n, 3]⟩ 1 [⟨⟨2, ![n, 1]⟩, x⟩, ⟨⟨2, ![n, 1]⟩, y⟩, ⟨⟨2, ![n, 1]⟩, z⟩] h (ix2 r (0 : Fin 3)) = x (ix2 r (0 : Fin 1)) :=
  concatenate_apply_piece 1 [⟨⟨2, ![n, 1]⟩, x⟩, ⟨⟨2, ![n, 1]⟩, y⟩, ⟨⟨2, ![n, 1]⟩, z⟩] h (ix2 r (0 : Fin 3)) 0 (by show 0 < 3; omega) _ x rfl rfl 0 rfl
    (ix2 r (0 : Fin 1))
    (fun ax hne => by
      match ax with
      | ⟨0, _⟩ => rfl
      | ⟨1, _⟩ => exact absurd rfl hne)
    rfl

/-- Three columns set side by side: column 1 is the second. -/
theorem columns3_apply1 {n : ℕ} (x y z : (⟨2, ![n, 1]⟩ : Shape).Idx → α)
    (h : Shape.Concatenates [(⟨2, ![n, 1]⟩ : Shape), ⟨2, ![n, 1]⟩, ⟨2, ![n, 1]⟩] ⟨2, ![n, 3]⟩ 1) (r : Fin n) :
    concatenate ⟨2, ![n, 3]⟩ 1 [⟨⟨2, ![n, 1]⟩, x⟩, ⟨⟨2, ![n, 1]⟩, y⟩, ⟨⟨2, ![n, 1]⟩, z⟩] h (ix2 r (1 : Fin 3)) = y (ix2 r (0 : Fin 1)) :=
  concatenate_apply_piece 1 [⟨⟨2, ![n, 1]⟩, x⟩, ⟨⟨2, ![n, 1]⟩, y⟩, ⟨⟨2, ![n, 1]⟩, z⟩] h (ix2 r (1 : Fin 3)) 1 (by show 1 < 3; omega) _ y rfl rfl 1 rfl
    (ix2 r (0 : Fin 1))
    (fun ax hne => by
      match ax with
      | ⟨0, _⟩ => rfl
      | ⟨1, _⟩ => exact absurd rfl hne)
    rfl

/-- Three columns set side by side: column 2 is the third. -/
theorem columns3_apply2 {n : ℕ} (x y z : (⟨2, ![n, 1]⟩ : Shape).Idx → α)
    (h : Shape.Concatenates [(⟨2, ![n, 1]⟩ : Shape), ⟨2, ![n, 1]⟩, ⟨2, ![n, 1]⟩] ⟨2, ![n, 3]⟩ 1) (r : Fin n) :
    concatenate ⟨2, ![n, 3]⟩ 1 [⟨⟨2, ![n, 1]⟩, x⟩, ⟨⟨2, ![n, 1]⟩, y⟩, ⟨⟨2, ![n, 1]⟩, z⟩] h (ix2 r (2 : Fin 3)) = z (ix2 r (0 : Fin 1)) :=
  concatenate_apply_piece 1 [⟨⟨2, ![n, 1]⟩, x⟩, ⟨⟨2, ![n, 1]⟩, y⟩, ⟨⟨2, ![n, 1]⟩, z⟩] h (ix2 r (2 : Fin 3)) 2 (by show 2 < 3; omega) _ z rfl rfl 2 rfl
    (ix2 r (0 : Fin 1))
    (fun ax hne => by
      match ax with
      | ⟨0, _⟩ => rfl
      | ⟨1, _⟩ => exact absurd rfl hne)
    rfl

/-- A vector viewed as a one-row matrix holds, at `(0, j)`, the vector's entry `j`. -/
theorem row_of_vector_apply {n : ℕ} (x : (⟨1, ![n]⟩ : Shape).Idx → α) (h : (⟨1, ![n]⟩ : Shape).ShapeCasts ⟨2, ![1, n]⟩) (j : Fin n) :
    shapeCast ⟨2, ![1, n]⟩ x h (ix2 (0 : Fin 1) j) = x (ix1 j) :=
  shapeCast_apply x h _ _ (by
    rw [Shape.rowMajor_val_two, Shape.rowMajor_val_one]
    show j.val = 0 * n + j.val
    omega)

end Layout

variable {F : FTy → Type} [FloatOps F]

/-! ## The first two stretches: the event slots -/

/-- The slots with the invalid ones (negative) replaced by zero. -/
theorem g1_v3 (W : Valuation τ sig (Elt F)) (x1 : (⟨S16384x16, .i32⟩ : BufTy).Contents (Elt F)) (h1 : W (Proc.devRef .tc main_arg1) = x1) :
    E1 W (Proc.devRef .tc main_v3) = val_main_v3 (F := F) x1 := by
  subst h1
  show after hostOps0_1 (after hostOps0 W) (Proc.devRef .tc main_v3) = _
  dsimp only [hostOps0, hostOps0_1]
  after_results
  rfl

/-- The slots' validity bits. -/
theorem g1_v2 (W : Valuation τ sig (Elt F)) (x1 : (⟨S16384x16, .i32⟩ : BufTy).Contents (Elt F)) (h1 : W (Proc.devRef .tc main_arg1) = x1) :
    E1 W (Proc.devRef .tc main_v2) = val_main_v2 (F := F) x1 := by
  subst h1
  show after hostOps0_1 (after hostOps0 W) (Proc.devRef .tc main_v2) = _
  dsimp only [hostOps0, hostOps0_1]
  after_results
  rfl

/-! ## The third stretch: the events' fields and the source rows, gathered at the slots -/

theorem s2_v17 (W : Valuation τ sig (Elt F)) (x1 : (⟨S16384x16, .i32⟩ : BufTy).Contents (Elt F)) (x3 : (⟨S1000000, .i32⟩ : BufTy).Contents (Elt F))
    (h3 : W (Proc.devRef .tc main_v3) = val_main_v3 (F := F) x1) (hx3 : W (Proc.devRef .tc main_arg3) = x3) :
    after (hostOps0_2 (F := F)) W (Proc.devRef .tc main_v17) = val_main_v17 (F := F) x1 x3 := by
  dsimp only [hostOps0_2]
  after_results_simp
  rw [h3, hx3]
  rfl

theorem s2_v31 (W : Valuation τ sig (Elt F)) (x1 : (⟨S16384x16, .i32⟩ : BufTy).Contents (Elt F)) (x6 : (⟨S1000000, .i32⟩ : BufTy).Contents (Elt F))
    (h3 : W (Proc.devRef .tc main_v3) = val_main_v3 (F := F) x1) (hx6 : W (Proc.devRef .tc main_arg6) = x6) :
    after (hostOps0_2 (F := F)) W (Proc.devRef .tc main_v31) = val_main_v31 (F := F) x1 x6 := by
  dsimp only [hostOps0_2]
  after_results_simp
  rw [h3, hx6]
  rfl

theorem s2_v38 (W : Valuation τ sig (Elt F)) (x1 : (⟨S16384x16, .i32⟩ : BufTy).Contents (Elt F)) (x4 : (⟨S1000000, .i32⟩ : BufTy).Contents (Elt F))
    (h3 : W (Proc.devRef .tc main_v3) = val_main_v3 (F := F) x1) (hx4 : W (Proc.devRef .tc main_arg4) = x4) :
    after (hostOps0_2 (F := F)) W (Proc.devRef .tc main_v38) = val_main_v38 (F := F) x1 x4 := by
  dsimp only [hostOps0_2]
  after_results_simp
  rw [h3, hx4]
  rfl

theorem s2_v46 (W : Valuation τ sig (Elt F)) (x1 : (⟨S16384x16, .i32⟩ : BufTy).Contents (Elt F)) (x7 : (⟨S1000000, .i32⟩ : BufTy).Contents (Elt F))
    (h3 : W (Proc.devRef .tc main_v3) = val_main_v3 (F := F) x1) (hx7 : W (Proc.devRef .tc main_arg7) = x7) :
    after (hostOps0_2 (F := F)) W (Proc.devRef .tc main_v46) = val_main_v89 (F := F) x1 x7 := by
  dsimp only [hostOps0_2]
  after_results_simp
  rw [h3, hx7]
  rfl

theorem s2_v53 (W : Valuation τ sig (Elt F)) (x1 : (⟨S16384x16, .i32⟩ : BufTy).Contents (Elt F)) (x8 : (⟨S1000000, .f32⟩ : BufTy).Contents (Elt F))
    (h3 : W (Proc.devRef .tc main_v3) = val_main_v3 (F := F) x1) (hx8 : W (Proc.devRef .tc main_arg8) = x8) :
    after (hostOps0_2 (F := F)) W (Proc.devRef .tc main_v53) = val_main_v100 (F := F) x1 x8 := by
  dsimp only [hostOps0_2]
  after_results_simp
  rw [h3, hx8]
  rfl

theorem s2_v56 (W : Valuation τ sig (Elt F)) (x1 : (⟨S16384x16, .i32⟩ : BufTy).Contents (Elt F)) (x2 : (⟨S1000000, .i32⟩ : BufTy).Contents (Elt F))
    (h3 : W (Proc.devRef .tc main_v3) = val_main_v3 (F := F) x1) (hx2 : W (Proc.devRef .tc main_arg2) = x2) :
    after (hostOps0_2 (F := F)) W (Proc.devRef .tc main_v56) = val_main_v41 (F := F) x1 x2 := by
  dsimp only [hostOps0_2]
  after_results_simp
  rw [h3, hx2]
  rfl

theorem s2_v63 (W : Valuation τ sig (Elt F)) (x1 : (⟨S16384x16, .i32⟩ : BufTy).Contents (Elt F)) (x5 : (⟨S1000000, .i32⟩ : BufTy).Contents (Elt F)) (x9 : (⟨S300000x128, .f32⟩ : BufTy).Contents (Elt F))
    (h3 : W (Proc.devRef .tc main_v3) = val_main_v3 (F := F) x1) (hx5 : W (Proc.devRef .tc main_arg5) = x5) (hx9 : W (Proc.devRef .tc main_arg9) = x9) :
    after (hostOps0_2 (F := F)) W (Proc.devRef .tc main_v63) = val_main_v48 (F := F) x1 x5 x9 := by
  dsimp only [hostOps0_2]
  after_results_simp
  rw [h3, hx5, hx9]
  rfl

theorem s2_v70 (W : Valuation τ sig (Elt F)) (x1 : (⟨S16384x16, .i32⟩ : BufTy).Contents (Elt F)) (x5 : (⟨S1000000, .i32⟩ : BufTy).Contents (Elt F)) (x10 : (⟨S300000x128, .f32⟩ : BufTy).Contents (Elt F))
    (h3 : W (Proc.devRef .tc main_v3) = val_main_v3 (F := F) x1) (hx5 : W (Proc.devRef .tc main_arg5) = x5) (hx10 : W (Proc.devRef .tc main_arg10) = x10) :
    after (hostOps0_2 (F := F)) W (Proc.devRef .tc main_v70) = val_main_v55 (F := F) x1 x5 x10 := by
  dsimp only [hostOps0_2]
  after_results_simp
  rw [h3, hx5, hx10]
  rfl

/-! ## The fourth stretch: the source rows selected by the source's type -/

theorem s3_v71 (W : Valuation τ sig (Elt F)) (x1 : (⟨S16384x16, .i32⟩ : BufTy).Contents (Elt F)) (x2 : (⟨S1000000, .i32⟩ : BufTy).Contents (Elt F)) (x5 : (⟨S1000000, .i32⟩ : BufTy).Contents (Elt F)) (x9 : (⟨S300000x128, .f32⟩ : BufTy).Contents (Elt F)) (x10 : (⟨S300000x128, .f32⟩ : BufTy).Contents (Elt F))
    (h56 : W (Proc.devRef .tc main_v56) = val_main_v41 (F := F) x1 x2) (h63 : W (Proc.devRef .tc main_v63) = val_main_v48 (F := F) x1 x5 x9)
    (h70 : W (Proc.devRef .tc main_v70) = val_main_v55 (F := F) x1 x5 x10) :
    after (hostOps0_3 (F := F)) W (Proc.devRef .tc main_v71) = val_main_v56 (F := F) x1 x2 x5 x9 x10 := by
  dsimp only [hostOps0_3]
  after_results
  rw [h56, h63, h70]
  rfl

/-! ## The fifth stretch: the destination rows, gathered -/

theorem s4_v74 (W : Valuation τ sig (Elt F)) (x1 : (⟨S16384x16, .i32⟩ : BufTy).Contents (Elt F)) (x3 : (⟨S1000000, .i32⟩ : BufTy).Contents (Elt F))
    (h17 : W (Proc.devRef .tc main_v17) = val_main_v17 (F := F) x1 x3) :
    after (hostOps0_4 (F := F)) W (Proc.devRef .tc main_v74) = val_main_v59 (F := F) x1 x3 := by
  dsimp only [hostOps0_4]
  after_results_simp
  rw [h17]
  rfl

theorem s4_v81 (W : Valuation τ sig (Elt F)) (x1 : (⟨S16384x16, .i32⟩ : BufTy).Contents (Elt F)) (x6 : (⟨S1000000, .i32⟩ : BufTy).Contents (Elt F)) (x9 : (⟨S300000x128, .f32⟩ : BufTy).Contents (Elt F))
    (h31 : W (Proc.devRef .tc main_v31) = val_main_v31 (F := F) x1 x6) (h9 : W (Proc.devRef .tc main_arg9) = x9) :
    after (hostOps0_4 (F := F)) W (Proc.devRef .tc main_v81) = val_main_v66 (F := F) x1 x6 x9 := by
  dsimp only [hostOps0_4]
  after_results_simp
  rw [h31, h9]
  rfl

theorem s4_v88 (W : Valuation τ sig (Elt F)) (x1 : (⟨S16384x16, .i32⟩ : BufTy).Contents (Elt F)) (x6 : (⟨S1000000, .i32⟩ : BufTy).Contents (Elt F)) (x10 : (⟨S300000x128, .f32⟩ : BufTy).Contents (Elt F))
    (h31 : W (Proc.devRef .tc main_v31) = val_main_v31 (F := F) x1 x6) (h10 : W (Proc.devRef .tc main_arg10) = x10) :
    after (hostOps0_4 (F := F)) W (Proc.devRef .tc main_v88) = val_main_v73 (F := F) x1 x6 x10 := by
  dsimp only [hostOps0_4]
  after_results_simp
  rw [h31, h10]
  rfl

/-! ## The sixth stretch: the destination rows selected by the destination's type -/

theorem s5_v89 (W : Valuation τ sig (Elt F)) (x1 : (⟨S16384x16, .i32⟩ : BufTy).Contents (Elt F)) (x3 : (⟨S1000000, .i32⟩ : BufTy).Contents (Elt F)) (x6 : (⟨S1000000, .i32⟩ : BufTy).Contents (Elt F)) (x9 : (⟨S300000x128, .f32⟩ : BufTy).Contents (Elt F)) (x10 : (⟨S300000x128, .f32⟩ : BufTy).Contents (Elt F))
    (h74 : W (Proc.devRef .tc main_v74) = val_main_v59 (F := F) x1 x3) (h81 : W (Proc.devRef .tc main_v81) = val_main_v66 (F := F) x1 x6 x9)
    (h88 : W (Proc.devRef .tc main_v88) = val_main_v73 (F := F) x1 x6 x10) :
    after (hostOps0_5 (F := F)) W (Proc.devRef .tc main_v89) = val_main_v74 (F := F) x1 x3 x6 x9 x10 := by
  dsimp only [hostOps0_5]
  after_results
  rw [h74, h81, h88]
  rfl

/-! ## The last stretch: the relation rows, the three feature columns, the nodes' own rows, and the reshapes -/

theorem s6_v115 (W : Valuation τ sig (Elt F)) (x1 : (⟨S16384x16, .i32⟩ : BufTy).Contents (Elt F)) (x2 : (⟨S1000000, .i32⟩ : BufTy).Contents (Elt F)) (x5 : (⟨S1000000, .i32⟩ : BufTy).Contents (Elt F)) (x9 : (⟨S300000x128, .f32⟩ : BufTy).Contents (Elt F)) (x10 : (⟨S300000x128, .f32⟩ : BufTy).Contents (Elt F))
    (h71 : W (Proc.devRef .tc main_v71) = val_main_v56 (F := F) x1 x2 x5 x9 x10) :
    after (hostOps0_6 (F := F)) W (Proc.devRef .tc main_v115)
      = fun i => shapeCast S16384x16x128 (val_main_v56 (F := F) x1 x2 x5 x9 x10) shapeCasts_S262144x128_S16384x16x128 i := by
  dsimp only [hostOps0_6]
  after_results
  rw [h71]
  rfl

theorem s6_v116 (W : Valuation τ sig (Elt F)) (x1 : (⟨S16384x16, .i32⟩ : BufTy).Contents (Elt F)) (x3 : (⟨S1000000, .i32⟩ : BufTy).Contents (Elt F)) (x6 : (⟨S1000000, .i32⟩ : BufTy).Contents (Elt F)) (x9 : (⟨S300000x128, .f32⟩ : BufTy).Contents (Elt F)) (x10 : (⟨S300000x128, .f32⟩ : BufTy).Contents (Elt F))
    (h89 : W (Proc.devRef .tc main_v89) = val_main_v74 (F := F) x1 x3 x6 x9 x10) :
    after (hostOps0_6 (F := F)) W (Proc.devRef .tc main_v116)
      = fun i => shapeCast S16384x16x128 (val_main_v74 (F := F) x1 x3 x6 x9 x10) shapeCasts_S262144x128_S16384x16x128 i := by
  dsimp only [hostOps0_6]
  after_results
  rw [h89]
  rfl

theorem s6_v117 (W : Valuation τ sig (Elt F)) (x1 : (⟨S16384x16, .i32⟩ : BufTy).Contents (Elt F)) (x4 : (⟨S1000000, .i32⟩ : BufTy).Contents (Elt F)) (x11 : (⟨S16x128, .f32⟩ : BufTy).Contents (Elt F))
    (h38 : W (Proc.devRef .tc main_v38) = val_main_v38 (F := F) x1 x4) (h11 : W (Proc.devRef .tc main_arg11) = x11) :
    after (hostOps0_6 (F := F)) W (Proc.devRef .tc main_v117)
      = fun i => shapeCast S16384x16x128 (val_main_v81 (F := F) x1 x4 x11) shapeCasts_S262144x128_S16384x16x128 i := by
  dsimp only [hostOps0_6]
  after_results_simp
  rw [h38, h11]
  rfl

theorem s6_v113 (W : Valuation τ sig (Elt F)) (x0 : (⟨S16384, .i32⟩ : BufTy).Contents (Elt F)) (x9 : (⟨S300000x128, .f32⟩ : BufTy).Contents (Elt F))
    (h0 : W (Proc.devRef .tc main_arg0) = x0) (h9 : W (Proc.devRef .tc main_arg9) = x9) :
    after (hostOps0_6 (F := F)) W (Proc.devRef .tc main_v113) = val_main_v138 (F := F) x0 x9 := by
  dsimp only [hostOps0_6]
  after_results_simp
  rw [h0, h9]
  rfl

theorem s6_v118 (W : Valuation τ sig (Elt F)) (x14 : (⟨S256, .f32⟩ : BufTy).Contents (Elt F)) (h14 : W (Proc.devRef .tc main_arg14) = x14) :
    after (hostOps0_6 (F := F)) W (Proc.devRef .tc main_v118) = fun i => shapeCast S1x256 x14 shapeCasts_S256_S1x256 i := by
  dsimp only [hostOps0_6]
  after_results
  rw [h14]
  rfl

theorem s6_v119 (W : Valuation τ sig (Elt F)) (x16 : (⟨S256, .f32⟩ : BufTy).Contents (Elt F)) (h16 : W (Proc.devRef .tc main_arg16) = x16) :
    after (hostOps0_6 (F := F)) W (Proc.devRef .tc main_v119) = fun i => shapeCast S1x256 x16 shapeCasts_S256_S1x256 i := by
  dsimp only [hostOps0_6]
  after_results
  rw [h16]
  rfl

/-- Three columns set side by side, as a function of the three columns. -/
def featCols (a b c : (⟨S262144x1, .f32⟩ : BufTy).Contents (Elt F)) : (⟨S262144x3, .f32⟩ : BufTy).Contents (Elt F) :=
  concatenate S262144x3 1 [⟨S262144x1, a⟩, ⟨S262144x1, b⟩, ⟨S262144x1, c⟩] concatenates_S262144x1_S262144x1_S262144x1_S262144x3_d1

/-- The operation that joins the three feature columns writes `featCols` of what its three operand buffers hold. -/
theorem featCols_result' (hxs hy) (Y : Valuation τ sig (Elt F)) :
    (nary (τ := τ) ![main_v103, main_v104, main_v105] main_v106
      (fun u => concatenate S262144x3 1 [⟨S262144x1, u 0⟩, ⟨S262144x1, u 1⟩, ⟨S262144x1, u 2⟩]
        concatenates_S262144x1_S262144x1_S262144x1_S262144x3_d1) hxs hy).result Y (no_index (Proc.devRef .tc main_v106))
      = featCols (Y (Proc.devRef .tc main_v103)) (Y (Proc.devRef .tc main_v104)) (Y (Proc.devRef .tc main_v105)) :=
  nary3_result_of (g := featCols (F := F)) (fun u => rfl) hxs hy Y rfl rfl rfl

/-- The three feature columns: the normalised time stamp, the log-weight, and the validity bit as a number. -/
theorem s6_v114 (W : Valuation τ sig (Elt F)) (x1 : (⟨S16384x16, .i32⟩ : BufTy).Contents (Elt F)) (x7 : (⟨S1000000, .i32⟩ : BufTy).Contents (Elt F)) (x8 : (⟨S1000000, .f32⟩ : BufTy).Contents (Elt F))
    (h46 : W (Proc.devRef .tc main_v46) = val_main_v89 (F := F) x1 x7) (h53 : W (Proc.devRef .tc main_v53) = val_main_v100 (F := F) x1 x8)
    (h2 : W (Proc.devRef .tc main_v2) = val_main_v2 (F := F) x1) :
    after (hostOps0_6 (F := F)) W (Proc.devRef .tc main_v114)
      = fun i => shapeCast S16384x16x3
          (concatenate S262144x3 1
            [⟨S262144x1, val_main_v102 (F := F) x1 x7⟩, ⟨S262144x1, val_main_v103 (F := F) x1 x8⟩,
             ⟨S262144x1, broadcastInDim S262144x1 ![0] bcast_S262144_S262144x1_0 (uitofp .f32 (val_main_v2 (F := F) x1))⟩]
            concatenates_S262144x1_S262144x1_S262144x1_S262144x3_d1) shapeCasts_S262144x3_S16384x16x3 i := by
  dsimp only [hostOps0_6]
  simp (disch := decide) only [after_cons, after_nil, nullary_result', unary_result', binary_result', ternary_result', reshape_result',
    featCols_result', nullary_result_ne', unary_result_ne', binary_result_ne', ternary_result_ne', reshape_result_ne', nary_result_ne']
  rw [h46, h53, h2]
  rfl

/-! ## The stretches chained from the launch contents -/

section Chain

variable (m : (ℓ : Loc nD τ sig) → Buf (Elt F) ℓ) (c : Dev nD)

theorem e1_v3 : E1 (fun b => m (c, b)) (Proc.devRef .tc main_v3) = val_main_v3 (F := F) (m ((c : Thread nD τ).loc main_arg1)) := g1_v3 _ _ rfl
theorem e1_v2 : E1 (fun b => m (c, b)) (Proc.devRef .tc main_v2) = val_main_v2 (F := F) (m ((c : Thread nD τ).loc main_arg1)) := g1_v2 _ _ rfl

theorem e2_v17 : E2 (fun b => m (c, b)) (Proc.devRef .tc main_v17) = val_main_v17 (F := F) (m ((c : Thread nD τ).loc main_arg1)) (m ((c : Thread nD τ).loc main_arg3)) :=
  s2_v17 _ _ _ (e1_v3 m c) (keepE1 _ main_arg3)
theorem e2_v31 : E2 (fun b => m (c, b)) (Proc.devRef .tc main_v31) = val_main_v31 (F := F) (m ((c : Thread nD τ).loc main_arg1)) (m ((c : Thread nD τ).loc main_arg6)) :=
  s2_v31 _ _ _ (e1_v3 m c) (keepE1 _ main_arg6)
theorem e2_v38 : E2 (fun b => m (c, b)) (Proc.devRef .tc main_v38) = val_main_v38 (F := F) (m ((c : Thread nD τ).loc main_arg1)) (m ((c : Thread nD τ).loc main_arg4)) :=
  s2_v38 _ _ _ (e1_v3 m c) (keepE1 _ main_arg4)
theorem e2_v46 : E2 (fun b => m (c, b)) (Proc.devRef .tc main_v46) = val_main_v89 (F := F) (m ((c : Thread nD τ).loc main_arg1)) (m ((c : Thread nD τ).loc main_arg7)) :=
  s2_v46 _ _ _ (e1_v3 m c) (keepE1 _ main_arg7)
theorem e2_v53 : E2 (fun b => m (c, b)) (Proc.devRef .tc main_v53) = val_main_v100 (F := F) (m ((c : Thread nD τ).loc main_arg1)) (m ((c : Thread nD τ).loc main_arg8)) :=
  s2_v53 _ _ _ (e1_v3 m c) (keepE1 _ main_arg8)
theorem e2_v56 : E2 (fun b => m (c, b)) (Proc.devRef .tc main_v56) = val_main_v41 (F := F) (m ((c : Thread nD τ).loc main_arg1)) (m ((c : Thread nD τ).loc main_arg2)) :=
  s2_v56 _ _ _ (e1_v3 m c) (keepE1 _ main_arg2)
theorem e2_v63 : E2 (fun b => m (c, b)) (Proc.devRef .tc main_v63) = val_main_v48 (F := F) (m ((c : Thread nD τ).loc main_arg1)) (m ((c : Thread nD τ).loc main_arg5)) (m ((c : Thread nD τ).loc main_arg9)) :=
  s2_v63 _ _ _ _ (e1_v3 m c) (keepE1 _ main_arg5) (keepE1 _ main_arg9)
theorem e2_v70 : E2 (fun b => m (c, b)) (Proc.devRef .tc main_v70) = val_main_v55 (F := F) (m ((c : Thread nD τ).loc main_arg1)) (m ((c : Thread nD τ).loc main_arg5)) (m ((c : Thread nD τ).loc main_arg10)) :=
  s2_v70 _ _ _ _ (e1_v3 m c) (keepE1 _ main_arg5) (keepE1 _ main_arg10)

theorem e3_v71 : E3 (fun b => m (c, b)) (Proc.devRef .tc main_v71) = val_main_v56 (F := F) (m ((c : Thread nD τ).loc main_arg1)) (m ((c : Thread nD τ).loc main_arg2)) (m ((c : Thread nD τ).loc main_arg5)) (m ((c : Thread nD τ).loc main_arg9)) (m ((c : Thread nD τ).loc main_arg10)) :=
  s3_v71 _ _ _ _ _ _ (e2_v56 m c) (e2_v63 m c) (e2_v70 m c)

theorem e4_v74 : E4 (fun b => m (c, b)) (Proc.devRef .tc main_v74) = val_main_v59 (F := F) (m ((c : Thread nD τ).loc main_arg1)) (m ((c : Thread nD τ).loc main_arg3)) :=
  s4_v74 _ _ _ ((keep3 _ (by decide)).trans (e2_v17 m c))
theorem e4_v81 : E4 (fun b => m (c, b)) (Proc.devRef .tc main_v81) = val_main_v66 (F := F) (m ((c : Thread nD τ).loc main_arg1)) (m ((c : Thread nD τ).loc main_arg6)) (m ((c : Thread nD τ).loc main_arg9)) :=
  s4_v81 _ _ _ _ ((keep3 _ (by decide)).trans (e2_v31 m c)) (keepE3 _ main_arg9)
theorem e4_v88 : E4 (fun b => m (c, b)) (Proc.devRef .tc main_v88) = val_main_v73 (F := F) (m ((c : Thread nD τ).loc main_arg1)) (m ((c : Thread nD τ).loc main_arg6)) (m ((c : Thread nD τ).loc main_arg10)) :=
  s4_v88 _ _ _ _ ((keep3 _ (by decide)).trans (e2_v31 m c)) (keepE3 _ main_arg10)

theorem e5_v89 : E5 (fun b => m (c, b)) (Proc.devRef .tc main_v89) = val_main_v74 (F := F) (m ((c : Thread nD τ).loc main_arg1)) (m ((c : Thread nD τ).loc main_arg3)) (m ((c : Thread nD τ).loc main_arg6)) (m ((c : Thread nD τ).loc main_arg9)) (m ((c : Thread nD τ).loc main_arg10)) :=
  s5_v89 _ _ _ _ _ _ (e4_v74 m c) (e4_v81 m c) (e4_v88 m c)
theorem e5_v71 : E5 (fun b => m (c, b)) (Proc.devRef .tc main_v71) = val_main_v56 (F := F) (m ((c : Thread nD τ).loc main_arg1)) (m ((c : Thread nD τ).loc main_arg2)) (m ((c : Thread nD τ).loc main_arg5)) (m ((c : Thread nD τ).loc main_arg9)) (m ((c : Thread nD τ).loc main_arg10)) :=
  (keep5 _ (by decide)).trans ((keep4 _ (by decide)).trans (e3_v71 m c))
theorem e5_v38 : E5 (fun b => m (c, b)) (Proc.devRef .tc main_v38) = val_main_v38 (F := F) (m ((c : Thread nD τ).loc main_arg1)) (m ((c : Thread nD τ).loc main_arg4)) :=
  (keep5 _ (by decide)).trans ((keep4 _ (by decide)).trans ((keep3 _ (by decide)).trans (e2_v38 m c)))
theorem e5_v46 : E5 (fun b => m (c, b)) (Proc.devRef .tc main_v46) = val_main_v89 (F := F) (m ((c : Thread nD τ).loc main_arg1)) (m ((c : Thread nD τ).loc main_arg7)) :=
  (keep5 _ (by decide)).trans ((keep4 _ (by decide)).trans ((keep3 _ (by decide)).trans (e2_v46 m c)))
theorem e5_v53 : E5 (fun b => m (c, b)) (Proc.devRef .tc main_v53) = val_main_v100 (F := F) (m ((c : Thread nD τ).loc main_arg1)) (m ((c : Thread nD τ).loc main_arg8)) :=
  (keep5 _ (by decide)).trans ((keep4 _ (by decide)).trans ((keep3 _ (by decide)).trans (e2_v53 m c)))
theorem e5_v2 : E5 (fun b => m (c, b)) (Proc.devRef .tc main_v2) = val_main_v2 (F := F) (m ((c : Thread nD τ).loc main_arg1)) :=
  (keep5 _ (by decide)).trans ((keep4 _ (by decide)).trans ((keep3 _ (by decide)).trans ((keep2 _ (by decide)).trans (e1_v2 m c))))

/-! ## The staged arrays -/

theorem V_v115 : V m c main_v115
    = fun i => shapeCast S16384x16x128 (val_main_v56 (F := F) (m ((c : Thread nD τ).loc main_arg1)) (m ((c : Thread nD τ).loc main_arg2)) (m ((c : Thread nD τ).loc main_arg5)) (m ((c : Thread nD τ).loc main_arg9)) (m ((c : Thread nD τ).loc main_arg10))) shapeCasts_S262144x128_S16384x16x128 i :=
  (V_cut m c main_v115).trans (s6_v115 _ _ _ _ _ _ (e5_v71 m c))
theorem V_v116 : V m c main_v116
    = fun i => shapeCast S16384x16x128 (val_main_v74 (F := F) (m ((c : Thread nD τ).loc main_arg1)) (m ((c : Thread nD τ).loc main_arg3)) (m ((c : Thread nD τ).loc main_arg6)) (m ((c : Thread nD τ).loc main_arg9)) (m ((c : Thread nD τ).loc main_arg10))) shapeCasts_S262144x128_S16384x16x128 i :=
  (V_cut m c main_v116).trans (s6_v116 _ _ _ _ _ _ (e5_v89 m c))
theorem V_v117 : V m c main_v117
    = fun i => shapeCast S16384x16x128 (val_main_v81 (F := F) (m ((c : Thread nD τ).loc main_arg1)) (m ((c : Thread nD τ).loc main_arg4)) (m ((c : Thread nD τ).loc main_arg11))) shapeCasts_S262144x128_S16384x16x128 i :=
  (V_cut m c main_v117).trans (s6_v117 _ _ _ _ (e5_v38 m c) (keepE5 _ main_arg11))
theorem V_v113 : V m c main_v113 = val_main_v138 (F := F) (m ((c : Thread nD τ).loc main_arg0)) (m ((c : Thread nD τ).loc main_arg9)) :=
  (V_cut m c main_v113).trans (s6_v113 _ _ _ (keepE5 _ main_arg0) (keepE5 _ main_arg9))
theorem V_v118 : V m c main_v118 = fun i => shapeCast S1x256 (m ((c : Thread nD τ).loc main_arg14)) shapeCasts_S256_S1x256 i :=
  (V_cut m c main_v118).trans (s6_v118 _ _ (keepE5 _ main_arg14))
theorem V_v119 : V m c main_v119 = fun i => shapeCast S1x256 (m ((c : Thread nD τ).loc main_arg16)) shapeCasts_S256_S1x256 i :=
  (V_cut m c main_v119).trans (s6_v119 _ _ (keepE5 _ main_arg16))
theorem V_v114 : V m c main_v114
    = fun i => shapeCast S16384x16x3
        (concatenate S262144x3 1
          [⟨S262144x1, val_main_v102 (F := F) (m ((c : Thread nD τ).loc main_arg1)) (m ((c : Thread nD τ).loc main_arg7))⟩, ⟨S262144x1, val_main_v103 (F := F) (m ((c : Thread nD τ).loc main_arg1)) (m ((c : Thread nD τ).loc main_arg8))⟩,
           ⟨S262144x1, broadcastInDim S262144x1 ![0] bcast_S262144_S262144x1_0 (uitofp .f32 (val_main_v2 (F := F) (m ((c : Thread nD τ).loc main_arg1))))⟩]
          concatenates_S262144x1_S262144x1_S262144x1_S262144x3_d1) shapeCasts_S262144x3_S16384x16x3 i :=
  (V_cut m c main_v114).trans (s6_v114 _ _ _ _ (e5_v46 m c) (e5_v53 m c) (e5_v2 m c))

end Chain

/-! ## The staged arrays read at an index, over the extended reals -/

section Entries

variable (m : (ℓ : Loc nD τ sig) → Buf (Elt Ideal) ℓ) (c : Dev nD)

/-- The source rows: event `f` of node `p` is row `16 p + f` of the gathered rows. -/
theorem entry_src (p : Fin 16384) (f : Fin 16) (k : Fin 128) :
    V m c main_v115 (ix3 p f k) = val_main_v56 (F := Ideal) (m ((c : Thread nD τ).loc main_arg1)) (m ((c : Thread nD τ).loc main_arg2)) (m ((c : Thread nD τ).loc main_arg5)) (m ((c : Thread nD τ).loc main_arg9)) (m ((c : Thread nD τ).loc main_arg10)) (ix2 (evRow p f) k) :=
  (congrFun (V_v115 m c) (ix3 p f k)).trans (Cert.Relayout.split_ab_apply _ _ p f k (evRow p f) rfl)

/-- The destination rows. -/
theorem entry_dst (p : Fin 16384) (f : Fin 16) (k : Fin 128) :
    V m c main_v116 (ix3 p f k) = val_main_v74 (F := Ideal) (m ((c : Thread nD τ).loc main_arg1)) (m ((c : Thread nD τ).loc main_arg3)) (m ((c : Thread nD τ).loc main_arg6)) (m ((c : Thread nD τ).loc main_arg9)) (m ((c : Thread nD τ).loc main_arg10)) (ix2 (evRow p f) k) :=
  (congrFun (V_v116 m c) (ix3 p f k)).trans (Cert.Relayout.split_ab_apply _ _ p f k (evRow p f) rfl)

/-- The relation rows. -/
theorem entry_rel (p : Fin 16384) (f : Fin 16) (k : Fin 128) :
    V m c main_v117 (ix3 p f k) = val_main_v81 (F := Ideal) (m ((c : Thread nD τ).loc main_arg1)) (m ((c : Thread nD τ).loc main_arg4)) (m ((c : Thread nD τ).loc main_arg11)) (ix2 (evRow p f) k) :=
  (congrFun (V_v117 m c) (ix3 p f k)).trans (Cert.Relayout.split_ab_apply _ _ p f k (evRow p f) rfl)

/-- The nodes' own rows. -/
theorem entry_self (p : Fin 16384) (k : Fin 128) :
    V m c main_v113 (ix2 p k) = val_main_v138 (F := Ideal) (m ((c : Thread nD τ).loc main_arg0)) (m ((c : Thread nD τ).loc main_arg9)) (ix2 p k) :=
  congrFun (V_v113 m c) (ix2 p k)

/-- The first bias vector as a one-row matrix. -/
theorem entry_b1 (j : Fin 256) : V m c main_v118 (ix2 (0 : Fin 1) j) = (m ((c : Thread nD τ).loc main_arg14)) (ix1 j) :=
  (congrFun (V_v118 m c) (ix2 (0 : Fin 1) j)).trans (row_of_vector_apply _ _ j)

/-- The second bias vector as a one-row matrix. -/
theorem entry_b2 (j : Fin 256) : V m c main_v119 (ix2 (0 : Fin 1) j) = (m ((c : Thread nD τ).loc main_arg16)) (ix1 j) :=
  (congrFun (V_v119 m c) (ix2 (0 : Fin 1) j)).trans (row_of_vector_apply _ _ j)

/-- The first feature: the normalised time stamp. -/
theorem entry_feat0 (p : Fin 16384) (f : Fin 16) :
    V m c main_v114 (ix3 p f 0) = val_main_v93 (F := Ideal) (m ((c : Thread nD τ).loc main_arg1)) (m ((c : Thread nD τ).loc main_arg7)) (ix1 (evRow p f)) := by
  refine (congrFun (V_v114 m c) (ix3 p f 0)).trans ?_
  refine (Cert.Relayout.split_ab_apply _ _ p f (0 : Fin 3) (evRow p f) rfl).trans ?_
  refine (columns3_apply0 _ _ _ _ (evRow p f)).trans ?_
  unfold val_main_v102
  exact column_apply _ _ (evRow p f) 0

/-- The second feature: the log-weight. -/
theorem entry_feat1 (p : Fin 16384) (f : Fin 16) :
    V m c main_v114 (ix3 p f 1) = val_main_v101 (F := Ideal) (m ((c : Thread nD τ).loc main_arg1)) (m ((c : Thread nD τ).loc main_arg8)) (ix1 (evRow p f)) := by
  refine (congrFun (V_v114 m c) (ix3 p f 1)).trans ?_
  refine (Cert.Relayout.split_ab_apply _ _ p f (1 : Fin 3) (evRow p f) rfl).trans ?_
  refine (columns3_apply1 _ _ _ _ (evRow p f)).trans ?_
  unfold val_main_v103
  exact column_apply _ _ (evRow p f) 0

/-- The third feature: the validity bit as a number, 0 or 1. -/
theorem entry_mask (p : Fin 16384) (f : Fin 16) :
    V m c main_v114 (ix3 p f 2) = (((val_main_v2 (F := Ideal) (m ((c : Thread nD τ).loc main_arg1)) (ix1 (evRow p f))).toNat : ℝ) : EReal) := by
  refine (congrFun (V_v114 m c) (ix3 p f 2)).trans ?_
  refine (Cert.Relayout.split_ab_apply _ _ p f (2 : Fin 3) (evRow p f) rfl).trans ?_
  refine (columns3_apply2 _ _ _ _ (evRow p f)).trans ?_
  refine (column_apply _ _ (evRow p f) 0).trans ?_
  rfl

end Entries

end Cert.KernelIdeal.Fr

end
-- ==== Proof.Consts.lean ====
/-
  The float constants of the mean over sixteen events, as the extended reals their patterns denote.

  The reference divides the sum of sixteen hidden rows by the f32 pattern of sixteen; the layer multiplies it by
  the f32 pattern of one sixteenth. Both patterns denote real numbers, and division by a nonzero real is the
  product with its reciprocal, so the two means are the same extended real.
-/
import Idealize.ShloMosaic.PureOps.Ideal

noncomputable section

namespace Cert.Consts

open Idealize.ShloMosaic

/-- The f32 pattern of `+0.0` denotes `0`. -/
theorem ofBits_zero : Ideal.ofBits .f32 0x00000000#32 = 0 := by
  simp [Ideal.ofBits, Ideal.ieee]

/-- The f32 pattern `0x41800000` denotes the real `16`. -/
theorem ofBits_sixteen : Ideal.ofBits .f32 0x41800000#32 = ((16 : ℝ) : EReal) := by
  simp [Ideal.ofBits, Ideal.ieee, -EReal.coe_mul]; norm_num

/-- The f32 pattern `0x3D800000` denotes the real `1/16`. -/
theorem ofBits_sixteenth : Ideal.ofBits .f32 0x3D800000#32 = (((1 / 16 : ℝ)) : EReal) := by
  simp [Ideal.ofBits, Ideal.ieee, -EReal.coe_mul]; norm_num

/-- Dividing by the pattern of sixteen is multiplying by the pattern of one sixteenth. -/
theorem div_sixteen (x : EReal) :
    Ideal.div x (Ideal.ofBits .f32 0x41800000#32) = x * Ideal.ofBits .f32 0x3D800000#32 := by
  rw [ofBits_sixteen, ofBits_sixteenth, Ideal.div_coe (by norm_num)]

end Cert.Consts

end
-- ==== Proof.RefLayer.lean ====
/-
  The reference's result stage is the layer.

  The reference computes, for every one of the 16384 · 16 sampled events (event `f` of node `p` is row `16 p + f`),
  a two-layer perceptron of the event's two feature entries, adds three linear images of the event's embedding rows,
  rectifies, and replaces the rows of invalid events by zero; it then views the rows as 16384 groups of 16, sums each
  group, divides by sixteen, and rectifies the sum of a linear image of the node's own embedding row and a linear image
  of that mean. Every weight enters through a transposition, which is the `[inputs, outputs]` reading `tr` of the
  stored `[outputs, inputs]` matrix. Read row by row, these operations are the layer's `eventRow`, its mask (a
  product with the number of a one-bit word, against the reference's selection by that bit), and its `nodeRow`
  (the mean as a product with one sixteenth, against the reference's division by sixteen).
-/
import proofs.«154417_j15590731284983_1_alg».proof.Proof.Gen.ReferenceIdeal.Read
import proofs.«154417_j15590731284983_1_alg».proof.Proof.Spec
import proofs.«154417_j15590731284983_1_alg».proof.Proof.Consts

noncomputable section

namespace Cert.ReferenceIdeal.RefValue

open Cert.ReferenceIdeal Cert.ReferenceIdeal.Read Cert.EventSage Cert.RowLayers Idealize.ShloMosaic Idealize.ShloMosaic.ValueIdx

/-! ## The five products read rows times columns -/

theorem rtc_feat : RowsTimesCols dot_S262144x2_S2x256_S262144x256_1_0_0_1_n_n :=
  ⟨rfl, rfl, lhs_main_v106_0, lhs_main_v106_1, rhs_main_v106_0, rhs_main_v106_1⟩

theorem rtc_hidden : RowsTimesCols dot_S262144x256_S256x256_S262144x256_1_0_0_1_n_n :=
  ⟨rfl, rfl, lhs_main_v112_0, lhs_main_v112_1, rhs_main_v112_0, rhs_main_v112_1⟩

theorem rtc_emb : RowsTimesCols dot_S262144x128_S128x256_S262144x256_1_0_0_1_n_n :=
  ⟨rfl, rfl, lhs_main_v117_0, lhs_main_v117_1, rhs_main_v117_0, rhs_main_v117_1⟩

theorem rtc_self : RowsTimesCols dot_S16384x128_S128x256_S16384x256_1_0_0_1_n_n :=
  ⟨rfl, rfl, lhs_main_v140_0, lhs_main_v140_1, rhs_main_v140_0, rhs_main_v140_1⟩

theorem rtc_neigh : RowsTimesCols dot_S16384x256_S256x256_S16384x256_1_0_0_1_n_n :=
  ⟨rfl, rfl, lhs_main_v142_0, lhs_main_v142_1, rhs_main_v142_0, rhs_main_v142_1⟩

/-! ## The stored weights, transposed, are the `[inputs, outputs]` matrices -/

section
variable (x0 : (⟨S16384, .i32⟩ : BufTy).Contents (Elt Ideal)) (x1 : (⟨S16384x16, .i32⟩ : BufTy).Contents (Elt Ideal)) (x2 x3 x4 x5 x6 x7 : (⟨S1000000, .i32⟩ : BufTy).Contents (Elt Ideal)) (x8 : (⟨S1000000, .f32⟩ : BufTy).Contents (Elt Ideal)) (x9 x10 : (⟨S300000x128, .f32⟩ : BufTy).Contents (Elt Ideal)) (x11 : (⟨S16x128, .f32⟩ : BufTy).Contents (Elt Ideal)) (x12 : (⟨S256x128, .f32⟩ : BufTy).Contents (Elt Ideal)) (x13 : (⟨S256x2, .f32⟩ : BufTy).Contents (Elt Ideal)) (x14 : (⟨S256, .f32⟩ : BufTy).Contents (Elt Ideal)) (x15 : (⟨S256x256, .f32⟩ : BufTy).Contents (Elt Ideal)) (x16 : (⟨S256, .f32⟩ : BufTy).Contents (Elt Ideal)) (x17 x18 x19 : (⟨S256x128, .f32⟩ : BufTy).Contents (Elt Ideal)) (x20 : (⟨S256x256, .f32⟩ : BufTy).Contents (Elt Ideal))

theorem v105_eq : val_main_v105 (F := Ideal) x13 = tr x13 := transpose_eq_tr x13 _
theorem v111_eq : val_main_v111 (F := Ideal) x15 = tr x15 := transpose_eq_tr x15 _
theorem v116_eq : val_main_v116 (F := Ideal) x17 = tr x17 := transpose_eq_tr x17 _
theorem v119_eq : val_main_v119 (F := Ideal) x18 = tr x18 := transpose_eq_tr x18 _
theorem v122_eq : val_main_v122 (F := Ideal) x12 = tr x12 := transpose_eq_tr x12 _
theorem v139_eq : val_main_v139 (F := Ideal) x19 = tr x19 := transpose_eq_tr x19 _
theorem v141_eq : val_main_v141 (F := Ideal) x20 = tr x20 := transpose_eq_tr x20 _

/-! ## The feature row of an event -/

theorem row_v102 (r : Fin 262144) : rowOf (val_main_v102 (F := Ideal) x1 x7) r = fun _ => val_main_v93 (F := Ideal) x1 x7 (ix1 r) := by
  funext c
  show val_main_v102 (F := Ideal) x1 x7 (ix2 r c) = _
  rw [val_main_v102_apply]
  exact congrArg _ (funext fun a => match a with | ⟨0, _⟩ => rfl)

theorem row_v103 (r : Fin 262144) : rowOf (val_main_v103 (F := Ideal) x1 x8) r = fun _ => val_main_v101 (F := Ideal) x1 x8 (ix1 r) := by
  funext c
  show val_main_v103 (F := Ideal) x1 x8 (ix2 r c) = _
  rw [val_main_v103_apply]
  exact congrArg _ (funext fun a => match a with | ⟨0, _⟩ => rfl)

theorem row_v104 (r : Fin 262144) :
    rowOf (val_main_v104 (F := Ideal) x1 x7 x8) r = join (A := 1) (B := 1) (C := 2) rfl (rowOf (val_main_v102 (F := Ideal) x1 x7) r) (rowOf (val_main_v103 (F := Ideal) x1 x8) r) := by
  unfold val_main_v104
  exact rowOf_concat_cols (A := 1) (B := 1) (C := 2) _ _ _ rfl r

/-- The two columns set side by side are the first two feature entries of the event. -/
theorem feat_row (X0 : Cube 16384 16 3)
    (h00 : ∀ (p : Fin 16384) (f : Fin 16), X0 (ix3 p f 0) = val_main_v93 (F := Ideal) x1 x7 (ix1 (evRow p f)))
    (h01 : ∀ (p : Fin 16384) (f : Fin 16), X0 (ix3 p f 1) = val_main_v101 (F := Ideal) x1 x8 (ix1 (evRow p f))) (p : Fin 16384) (f : Fin 16) :
    rowOf (val_main_v104 (F := Ideal) x1 x7 x8) (evRow p f) = featRow X0 p f := by
  rw [row_v104, row_v102, row_v103]
  funext u
  match u with
  | ⟨0, _⟩ => exact (h00 p f).symm
  | ⟨1, _⟩ => exact (h01 p f).symm

/-! ## The perceptron, the three linear images and the rectifier, on a row -/

theorem row_v109 (r : Fin 262144) :
    rowOf (val_main_v109 (F := Ideal) x1 x7 x8 x13 x14) r = dense (rowOf (val_main_v104 (F := Ideal) x1 x7 x8) r) (tr x13) (fun j => x14 (ix1 j)) := by
  unfold val_main_v109 val_main_v106 val_main_v108 val_main_v107
  rw [v105_eq]
  exact rowOf_dense_host rtc_feat none _ _ x14 _ _ r

theorem row_v110 (r : Fin 262144) : rowOf (val_main_v110 (F := Ideal) x1 x7 x8 x13 x14) r = relu zf (rowOf (val_main_v109 (F := Ideal) x1 x7 x8 x13 x14) r) := by
  unfold val_main_v110 val_main_call3_v0 val_main_call3_cst
  exact rowOf_maximumf_const _ _ _ _ r

theorem row_v115 (r : Fin 262144) :
    rowOf (val_main_v115 (F := Ideal) x1 x7 x8 x13 x14 x15 x16) r = dense (rowOf (val_main_v110 (F := Ideal) x1 x7 x8 x13 x14) r) (tr x15) (fun j => x16 (ix1 j)) := by
  unfold val_main_v115 val_main_v112 val_main_v114 val_main_v113
  rw [v111_eq]
  exact rowOf_dense_host rtc_hidden none _ _ x16 _ _ r

theorem row_v117 (r : Fin 262144) : rowOf (val_main_v117 (F := Ideal) x1 x2 x5 x9 x10 x17) r = proj (rowOf (val_main_v56 (F := Ideal) x1 x2 x5 x9 x10) r) (tr x17) := by
  unfold val_main_v117
  rw [v116_eq]
  exact rowOf_dotGeneral rtc_emb none _ _ r

theorem row_v120 (r : Fin 262144) : rowOf (val_main_v120 (F := Ideal) x1 x3 x6 x9 x10 x18) r = proj (rowOf (val_main_v74 (F := Ideal) x1 x3 x6 x9 x10) r) (tr x18) := by
  unfold val_main_v120
  rw [v119_eq]
  exact rowOf_dotGeneral rtc_emb none _ _ r

theorem row_v123 (r : Fin 262144) : rowOf (val_main_v123 (F := Ideal) x1 x4 x11 x12) r = proj (rowOf (val_main_v81 (F := Ideal) x1 x4 x11) r) (tr x12) := by
  unfold val_main_v123
  rw [v122_eq]
  exact rowOf_dotGeneral rtc_emb none _ _ r

theorem row_v125 (r : Fin 262144) :
    rowOf (val_main_v125 (F := Ideal) x1 x2 x3 x4 x5 x6 x7 x8 x9 x10 x11 x12 x13 x14 x15 x16 x17 x18) r
      = relu zf (fun j => ((rowOf (val_main_v115 (F := Ideal) x1 x7 x8 x13 x14 x15 x16) r j + rowOf (val_main_v117 (F := Ideal) x1 x2 x5 x9 x10 x17) r j) + rowOf (val_main_v120 (F := Ideal) x1 x3 x6 x9 x10 x18) r j) + rowOf (val_main_v123 (F := Ideal) x1 x4 x11 x12) r j) := by
  unfold val_main_v125 val_main_call4_v0 val_main_call4_cst val_main_v124 val_main_v121 val_main_v118
  rfl

/-- The rectified row of an event is the layer's hidden row of it. -/
theorem row_event (X0 : Cube 16384 16 3)
    (h00 : ∀ (p : Fin 16384) (f : Fin 16), X0 (ix3 p f 0) = val_main_v93 (F := Ideal) x1 x7 (ix1 (evRow p f)))
    (h01 : ∀ (p : Fin 16384) (f : Fin 16), X0 (ix3 p f 1) = val_main_v101 (F := Ideal) x1 x8 (ix1 (evRow p f)))
    (X1 X2 X3 : Cube 16384 16 128)
    (h1 : ∀ (p : Fin 16384) (f : Fin 16) (k : Fin 128), X1 (ix3 p f k) = val_main_v56 (F := Ideal) x1 x2 x5 x9 x10 (ix2 (evRow p f) k))
    (h2 : ∀ (p : Fin 16384) (f : Fin 16) (k : Fin 128), X2 (ix3 p f k) = val_main_v74 (F := Ideal) x1 x3 x6 x9 x10 (ix2 (evRow p f) k))
    (h3 : ∀ (p : Fin 16384) (f : Fin 16) (k : Fin 128), X3 (ix3 p f k) = val_main_v81 (F := Ideal) x1 x4 x11 (ix2 (evRow p f) k))
    (p : Fin 16384) (f : Fin 16) :
    rowOf (val_main_v125 (F := Ideal) x1 x2 x3 x4 x5 x6 x7 x8 x9 x10 x11 x12 x13 x14 x15 x16 x17 x18) (evRow p f) = eventRow zf (tr x13) (fun j => x14 (ix1 j)) (tr x15) (fun j => x16 (ix1 j)) (tr x17) (tr x18) (tr x12) (featRow X0 p f) (fun k => X1 (ix3 p f k)) (fun k => X2 (ix3 p f k)) (fun k => X3 (ix3 p f k)) := by
  rw [row_v125, row_v115, row_v110, row_v109, feat_row x1 x7 x8 X0 h00 h01, row_v117, row_v120, row_v123,
    show rowOf (val_main_v56 (F := Ideal) x1 x2 x5 x9 x10) (evRow p f) = fun k => X1 (ix3 p f k) from funext fun k => (h1 p f k).symm,
    show rowOf (val_main_v74 (F := Ideal) x1 x3 x6 x9 x10) (evRow p f) = fun k => X2 (ix3 p f k) from funext fun k => (h2 p f k).symm,
    show rowOf (val_main_v81 (F := Ideal) x1 x4 x11) (evRow p f) = fun k => X3 (ix3 p f k) from funext fun k => (h3 p f k).symm]
  rfl

/-! ## The mask: selection by the validity bit is the product with its number -/

theorem v127_ix2 (r : Fin 262144) (j : Fin 256) :
    val_main_v127 (F := Ideal) x1 x2 x3 x4 x5 x6 x7 x8 x9 x10 x11 x12 x13 x14 x15 x16 x17 x18 (ix2 r j)
      = if (val_main_v2 (F := Ideal) x1 (ix1 r) : BitVec 1) = 1 then rowOf (val_main_v125 (F := Ideal) x1 x2 x3 x4 x5 x6 x7 x8 x9 x10 x11 x12 x13 x14 x15 x16 x17 x18) r j else 0 := by
  rw [val_main_v127_apply, val_main_call5_v1_apply, val_main_v126_apply, val_main_call5_v2_apply]
  show Scalar.select (val_main_v2 (F := Ideal) x1 (idx_main_v126 (idx_main_call5_v1 (ix2 r j)))) (val_main_v125 (F := Ideal) x1 x2 x3 x4 x5 x6 x7 x8 x9 x10 x11 x12 x13 x14 x15 x16 x17 x18 (ix2 r j)) (Ideal.ofBits .f32 0x00000000#32) = _
  rw [Consts.ofBits_zero, show idx_main_v126 (idx_main_call5_v1 (ix2 r j)) = ix1 r from funext fun a => match a with | ⟨0, _⟩ => rfl]
  rfl

theorem masked_row (X0 : Cube 16384 16 3)
    (h00 : ∀ (p : Fin 16384) (f : Fin 16), X0 (ix3 p f 0) = val_main_v93 (F := Ideal) x1 x7 (ix1 (evRow p f)))
    (h01 : ∀ (p : Fin 16384) (f : Fin 16), X0 (ix3 p f 1) = val_main_v101 (F := Ideal) x1 x8 (ix1 (evRow p f)))
    (h02 : ∀ (p : Fin 16384) (f : Fin 16), X0 (ix3 p f 2) = (((val_main_v2 (F := Ideal) x1 (ix1 (evRow p f))).toNat : ℝ) : EReal))
    (X1 X2 X3 : Cube 16384 16 128)
    (h1 : ∀ (p : Fin 16384) (f : Fin 16) (k : Fin 128), X1 (ix3 p f k) = val_main_v56 (F := Ideal) x1 x2 x5 x9 x10 (ix2 (evRow p f) k))
    (h2 : ∀ (p : Fin 16384) (f : Fin 16) (k : Fin 128), X2 (ix3 p f k) = val_main_v74 (F := Ideal) x1 x3 x6 x9 x10 (ix2 (evRow p f) k))
    (h3 : ∀ (p : Fin 16384) (f : Fin 16) (k : Fin 128), X3 (ix3 p f k) = val_main_v81 (F := Ideal) x1 x4 x11 (ix2 (evRow p f) k))
    (p : Fin 16384) (f : Fin 16) (j : Fin 256) :
    val_main_v127 (F := Ideal) x1 x2 x3 x4 x5 x6 x7 x8 x9 x10 x11 x12 x13 x14 x15 x16 x17 x18 (ix2 (evRow p f) j) = maskedEventRow zf (tr x13) (fun j => x14 (ix1 j)) (tr x15) (fun j => x16 (ix1 j)) (tr x17) (tr x18) (tr x12) X0 X1 X2 X3 p f j := by
  rw [v127_ix2, row_event x1 x2 x3 x4 x5 x6 x7 x8 x9 x10 x11 x12 x13 x14 x15 x16 x17 x18 X0 h00 h01 X1 X2 X3 h1 h2 h3 p f]
  unfold maskedEventRow
  rw [h02 p f, mul_bit]

/-! ## The groups of sixteen rows, their sum and their mean -/

theorem v128_ix3 (p : Fin 16384) (f : Fin 16) (j : Fin 256) :
    val_main_v128 (F := Ideal) x1 x2 x3 x4 x5 x6 x7 x8 x9 x10 x11 x12 x13 x14 x15 x16 x17 x18 (ix3 p f j) = val_main_v127 (F := Ideal) x1 x2 x3 x4 x5 x6 x7 x8 x9 x10 x11 x12 x13 x14 x15 x16 x17 x18 (ix2 (evRow p f) j) := by
  unfold val_main_v128
  exact shapeCast_apply _ _ _ _ (by rw [Shape.rowMajor_val_two, Shape.rowMajor_val_three]; rfl)

theorem row_v131 (p : Fin 16384) :
    rowOf (val_main_v131 (F := Ideal) x1 x2 x3 x4 x5 x6 x7 x8 x9 x10 x11 x12 x13 x14 x15 x16 x17 x18) p = fun j => (∑ f : Fin 16, val_main_v127 (F := Ideal) x1 x2 x3 x4 x5 x6 x7 x8 x9 x10 x11 x12 x13 x14 x15 x16 x17 x18 (ix2 (evRow p f) j)) * c16 := by
  funext j
  show val_main_v131 (F := Ideal) x1 x2 x3 x4 x5 x6 x7 x8 x9 x10 x11 x12 x13 x14 x15 x16 x17 x18 (ix2 p j) = _
  rw [val_main_v131_apply, val_main_v129_apply, val_main_v130_apply]
  show Ideal.div (Ideal.ofBits .f32 0x00000000#32 + ∑ k : Fin 16, val_main_v128 (F := Ideal) x1 x2 x3 x4 x5 x6 x7 x8 x9 x10 x11 x12 x13 x14 x15 x16 x17 x18 (idx_main_v129 (ix2 p j) k)) (Ideal.ofBits .f32 0x41800000#32) = _
  rw [Consts.ofBits_zero, zero_add, Consts.div_sixteen]
  refine congrArg (· * _) (Finset.sum_congr rfl fun f _ => ?_)
  rw [show idx_main_v129 (ix2 p j) f = ix3 p f j from funext fun a => match a with | ⟨0, _⟩ => rfl | ⟨1, _⟩ => rfl | ⟨2, _⟩ => rfl]
  exact v128_ix3 x1 x2 x3 x4 x5 x6 x7 x8 x9 x10 x11 x12 x13 x14 x15 x16 x17 x18 p f j

/-! ## The node's row -/

theorem row_v140 (p : Fin 16384) : rowOf (val_main_v140 (F := Ideal) x0 x9 x19) p = proj (rowOf (val_main_v138 (F := Ideal) x0 x9) p) (tr x19) := by
  unfold val_main_v140
  rw [v139_eq]
  exact rowOf_dotGeneral rtc_self none _ _ p

theorem row_v142 (p : Fin 16384) : rowOf (val_main_v142 (F := Ideal) x1 x2 x3 x4 x5 x6 x7 x8 x9 x10 x11 x12 x13 x14 x15 x16 x17 x18 x20) p = proj (rowOf (val_main_v131 (F := Ideal) x1 x2 x3 x4 x5 x6 x7 x8 x9 x10 x11 x12 x13 x14 x15 x16 x17 x18) p) (tr x20) := by
  unfold val_main_v142
  rw [v141_eq]
  exact rowOf_dotGeneral rtc_neigh none _ _ p

theorem row_v144 (p : Fin 16384) :
    rowOf (val_main_v144 (F := Ideal) x0 x1 x2 x3 x4 x5 x6 x7 x8 x9 x10 x11 x12 x13 x14 x15 x16 x17 x18 x19 x20) p = relu zf (fun q => rowOf (val_main_v140 (F := Ideal) x0 x9 x19) p q + rowOf (val_main_v142 (F := Ideal) x1 x2 x3 x4 x5 x6 x7 x8 x9 x10 x11 x12 x13 x14 x15 x16 x17 x18 x20) p q) := by
  unfold val_main_v144 val_main_call6_v0 val_main_call6_cst val_main_v143
  rfl

end

/-- The reference's result is the layer on the gathered event and node arrays. -/
theorem ref_is_layer
    (x0 : (⟨S16384, .i32⟩ : BufTy).Contents (Elt Ideal)) (x1 : (⟨S16384x16, .i32⟩ : BufTy).Contents (Elt Ideal)) (x2 x3 x4 x5 x6 x7 : (⟨S1000000, .i32⟩ : BufTy).Contents (Elt Ideal)) (x8 : (⟨S1000000, .f32⟩ : BufTy).Contents (Elt Ideal)) (x9 x10 : (⟨S300000x128, .f32⟩ : BufTy).Contents (Elt Ideal)) (x11 : (⟨S16x128, .f32⟩ : BufTy).Contents (Elt Ideal)) (x12 : (⟨S256x128, .f32⟩ : BufTy).Contents (Elt Ideal)) (x13 : (⟨S256x2, .f32⟩ : BufTy).Contents (Elt Ideal)) (x14 : (⟨S256, .f32⟩ : BufTy).Contents (Elt Ideal)) (x15 : (⟨S256x256, .f32⟩ : BufTy).Contents (Elt Ideal)) (x16 : (⟨S256, .f32⟩ : BufTy).Contents (Elt Ideal)) (x17 x18 x19 : (⟨S256x128, .f32⟩ : BufTy).Contents (Elt Ideal)) (x20 : (⟨S256x256, .f32⟩ : BufTy).Contents (Elt Ideal))
    (X0 : Cube 16384 16 3) (X1 X2 X3 : Cube 16384 16 128) (X4 : Mat 16384 128)
    (h00 : ∀ (p : Fin 16384) (f : Fin 16), X0 (ix3 p f 0) = val_main_v93 (F := Ideal) x1 x7 (ix1 (evRow p f)))
    (h01 : ∀ (p : Fin 16384) (f : Fin 16), X0 (ix3 p f 1) = val_main_v101 (F := Ideal) x1 x8 (ix1 (evRow p f)))
    (h02 : ∀ (p : Fin 16384) (f : Fin 16), X0 (ix3 p f 2) = (((val_main_v2 (F := Ideal) x1 (ix1 (evRow p f))).toNat : ℝ) : EReal))
    (h1 : ∀ (p : Fin 16384) (f : Fin 16) (k : Fin 128), X1 (ix3 p f k) = val_main_v56 (F := Ideal) x1 x2 x5 x9 x10 (ix2 (evRow p f) k))
    (h2 : ∀ (p : Fin 16384) (f : Fin 16) (k : Fin 128), X2 (ix3 p f k) = val_main_v74 (F := Ideal) x1 x3 x6 x9 x10 (ix2 (evRow p f) k))
    (h3 : ∀ (p : Fin 16384) (f : Fin 16) (k : Fin 128), X3 (ix3 p f k) = val_main_v81 (F := Ideal) x1 x4 x11 (ix2 (evRow p f) k))
    (h4 : ∀ (p : Fin 16384) (k : Fin 128), X4 (ix2 p k) = val_main_v138 (F := Ideal) x0 x9 (ix2 p k)) :
    val_main_v144 (F := Ideal) x0 x1 x2 x3 x4 x5 x6 x7 x8 x9 x10 x11 x12 x13 x14 x15 x16 x17 x18 x19 x20
      = layer (a := 16384) zf c16 (tr x13) (fun j => x14 (ix1 j)) (tr x15) (fun j => x16 (ix1 j)) (tr x17) (tr x18) (tr x12) (tr x19) (tr x20) X0 X1 X2 X3 X4 := by
  funext i
  obtain ⟨p, q, rfl⟩ : ∃ (p : Fin 16384) (q : Fin 256), i = ix2 p q := ⟨i 0, i 1, eq_ix2 i⟩
  rw [layer_ix2]
  show rowOf (val_main_v144 (F := Ideal) x0 x1 x2 x3 x4 x5 x6 x7 x8 x9 x10 x11 x12 x13 x14 x15 x16 x17 x18 x19 x20) p q = _
  rw [row_v144, row_v140, row_v142, row_v131]
  have e4 : rowOf (val_main_v138 (F := Ideal) x0 x9) p = rowOf X4 p := funext fun k => (h4 p k).symm
  have em : (fun j => (∑ f : Fin 16, val_main_v127 (F := Ideal) x1 x2 x3 x4 x5 x6 x7 x8 x9 x10 x11 x12 x13 x14 x15 x16 x17 x18 (ix2 (evRow p f) j)) * c16)
      = fun j => (∑ f : Fin 16, maskedEventRow zf (tr x13) (fun j => x14 (ix1 j)) (tr x15) (fun j => x16 (ix1 j)) (tr x17) (tr x18) (tr x12) X0 X1 X2 X3 p f j) * c16 :=
    funext fun j => congrArg (· * c16) (Finset.sum_congr rfl fun f _ =>
      masked_row x1 x2 x3 x4 x5 x6 x7 x8 x9 x10 x11 x12 x13 x14 x15 x16 x17 x18 X0 h00 h01 h02 X1 X2 X3 h1 h2 h3 p f j)
  rw [e4, em]
  rfl

end Cert.ReferenceIdeal.RefValue

end
-- ==== Proof.Algebraic.lean ====
/-
  The two idealized programs compute the same array.

  The kernel program's result is the layer of the arrays its call finds (the value module); those arrays are,
  entry by entry, the reference's own gathered stages of the launched arguments (the host-prefix module); and the
  reference's result is the layer of exactly such arrays (the reference module). So the kernel's result is the
  reference's result stage of the launched arguments, and the two runs, started from memories that agree on the
  arguments, end with the same array.
-/
import proofs.«154417_j15590731284983_1_alg».proof.Defs
import proofs.«154417_j15590731284983_1_alg».proof.Proof.Gen.Pre_finite_inputs
import proofs.«154417_j15590731284983_1_alg».proof.Proof.KernelValue
import proofs.«154417_j15590731284983_1_alg».proof.Proof.HostPrefix
import proofs.«154417_j15590731284983_1_alg».proof.Proof.RefLayer

noncomputable section

namespace Cert.Proof.Alg

open Idealize.ShloMosaic Idealize.ShloMosaic.TcCoe Idealize.SL.Sem Idealize.ShloMosaic.ValueIdx
open Cert.EventSage Cert.RowLayers Cert.KernelIdeal.Fr

/-- The kernel program's result array is the reference's result stage of the launched arguments. -/
theorem G_eq_ref (m : (ℓ : Loc Cert.KernelIdeal.nD Cert.KernelIdeal.τ Cert.KernelIdeal.sig) → Buf (Elt Ideal) ℓ) (c : Dev Cert.KernelIdeal.nD) :
    Cert.KernelIdeal.Val.G m c
      = Cert.ReferenceIdeal.Read.val_main_v144 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20)) := by
  unfold Cert.KernelIdeal.Val.G
  have hb1 : rowOf (V m c Cert.KernelIdeal.main_v118) 0 = fun j => (m ((c.tc : Thread Cert.KernelIdeal.nD Cert.KernelIdeal.τ).loc Cert.KernelIdeal.main_arg14)) (ix1 j) := funext fun j => entry_b1 m c j
  have hb2 : rowOf (V m c Cert.KernelIdeal.main_v119) 0 = fun j => (m ((c.tc : Thread Cert.KernelIdeal.nD Cert.KernelIdeal.τ).loc Cert.KernelIdeal.main_arg16)) (ix1 j) := funext fun j => entry_b2 m c j
  rw [hb1, hb2, V_main_arg13, V_main_arg15, V_main_arg17, V_main_arg18, V_main_arg12, V_main_arg19, V_main_arg20]
  exact (Cert.ReferenceIdeal.RefValue.ref_is_layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (V m c Cert.KernelIdeal.main_v114) (V m c Cert.KernelIdeal.main_v115) (V m c Cert.KernelIdeal.main_v116) (V m c Cert.KernelIdeal.main_v117)
      (V m c Cert.KernelIdeal.main_v113)
      (entry_feat0 m c) (entry_feat1 m c) (entry_mask m c) (entry_src m c) (entry_dst m c) (entry_rel m c) (entry_self m c)).symm

/-- From memories agreeing on the arguments both idealized programs run to the end, with the same result array and
    their arguments unchanged. -/
theorem algebraic : Cert.algebraic_KernelIdeal_ReferenceIdeal := by
  intro m ρ m' ρ' _ hagree
  refine ⟨fun c => Cert.KernelIdeal.Val.G m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19, a20⟩ := hagree c
  rw [Cert.ReferenceIdeal.Read.val_main_v144_eq]
  show _ = Cert.KernelIdeal.Val.G m c
  rw [G_eq_ref, a0, a1, a2, a3, a4, a5, a6, a7, a8, a9, a10, a11, a12, a13, a14, a15, a16, a17,
    a18, a19, a20]

end Cert.Proof.Alg

end
-- ==== Proof.lean ====
/-
  The certificate of one neighbourhood-aggregation layer over sampled events: a fused accelerator kernel against
  its plain array-program reference.

  Both programs first gather, for each of 16384 nodes and its 16 sampled events, the events' fields and the
  embedding rows they point to, with the same array operations. The reference then computes, on whole arrays, a
  two-layer perceptron of each event's two features plus three linear images of its embedding rows, rectifies,
  zeroes the invalid events, averages each node's 16 events and combines the average with the node's own row. The
  kernel does the same in one call over 128 blocks of 128 nodes, with the validity bit carried as a third feature
  column that the hidden rows are multiplied by, and the average taken as a product with one sixteenth.
  Read at the extended reals (exact operations, changes of float format the identity) the two are the same
  function: a product with the number of a one-bit word is the selection it stands for, a quotient by sixteen is the
  product with its reciprocal, and every other step is the same sum, maximum or product on both sides; no
  finiteness of the inputs is used.
  The three frames: each kernel program's frame is the pipeline library's run of its one call (the body loads whole
  blocks, computes, and stores one whole block; no host operation before the call writes an argument); the
  reference's frame is its run with the result dropped. Nothing was rewritten by the idealization, so the
  preservation claim is trivial.
-/
import proofs.«154417_j15590731284983_1_alg».proof.Defs
import proofs.«154417_j15590731284983_1_alg».proof.Proof.Gen.Kernel
import proofs.«154417_j15590731284983_1_alg».proof.Proof.Gen.KernelIdeal
import proofs.«154417_j15590731284983_1_alg».proof.Proof.Gen.ReferenceIdeal
import proofs.«154417_j15590731284983_1_alg».proof.Proof.Gen.Pre_finite_inputs
import proofs.«154417_j15590731284983_1_alg».proof.Proof.FrameBits
import proofs.«154417_j15590731284983_1_alg».proof.Proof.FrameIdeal
import proofs.«154417_j15590731284983_1_alg».proof.Proof.RefFrame
import proofs.«154417_j15590731284983_1_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ

theorem claim : Cert.Claim :=
  ⟨Cert.Kernel.Gen.facts, Cert.KernelIdeal.Gen.facts, Cert.ReferenceIdeal.Gen.facts, Cert.Pre_finite_inputs.Gen.facts,
    frame_k, frame_ki, Cert.Proof.Ref.frame_ri, trivial, Cert.Proof.Alg.algebraic⟩

end Cert.Proof

end
